-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S64x128 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S100000x64 : Shape := ⟨2, ![100000, 64]⟩
abbrev S5000x64 : Shape := ⟨2, ![5000, 64]⟩

abbrev nBuf : Space → Nat
  | .hbm => 65
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1600000, .i1⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S1600000, .f32⟩
  | .hbm, ⟨40, _⟩ => ⟨S_, .f32⟩
  | .hbm, ⟨41, _⟩ => ⟨S100000, .f32⟩
  | .hbm, ⟨42, _⟩ => ⟨S1600000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S128x128, .f32⟩
  | .hbm, ⟨50, _⟩ => ⟨S128x64, .f32⟩
  | .hbm, ⟨51, _⟩ => ⟨S1x128, .f32⟩
  | .hbm, ⟨52, _⟩ => ⟨S1x64, .f32⟩
  | .hbm, ⟨53, _⟩ => ⟨S100000x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S128x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v39_2 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  transposes_S128x128_S128x128_1_0 : S128x128.Transposes [1, 0] S128x128
  transposes_S64x128_S128x64_1_0 : S64x128.Transposes [1, 0] S128x64
  shapeCasts_S128_S1x128 : S128.ShapeCasts S1x128
  shapeCasts_S64_S1x64 : S64.ShapeCasts S1x64
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S64x128, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S128x128, .f32⟩
  | 11 => ⟨S100000x128, .f32⟩
  | 12 => ⟨S1600000, .i1⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S128x64, .f32⟩
  | 110 => ⟨S100000x64, .f32⟩
  | 111 => ⟨S1600000, .i1⟩
  | 112 => ⟨S1600000, .f32⟩
  | 113 => ⟨S_, .f32⟩
  | 114 => ⟨S100000, .f32⟩
  | 115 => ⟨S1600000x1, .i32⟩
  | 116 => ⟨S100000, .f32⟩
  | 117 => ⟨S_, .f32⟩
  | 118 => ⟨S100000, .f32⟩
  | 119 => ⟨S100000, .f32⟩
  | 120 => ⟨S100000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000, .f32⟩
  | 11 => ⟨S1600000, .f32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x1, .f32⟩
  | 23 => ⟨S1600000x64, .f32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S_, .f32⟩
  | 30 => ⟨S100000, .f32⟩
  | 31 => ⟨S100000, .f32⟩
  | 32 => ⟨S100000x1, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_cst_3 : Ref sig .tc := ⟨.hbm, 90, rfl⟩
abbrev main_call0_v12 : Ref sig .tc := ⟨.hbm, 91, rfl⟩
abbrev main_call0_cst_4 : Ref sig .tc := ⟨.hbm, 92, rfl⟩
abbrev main_call0_call0_v0 : Ref sig .tc := ⟨.hbm, 93, rfl⟩
abbrev main_call0_call0_v1 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_11 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call1_cst : Ref sig .tc := ⟨.hbm, 106, rfl⟩
abbrev main_call1_v0 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_12 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_13 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_14 : Ref sig .tc := ⟨.hbm, 121, rfl⟩
abbrev main_v76 : Ref sig .tc := ⟨.hbm, 122, rfl⟩
abbrev main_v77 : Ref sig .tc := ⟨.hbm, 123, rfl⟩
abbrev main_c_15 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_16 : Ref sig .tc := ⟨.hbm, 130, rfl⟩
abbrev main_v83 : Ref sig .tc := ⟨.hbm, 131, rfl⟩
abbrev main_v84 : Ref sig .tc := ⟨.hbm, 132, rfl⟩
abbrev main_c_17 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_c_18 : Ref sig .tc := ⟨.hbm, 141, rfl⟩
abbrev main_v92 : Ref sig .tc := ⟨.hbm, 142, rfl⟩
abbrev main_v93 : Ref sig .tc := ⟨.hbm, 143, rfl⟩
abbrev main_c_19 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_20 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_21 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S64x128_S128x64_1_0 : S64x128.Transposes [1, 0] S128x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KerRun.lean ====
/- The kernel program's run with its result named: every weakly fair execution terminates without a fault, the six
   argument arrays end as launched, and the result array ends at the contents the last region's write-backs leave
   (the fold of the host operations and of the two regions' blocks over the launch memory). -/
import proofs.«162744_j44349832298684_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program on the TensorCores terminates, nothing faulting; in every final
    state the result array holds the last boundary's contents, and the six argument arrays are as launched. -/
theorem run : θ_run defs (onTc (τ := τ) (main (F := F))) ⟨m, fun _ => 0, ρ⟩ (fun r => ∀ c : Dev nD,
      r.2.mem ((c.tc : Thread nD τ).loc main_v46) = Gen.W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KerRun

end
-- ==== Proof.KerHost1.lean ====
/- The host operations between the two kernel calls, read at an index. They divide the two column accumulators
   the first call leaves by the row count (the word of 100000.0, broadcast to a row of 128), giving the mean and the
   mean of squares, and subtract the mean's square from the latter, giving the variance; every other array the second
   call reads is as the first call's exit left it. -/
import proofs.«162744_j44349832298684_2_alg».proof.Proof.Gen.KernelIdeal.Frame
import Idealize.ShloMosaic.PureOps.Ideal.Laws
import Idealize.ShloMosaic.Lib.ValueLayout

set_option maxRecDepth 16384

noncomputable section

namespace Cert.KernelIdeal.Host1

open Cert.KernelIdeal Cert.KernelIdeal.Gen
open Idealize.ShloMosaic Idealize.ShloMosaic.TcCoe Idealize.ShloMosaic.Tactic Idealize.ShloMosaic.ValueIdx
open Idealize.ShloMosaic.StableHlo

variable (m : (ℓ : Loc nD τ sig) → Buf (Elt Ideal) ℓ) (ρ : Dev nD → PrngReg)

/-- The row count 100000.0 as the host writes it: its word, broadcast to one row of 128. -/
def rowCount : FVec Ideal S1x128 .f32 :=
  broadcastInDim S1x128 ![] bcast_S_S1x128 (constant (F := Ideal) S_ .f32 0x47C35000#32)

/-- Every entry of the broadcast row count is the word's value. -/
theorem rowCount_apply (j : S1x128.Idx) : rowCount j = Ideal.ofBits .f32 0x47C35000#32 := rfl

/-- The mean of a column accumulator: its entries over the row count. -/
def meanOf (s : FVec Ideal S1x128 .f32) : FVec Ideal S1x128 .f32 := Host.divf (F := Ideal) s rowCount

/-- The variance from the two column accumulators: the mean of squares less the square of the mean. -/
def varOf (s ss : FVec Ideal S1x128 .f32) : FVec Ideal S1x128 .f32 := subf (meanOf ss) (mulf (meanOf s) (meanOf s))

theorem meanOf_apply (s : FVec Ideal S1x128 .f32) (j : S1x128.Idx) :
    meanOf s j = Ideal.div (s j) (Ideal.ofBits .f32 0x47C35000#32) := rfl

theorem varOf_apply (s ss : FVec Ideal S1x128 .f32) (j : S1x128.Idx) :
    varOf s ss j = Ideal.div (ss j) (Ideal.ofBits .f32 0x47C35000#32)
      - Ideal.div (s j) (Ideal.ofBits .f32 0x47C35000#32) * Ideal.div (s j) (Ideal.ofBits .f32 0x47C35000#32) := rfl

/-! ## The two arrays the host operations compute -/

/-- The mean: the first accumulator divided by the row count. -/
theorem V3_mean (c : Dev nD) :
    Gen.V3 m ρ c main_v41 = meanOf (Gen.W2 m ρ c (Proc.devRef .tc main_v39_1)) := by
  show StableHlo.after hostOps1 _ (Proc.devRef .tc main_v41) = _
  after_results
  rfl

/-- The variance: the second accumulator divided by the row count, less the square of the mean. -/
theorem V3_var (c : Dev nD) :
    Gen.V3 m ρ c main_v45
      = varOf (Gen.W2 m ρ c (Proc.devRef .tc main_v39_1)) (Gen.W2 m ρ c (Proc.devRef .tc main_v39_2)) := by
  show StableHlo.after hostOps1 _ (Proc.devRef .tc main_v45) = _
  after_results
  rfl

/-! ## The arrays the host operations do not write -/

theorem V3_hb (c : Dev nD) : Gen.V3 m ρ c main_v39_0 = Gen.W2 m ρ c (Proc.devRef .tc main_v39_0) :=
  StableHlo.after_of_forall_not_mem (b := Proc.devRef .tc main_v39_0) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))
theorem V3_w2t (c : Dev nD) : Gen.V3 m ρ c main_v36 = Gen.W2 m ρ c (Proc.devRef .tc main_v36) :=
  StableHlo.after_of_forall_not_mem (b := Proc.devRef .tc main_v36) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))
theorem V3_scale (c : Dev nD) : Gen.V3 m ρ c main_v34 = Gen.W2 m ρ c (Proc.devRef .tc main_v34) :=
  StableHlo.after_of_forall_not_mem (b := Proc.devRef .tc main_v34) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))
theorem V3_b2 (c : Dev nD) : Gen.V3 m ρ c main_v38 = Gen.W2 m ρ c (Proc.devRef .tc main_v38) :=
  StableHlo.after_of_forall_not_mem (b := Proc.devRef .tc main_v38) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))

/-! ## The first call's exit contents at these buffers: its three outputs at what its write-backs leave, the
    rest as it was entered -/

theorem W2_hb (c : Dev nD) : Gen.W2 m ρ c (Proc.devRef .tc main_v39_0) = (Gen.dat0 (Gen.V1 m ρ) c).arrAt 4 cfg0.N :=
  Gen.W2_arr m ρ c 4
theorem W2_sum (c : Dev nD) : Gen.W2 m ρ c (Proc.devRef .tc main_v39_1) = (Gen.dat0 (Gen.V1 m ρ) c).arrAt 5 cfg0.N :=
  Gen.W2_arr m ρ c 5
theorem W2_sumsq (c : Dev nD) : Gen.W2 m ρ c (Proc.devRef .tc main_v39_2) = (Gen.dat0 (Gen.V1 m ρ) c).arrAt 6 cfg0.N :=
  Gen.W2_arr m ρ c 6
theorem W2_w2t (c : Dev nD) : Gen.W2 m ρ c (Proc.devRef .tc main_v36) = Gen.V1 m ρ c main_v36 :=
  Gen.W2_of_ne m ρ c main_v36 (by decide)
/-- The scale column is an input of the first call too: an input array is left as entered. -/
theorem W2_scale (c : Dev nD) : Gen.W2 m ρ c (Proc.devRef .tc main_v34) = Gen.V1 m ρ c main_v34 :=
  (Gen.W2_arr m ρ c 2).trans (((Gen.dat0 (Gen.V1 m ρ) c).arrAt_in 2 rfl _).trans (Gen.A_eq0 (Gen.V1 m ρ) c 2))
theorem W2_b2 (c : Dev nD) : Gen.W2 m ρ c (Proc.devRef .tc main_v38) = Gen.V1 m ρ c main_v38 :=
  Gen.W2_of_ne m ρ c main_v38 (by decide)

/-! ## The second call's six input arrays, from the first call's results and entry contents -/

theorem V3_hb_eq (c : Dev nD) : Gen.V3 m ρ c main_v39_0 = (Gen.dat0 (Gen.V1 m ρ) c).arrAt 4 cfg0.N :=
  (V3_hb m ρ c).trans (W2_hb m ρ c)
theorem V3_w2t_eq (c : Dev nD) : Gen.V3 m ρ c main_v36 = Gen.V1 m ρ c main_v36 :=
  (V3_w2t m ρ c).trans (W2_w2t m ρ c)
theorem V3_scale_eq (c : Dev nD) : Gen.V3 m ρ c main_v34 = Gen.V1 m ρ c main_v34 :=
  (V3_scale m ρ c).trans (W2_scale m ρ c)
theorem V3_b2_eq (c : Dev nD) : Gen.V3 m ρ c main_v38 = Gen.V1 m ρ c main_v38 :=
  (V3_b2 m ρ c).trans (W2_b2 m ρ c)

theorem V3_mean_eq (c : Dev nD) :
    Gen.V3 m ρ c main_v41 = meanOf ((Gen.dat0 (Gen.V1 m ρ) c).arrAt 5 cfg0.N) := by
  rw [V3_mean, W2_sum]
theorem V3_var_eq (c : Dev nD) :
    Gen.V3 m ρ c main_v45 = varOf ((Gen.dat0 (Gen.V1 m ρ) c).arrAt 5 cfg0.N) ((Gen.dat0 (Gen.V1 m ρ) c).arrAt 6 cfg0.N) := by
  rw [V3_var, W2_sum, W2_sumsq]

/-- The mean at column `k`: the first accumulator's entry over the row count. -/
theorem mean_apply (c : Dev nD) (k : Fin 128) :
    (Gen.V3 m ρ c main_v41 : FVec Ideal S1x128 .f32) (ix2 0 k)
      = Ideal.div (((Gen.dat0 (Gen.V1 m ρ) c).arrAt 5 cfg0.N : FVec Ideal S1x128 .f32) (ix2 0 k))
          (Ideal.ofBits .f32 0x47C35000#32) := by
  rw [V3_mean_eq]; rfl

/-- The variance at column `k`: the second accumulator's entry over the row count, less the mean's square. -/
theorem var_apply (c : Dev nD) (k : Fin 128) :
    (Gen.V3 m ρ c main_v45 : FVec Ideal S1x128 .f32) (ix2 0 k)
      = Ideal.div (((Gen.dat0 (Gen.V1 m ρ) c).arrAt 6 cfg0.N : FVec Ideal S1x128 .f32) (ix2 0 k))
            (Ideal.ofBits .f32 0x47C35000#32)
          - Ideal.div (((Gen.dat0 (Gen.V1 m ρ) c).arrAt 5 cfg0.N : FVec Ideal S1x128 .f32) (ix2 0 k))
              (Ideal.ofBits .f32 0x47C35000#32)
            * Ideal.div (((Gen.dat0 (Gen.V1 m ρ) c).arrAt 5 cfg0.N : FVec Ideal S1x128 .f32) (ix2 0 k))
              (Ideal.ofBits .f32 0x47C35000#32) := by
  rw [V3_var_eq]; rfl

end Cert.KernelIdeal.Host1

end
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.LibColumnLayout.lean ====
/-
  Column forms of two layout operations, read at an index built from coordinates.

  A sum over the last axis taken with the reduced axis kept (a column of row sums) meets two layout operations in
  their column forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KerReg1Pay.lean ====
/- The second kernel's body at an index. At the ideal values the one stored payload is, entry by entry, a plain matrix
   product of the normalised and rectified activations with the second weight matrix, scaled by the row's scale and
   shifted by the column's bias: the rounding to the narrow format on the way into the product is the identity, the
   casts keep the shape, and the three broadcasts read a row, a row and a column. -/
import proofs.«162744_j44349832298684_2_alg».proof.Proof.Gen.KernelIdeal.Skeleton
import proofs.«162744_j44349832298684_2_alg».proof.Proof.LibPlainDot
import proofs.«162744_j44349832298684_2_alg».proof.Proof.LibColumnLayout
import Idealize.ShloMosaic.PureOps.Ideal.Laws
import Idealize.ShloMosaic.Lib.ValueLayout

set_option maxRecDepth 16384

noncomputable section

open scoped BigOperators

namespace Cert.KernelIdeal.Reg1

open Cert.KernelIdeal Cert.KernelIdeal.Gen
open Idealize.ShloMosaic Idealize.ShloMosaic.ValueIdx

/-- The printed dimension numbers of the body's product are the plain ones: rows by columns, one contracted axis. -/
theorem dot_eq : dot_S5000x128_S128x64_S5000x64_1_0_0_1_n_n = DotDims.plain 5000 128 64 := rfl

/-- One entry of the result from the six operands' entries: row `i` of the activations, normalised by the column's
    mean and variance and rectified, against column `q` of the weights; then the row's scale and the column's bias.
    Generic in the row count, so that it reads a block and the whole array alike. -/
def entry {R : Nat} (HB : FVec Ideal ⟨2, ![R, 128]⟩ .f32) (MEAN VAR : FVec Ideal S1x128 .f32) (W2T : FVec Ideal S128x64 .f32)
    (SC : FVec Ideal ⟨2, ![R, 1]⟩ .f32) (B2 : FVec Ideal S1x64 .f32) (i : Fin R) (q : Fin 64) : EReal :=
  (∑ k : Fin 128,
      max ((HB (ix2 i k) - MEAN (ix2 (0 : Fin 1) k))
            * Ideal.rsqrt (VAR (ix2 (0 : Fin 1) k) + Ideal.ofBits .f32 0x3727C5AC#32))
          (Ideal.ofBits .f32 0x00000000#32)
        * W2T (ix2 k q))
    * SC (ix2 i (0 : Fin 1)) + B2 (ix2 (0 : Fin 1) q)

/-- The body's payload at `(p, q)` is that entry of its six loaded blocks. -/
theorem pay_apply (x0 : FVec Ideal S5000x128 .f32) (x1 x2 : FVec Ideal S1x128 .f32) (x3 : FVec Ideal S128x64 .f32)
    (x4 : FVec Ideal S5000x1 .f32) (x5 : FVec Ideal S1x64 .f32) (p : Fin 5000) (q : Fin 64) :
    k1_pay1 (F := Ideal) x0 x1 x2 x3 x4 x5 (ix2 p q) = entry x0 x1 x2 x3 x4 x5 p q := by
  unfold k1_pay1 entry
  simp only [addf_apply, mulf_apply, shapeCast_self]
  rw [ColumnLayout.broadcastTo_a1_ab_apply x4 broadcasts_S5000x1_S5000x64 p q,
    broadcastTo_1b_ab_apply x5 broadcasts_S1x64_S5000x64 p q, dot_eq]
  refine congrArg (fun s => s * x4 (ix2 p (0 : Fin 1)) + x5 (ix2 (0 : Fin 1) q)) ?_
  refine (Cert.Lib.PlainDot.matmul_zero_apply 5000 128 64 none _ _ p q).trans ?_
  refine Finset.sum_congr rfl fun k _ => ?_
  rw [truncf_apply, truncf_apply, maximumf_apply, mulf_apply, subf_apply,
    broadcastTo_1b_ab_apply x1 broadcasts_S1x128_S5000x128 p k,
    broadcastTo_1b_ab_apply _ broadcasts_S1x128_S5000x128 p k]
  rfl

end Cert.KernelIdeal.Reg1

end
-- ==== Proof.KerReg1.lean ====
/- What the second kernel call leaves in the result array. Every grid point writes back one block of 5000 rows; the block
   a point writes is the body's payload of that point's six input blocks, and each input block is its array read through
   the point's rows (the activations and the scale column) or the whole array (the mean, the variance, the weights and
   the bias). So the blocks are the restrictions of ONE function of the six arrays, the twenty blocks cover the array,
   and the array ends holding that function. -/
import proofs.«162744_j44349832298684_2_alg».proof.Proof.Gen.KernelIdeal.Frame
import proofs.«162744_j44349832298684_2_alg».proof.Proof.KerReg1Pay

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows sit at block row `t`, the others at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each input block, read at an index, is its array at the point's rows -/

/-- The activations' block at point `t` is rows `5000 t … 5000 t + 4999` of the array. -/
theorem blk0_apply (c : Dev nD) (t : Fin cfg1.N) (p : Fin 5000) (k : Fin 128) (i : Fin 100000)
    (hi : i.val = t.val * 5000 + p.val) :
    (Gen.iblk1 V c 0 t : FVec Ideal S5000x128 .f32) (ix2 p k) = (V c main_v39_0 : FVec Ideal S100000x128 .f32) (ix2 i k) := by
  obtain ⟨e0, e1, -⟩ := idx_facts t
  unfold Gen.iblk1
  rw [View.read_apply]
  show (V c main_v39_0 : FVec Ideal S100000x128 .f32) _ = (V c main_v39_0 : FVec Ideal S100000x128 .f32) _
  refine congrArg (V c main_v39_0 : FVec Ideal S100000x128 .f32) (funext fun a => Fin.ext ?_)
  match a with
  | ⟨0, _⟩ => show win1_0.index t (0 : Fin 2) * 5000 + 1 * p.val = i.val; rw [e0, hi]; omega
  | ⟨1, _⟩ => show win1_0.index t (1 : Fin 2) * 128 + 1 * k.val = k.val; rw [e1]; omega

/-- The mean's block at any point is the whole row. -/
theorem blk1_apply (c : Dev nD) (t : Fin cfg1.N) (k : Fin 128) :
    (Gen.iblk1 V c 1 t : FVec Ideal S1x128 .f32) (ix2 (0 : Fin 1) k) = (V c main_v41 : FVec Ideal S1x128 .f32) (ix2 (0 : Fin 1) k) := by
  obtain ⟨-, -, e0, e1, -⟩ := idx_facts t
  unfold Gen.iblk1
  rw [View.read_apply]
  show (V c main_v41 : FVec Ideal S1x128 .f32) _ = (V c main_v41 : FVec Ideal S1x128 .f32) _
  refine congrArg (V c main_v41 : FVec Ideal S1x128 .f32) (funext fun a => Fin.ext ?_)
  match a with
  | ⟨0, _⟩ => show win1_1.index t (0 : Fin 2) * 1 + 1 * 0 = 0; rw [e0]
  | ⟨1, _⟩ => show win1_1.index t (1 : Fin 2) * 128 + 1 * k.val = k.val; rw [e1]; omega

/-- The variance's block at any point is the whole row. -/
theorem blk2_apply (c : Dev nD) (t : Fin cfg1.N) (k : Fin 128) :
    (Gen.iblk1 V c 2 t : FVec Ideal S1x128 .f32) (ix2 (0 : Fin 1) k) = (V c main_v45 : FVec Ideal S1x128 .f32) (ix2 (0 : Fin 1) k) := by
  obtain ⟨-, -, -, -, e0, e1, -⟩ := idx_facts t
  unfold Gen.iblk1
  rw [View.read_apply]
  show (V c main_v45 : FVec Ideal S1x128 .f32) _ = (V c main_v45 : FVec Ideal S1x128 .f32) _
  refine congrArg (V c main_v45 : FVec Ideal S1x128 .f32) (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- The weights' block at any point is the whole matrix. -/
theorem blk3_apply (c : Dev nD) (t : Fin cfg1.N) (k : Fin 128) (q : Fin 64) :
    (Gen.iblk1 V c 3 t : FVec Ideal S128x64 .f32) (ix2 k q) = (V c main_v36 : FVec Ideal S128x64 .f32) (ix2 k q) := by
  obtain ⟨-, -, -, -, -, -, e0, e1, -⟩ := idx_facts t
  unfold Gen.iblk1
  rw [View.read_apply]
  show (V c main_v36 : FVec Ideal S128x64 .f32) _ = (V c main_v36 : FVec Ideal S128x64 .f32) _
  refine congrArg (V c main_v36 : FVec Ideal S128x64 .f32) (funext fun a => Fin.ext ?_)
  match a with
  | ⟨0, _⟩ => show win1_3.index t (0 : Fin 2) * 128 + 1 * k.val = k.val; rw [e0]; omega
  | ⟨1, _⟩ => show win1_3.index t (1 : Fin 2) * 64 + 1 * q.val = q.val; rw [e1]; omega

/-- The scale column's block at point `t` is rows `5000 t … 5000 t + 4999` of the column. -/
theorem blk4_apply (c : Dev nD) (t : Fin cfg1.N) (p : Fin 5000) (i : Fin 100000) (hi : i.val = t.val * 5000 + p.val) :
    (Gen.iblk1 V c 4 t : FVec Ideal S5000x1 .f32) (ix2 p (0 : Fin 1)) = (V c main_v34 : FVec Ideal S100000x1 .f32) (ix2 i (0 : Fin 1)) := by
  obtain ⟨-, -, -, -, -, -, -, -, e0, e1, -⟩ := idx_facts t
  unfold Gen.iblk1
  rw [View.read_apply]
  show (V c main_v34 : FVec Ideal S100000x1 .f32) _ = (V c main_v34 : FVec Ideal S100000x1 .f32) _
  refine congrArg (V c main_v34 : FVec Ideal S100000x1 .f32) (funext fun a => Fin.ext ?_)
  match a with
  | ⟨0, _⟩ => show win1_4.index t (0 : Fin 2) * 5000 + 1 * p.val = i.val; rw [e0, hi]; omega
  | ⟨1, _⟩ => show win1_4.index t (1 : Fin 2) * 1 + 1 * 0 = 0; rw [e1]

/-- The bias's block at any point is the whole row. -/
theorem blk5_apply (c : Dev nD) (t : Fin cfg1.N) (q : Fin 64) :
    (Gen.iblk1 V c 5 t : FVec Ideal S1x64 .f32) (ix2 (0 : Fin 1) q) = (V c main_v38 : FVec Ideal S1x64 .f32) (ix2 (0 : Fin 1) q) := by
  obtain ⟨-, -, -, -, -, -, -, -, -, -, e0, e1, -⟩ := idx_facts t
  unfold Gen.iblk1
  rw [View.read_apply]
  show (V c main_v38 : FVec Ideal S1x64 .f32) _ = (V c main_v38 : FVec Ideal S1x64 .f32) _
  refine congrArg (V c main_v38 : FVec Ideal S1x64 .f32) (funext fun a => Fin.ext ?_)
  match a with
  | ⟨0, _⟩ => show win1_5.index t (0 : Fin 2) * 1 + 1 * 0 = 0; rw [e0]
  | ⟨1, _⟩ => show win1_5.index t (1 : Fin 2) * 64 + 1 * q.val = q.val; rw [e1]; omega

/-! ## The block a point writes back -/

/-- An entry computed from blocks is the entry computed from the arrays, when each block entry it reads is the array's
    at the corresponding place. -/
theorem entry_block {R : Nat} (HB : FVec Ideal ⟨2, ![R, 128]⟩ .f32) (MEAN VAR : FVec Ideal S1x128 .f32)
    (W2T : FVec Ideal S128x64 .f32) (SC : FVec Ideal ⟨2, ![R, 1]⟩ .f32) (B2 : FVec Ideal S1x64 .f32)
    (x0 : FVec Ideal S5000x128 .f32) (x1 x2 : FVec Ideal S1x128 .f32) (x3 : FVec Ideal S128x64 .f32)
    (x4 : FVec Ideal S5000x1 .f32) (x5 : FVec Ideal S1x64 .f32) (p : Fin 5000) (i : Fin R) (q : Fin 64)
    (h0 : ∀ k : Fin 128, x0 (ix2 p k) = HB (ix2 i k))
    (h1 : ∀ k : Fin 128, x1 (ix2 (0 : Fin 1) k) = MEAN (ix2 (0 : Fin 1) k))
    (h2 : ∀ k : Fin 128, x2 (ix2 (0 : Fin 1) k) = VAR (ix2 (0 : Fin 1) k))
    (h3 : ∀ k : Fin 128, x3 (ix2 k q) = W2T (ix2 k q))
    (h4 : x4 (ix2 p (0 : Fin 1)) = SC (ix2 i (0 : Fin 1)))
    (h5 : x5 (ix2 (0 : Fin 1) q) = B2 (ix2 (0 : Fin 1) q)) :
    entry x0 x1 x2 x3 x4 x5 p q = entry HB MEAN VAR W2T SC B2 i q := by
  unfold entry
  rw [h4, h5]
  refine congrArg (fun s => s * SC (ix2 i (0 : Fin 1)) + B2 (ix2 (0 : Fin 1) q)) (Finset.sum_congr rfl fun k _ => ?_)
  rw [h0 k, h1 k, h2 k, h3 k]

/-- The result array as ONE function of the six arrays the call reads. -/
def outArr (HB : FVec Ideal S100000x128 .f32) (MEAN VAR : FVec Ideal S1x128 .f32) (W2T : FVec Ideal S128x64 .f32)
    (SC : FVec Ideal S100000x1 .f32) (B2 : FVec Ideal S1x64 .f32) : FVec Ideal S100000x64 .f32 :=
  fun j => entry HB MEAN VAR W2T SC B2 (j 0) (j 1)

/-- One entry of the result array: the sum over the 128 features of the normalised, rectified activation times the
    weight, then the row's scale and the column's bias. -/
def outv (HB : FVec Ideal S100000x128 .f32) (MEAN VAR : FVec Ideal S1x128 .f32) (W2T : FVec Ideal S128x64 .f32)
    (SC : FVec Ideal S100000x1 .f32) (B2 : FVec Ideal S1x64 .f32) (i : Fin 100000) (q : Fin 64) : EReal :=
  (∑ k : Fin 128,
      max ((HB (ix2 i k) - MEAN (ix2 (0 : Fin 1) k))
            * Ideal.rsqrt (VAR (ix2 (0 : Fin 1) k) + Ideal.ofBits .f32 0x3727C5AC#32))
          (Ideal.ofBits .f32 0x00000000#32)
        * W2T (ix2 k q))
    * SC (ix2 i (0 : Fin 1)) + B2 (ix2 (0 : Fin 1) q)

theorem outArr_apply (HB : FVec Ideal S100000x128 .f32) (MEAN VAR : FVec Ideal S1x128 .f32) (W2T : FVec Ideal S128x64 .f32)
    (SC : FVec Ideal S100000x1 .f32) (B2 : FVec Ideal S1x64 .f32) (i : Fin 100000) (q : Fin 64) :
    outArr HB MEAN VAR W2T SC B2 (ix2 i q) = outv HB MEAN VAR W2T SC B2 i q := rfl

/-- WHAT POINT `t` WRITES BACK is block `t` of that function of the arrays as the call finds them. -/
theorem flushed_eq (c : Dev nD) (t : Fin cfg1.N) :
    (Gen.dat1 V c).flushed 6 t = ((cfg1.win 6).blk t).view.read (Elt Ideal)
      (outArr (V c main_v39_0) (V c main_v41) (V c main_v45) (V c main_v36) (V c main_v34) (V c main_v38)) := by
  show (cfg1.win 6).cut (grid1.coords t) ((Gen.dat1 V c).after 6 t) = _
  rw [Gen.after1_6]
  unfold Gen.out1_6
  rw [View.canon_unit_zero hz]
  simp only [View.ld_unit_zero (S := S5000x128) hz, View.ld_unit_zero (S := S1x128) hz, View.ld_unit_zero (S := S128x64) hz,
    View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  have ht : t.val < 20 := by have h := t.isLt; have hN : cfg1.N = 20 := N_1; omega
  have hp : p.val < 5000 := p.isLt
  obtain ⟨-, -, -, -, -, -, -, -, -, -, -, -, e0, e1⟩ := idx_facts t
  have hi : (⟨t.val * 5000 + p.val, by omega⟩ : Fin 100000).val = t.val * 5000 + p.val := rfl
  have hemb : ((cfg1.win 6).blk t).view.emb (ix2 p q) = (ix2 (⟨t.val * 5000 + p.val, by omega⟩ : Fin 100000) q : S100000x64.Idx) :=
    funext fun a => Fin.ext (by
      match a with
      | ⟨0, _⟩ => show win1_6.index t (0 : Fin 2) * 5000 + 1 * p.val = t.val * 5000 + p.val; rw [e0]; omega
      | ⟨1, _⟩ => show win1_6.index t (1 : Fin 2) * 64 + 1 * q.val = q.val; rw [e1]; omega)
  rw [View.read_apply, hemb]
  show Gen.k1_pay1 (F := Ideal) (Gen.iblk1 V c 0 t) (Gen.iblk1 V c 1 t) (Gen.iblk1 V c 2 t) (Gen.iblk1 V c 3 t) (Gen.iblk1 V c 4 t)
      (Gen.iblk1 V c 5 t) (ix2 p q)
    = entry (V c main_v39_0 : FVec Ideal S100000x128 .f32) (V c main_v41) (V c main_v45) (V c main_v36)
        (V c main_v34 : FVec Ideal S100000x1 .f32) (V c main_v38) (⟨t.val * 5000 + p.val, by omega⟩ : Fin 100000) q
  refine (pay_apply (Gen.iblk1 V c 0 t) (Gen.iblk1 V c 1 t) (Gen.iblk1 V c 2 t) (Gen.iblk1 V c 3 t) (Gen.iblk1 V c 4 t)
    (Gen.iblk1 V c 5 t) p q).trans ?_
  exact entry_block (V c main_v39_0 : FVec Ideal S100000x128 .f32) (V c main_v41) (V c main_v45) (V c main_v36)
    (V c main_v34 : FVec Ideal S100000x1 .f32) (V c main_v38)
    (Gen.iblk1 V c 0 t) (Gen.iblk1 V c 1 t) (Gen.iblk1 V c 2 t) (Gen.iblk1 V c 3 t) (Gen.iblk1 V c 4 t) (Gen.iblk1 V c 5 t)
    p ⟨t.val * 5000 + p.val, by omega⟩ q
    (fun k => blk0_apply V c t p k _ hi) (blk1_apply V c t) (blk2_apply V c t) (fun k => blk3_apply V c t k q)
    (blk4_apply V c t p _ hi) (blk5_apply V c t q)

/-! ## The blocks cover the array -/

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v46).slice (win1_6.rect t)).set ↔ _
  rw [View.set_slice_whole, Rect.mem_set_unit]
  exact Iff.rfl

/-- Row `r` of the array is written back by point `r / 5000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts t
  refine ⟨t, Gen.flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 64 ≤ (i 1).val ∧ (i 1).val < win1_6.index t (1 : Fin 2) * 64 + 64
    rw [e1]; omega

/-! ## The array after the call -/

/-- The result array ends holding that one function of the six arrays as the call finds them. -/
theorem arr6_eq (c : Dev nD) :
    (Gen.dat1 V c).arrAt 6 cfg1.N
      = outArr (V c main_v39_0) (V c main_v41) (V c main_v45) (V c main_v36) (V c main_v34) (V c main_v38) :=
  (Gen.dat1 V c).arrAt_eq_of_cover 6
    (outArr (V c main_v39_0) (V c main_v41) (V c main_v45) (V c main_v36) (V c main_v34) (V c main_v38))
    (fun t _ => flushed_eq V c t) cover

/-- The result array read at `(i, q)`. -/
theorem arr6_apply (c : Dev nD) (i : Fin 100000) (q : Fin 64) :
    ((Gen.dat1 V c).arrAt 6 cfg1.N : FVec Ideal S100000x64 .f32) (ix2 i q)
      = outv (V c main_v39_0) (V c main_v41) (V c main_v45) (V c main_v36) (V c main_v34) (V c main_v38) i q := by
  rw [arr6_eq]; rfl

end Cert.KernelIdeal.Reg1

end
-- ==== Proof.KerReg1Final.lean ====
/- The result array when the program ends, from the first call's three results and the arrays the host prepared: the
   second call's one function of its six input arrays, with the mean and the variance as the host operations between the
   calls compute them from the first call's two column accumulators. -/
import proofs.«162744_j44349832298684_2_alg».proof.Proof.KerHost1
import proofs.«162744_j44349832298684_2_alg».proof.Proof.KerReg1

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- The result array at the last boundary, as one function of the first call's results and entry contents. -/
theorem result_eq (c : Dev nD) :
    Gen.W4 m ρ c (Proc.devRef .tc main_v46)
      = outArr ((Gen.dat0 (Gen.V1 m ρ) c).arrAt 4 cfg0.N)
          (Host1.meanOf ((Gen.dat0 (Gen.V1 m ρ) c).arrAt 5 cfg0.N))
          (Host1.varOf ((Gen.dat0 (Gen.V1 m ρ) c).arrAt 5 cfg0.N) ((Gen.dat0 (Gen.V1 m ρ) c).arrAt 6 cfg0.N))
          (Gen.V1 m ρ c main_v36) (Gen.V1 m ρ c main_v34) (Gen.V1 m ρ c main_v38) := by
  refine (Gen.W4_arr m ρ c 6).trans ?_
  rw [arr6_eq (Gen.V3 m ρ) c, Host1.V3_hb_eq, Host1.V3_mean_eq, Host1.V3_var_eq, Host1.V3_w2t_eq, Host1.V3_scale_eq,
    Host1.V3_b2_eq]

/-- The same read at `(i, q)`. -/
theorem result_apply (c : Dev nD) (i : Fin 100000) (q : Fin 64) :
    (Gen.W4 m ρ c (Proc.devRef .tc main_v46) : FVec Ideal S100000x64 .f32) (ix2 i q)
      = outv ((Gen.dat0 (Gen.V1 m ρ) c).arrAt 4 cfg0.N)
          (Host1.meanOf ((Gen.dat0 (Gen.V1 m ρ) c).arrAt 5 cfg0.N))
          (Host1.varOf ((Gen.dat0 (Gen.V1 m ρ) c).arrAt 5 cfg0.N) ((Gen.dat0 (Gen.V1 m ρ) c).arrAt 6 cfg0.N))
          (Gen.V1 m ρ c main_v36) (Gen.V1 m ρ c main_v34) (Gen.V1 m ρ c main_v38) i q := by
  rw [result_eq, outArr_apply]

end Cert.KernelIdeal.Reg1

end
-- ==== Proof.Edge.lean ====
/-
  The edge weights of the graph convolution, as whole-array terms of the edge list.

  Both programs compute, from the edge list alone, the same vectors: the source and target node of every edge, the
  mask of the edges that are not self loops, the degree of every node (one plus the number of unmasked edges that
  point to it), its inverse square root, the weight of every edge (the product of the two ends' inverse square
  roots, or zero on a self loop) and the reciprocal of the degree. They are written here once, with the operations
  both programs print, so that each side's text can be recognised as these terms and read only once.
-/
import proofs.«162744_j44349832298684_2_alg».proof.ReferenceIdeal
import proofs.«162744_j44349832298684_2_alg».proof.Proof.Gen.ReferenceIdeal
import Idealize.ShloMosaic.PureOps.Ideal

noncomputable section

namespace Cert.Edge

open Idealize.ShloMosaic Cert.ReferenceIdeal Cert.ReferenceIdeal.Facts₀

/-- The edge list: two rows of node numbers, sources above targets. -/
abbrev EdgeList := IVec S2x1600000 32
abbrev EdgeInts := IVec S1600000 32
abbrev EdgeCol := IVec S1600000x1 32
abbrev EdgeReals := FVec Ideal S1600000 .f32
abbrev NodeReals := FVec Ideal S100000 .f32

variable (ei : EdgeList)

/-- The source node of every edge. -/
def src : EdgeInts :=
  shapeCast S1600000 (extractStridedSlice S1x1600000 ![0, 0] ei slices_S2x1600000_S1x1600000_0_0) shapeCasts_S1x1600000_S1600000
/-- The target node of every edge. -/
def dst : EdgeInts :=
  shapeCast S1600000 (extractStridedSlice S1x1600000 ![1, 0] ei slices_S2x1600000_S1x1600000_1_0) shapeCasts_S1x1600000_S1600000
/-- One on an edge whose ends differ, zero on a self loop. -/
def mask : EdgeReals := uitofp (F := Ideal) .f32 (cmpi .ne (src ei) (dst ei))
/-- The all-zero and all-one node vectors. -/
def zerosN : NodeReals := broadcastInDim S100000 ![] bcast_S_S100000 (constant (F := Ideal) S_ .f32 0x00000000#32)
def onesN : NodeReals := broadcastInDim S100000 ![] bcast_S_S100000 (constant (F := Ideal) S_ .f32 0x3F800000#32)
/-- A vector of node numbers as a column of scatter or gather indices. -/
def col (v : EdgeInts) : EdgeCol := broadcastInDim S1600000x1 ![0] bcast_S1600000_S1600000x1_0 v
/-- The degree: one plus the masked edges pointing to the node. -/
def deg : NodeReals :=
  addf (F := Ideal) (Host.scatterAdd (F := Ideal) scatter_S100000_S1600000x1_S1600000_n_0_0_1 zerosN (col (dst ei)) (mask ei)) onesN
/-- The inverse square root of the degree. -/
def dinv : NodeReals := Host.rsqrt (F := Ideal) (deg ei)
/-- A node number counted from the end when negative. -/
def nrm (v : EdgeInts) : EdgeInts :=
  select (cmpi .slt v (broadcastInDim S1600000 ![] bcast_S_S1600000 (constantI S_ 32 0#32)))
    (addi v (broadcastInDim S1600000 ![] bcast_S_S1600000 (constantI S_ 32 100000#32))) v
/-- The weight of every edge. -/
def wgt : EdgeReals :=
  mulf (F := Ideal) (mulf (F := Ideal) (Host.gather gather_S100000_S1600000x1_S1600000_n_0_n_n_0_1_1 (dinv ei) (col (nrm (src ei))))
      (Host.gather gather_S100000_S1600000x1_S1600000_n_0_n_n_0_1_1 (dinv ei) (col (nrm (dst ei))))) (mask ei)
/-- The reciprocal of the degree. -/
def invdeg : NodeReals := Host.divf (F := Ideal) onesN (deg ei)
/-- The weights of the edges that leave a node, summed. -/
def coef : NodeReals :=
  Host.scatterAdd (F := Ideal) scatter_S100000_S1600000x1_S1600000_n_0_0_1 zerosN (col (src ei)) (wgt ei)
/-- The factor the convolution multiplies a node's row by. -/
def scale : NodeReals := addf (F := Ideal) (coef ei) (invdeg ei)

end Cert.Edge

end
-- ==== Proof.KerHost0.lean ====
/-
  What the kernel program's host operations before the first call leave in the buffers the two calls read: the
  per-node factor of the convolution as a column, the two weight matrices transposed, the two biases as rows.
-/
import proofs.«162744_j44349832298684_2_alg».proof.Proof.Gen.KernelIdeal.Frame
import proofs.«162744_j44349832298684_2_alg».proof.Proof.Edge
import Idealize.ShloMosaic.Lib.StableHlo.Run

noncomputable section

namespace Cert.KernelIdeal.Host0

open Idealize.ShloMosaic Idealize.ShloMosaic.TcCoe Idealize.SL.Sem Idealize.ShloMosaic.StableHlo Cert.KernelIdeal Cert.KernelIdeal.Facts₀

variable (m : (ℓ : Loc nD τ sig) → Buf (Elt Ideal) ℓ) (ρ : Dev nD → PrngReg)

/-- The factor column the two calls read is the convolution's per-node factor of the edge list. -/
theorem V1_scale (c : Dev nD) :
    (Gen.V1 m ρ c main_v34 : S100000x1.Idx → EReal)
      = shapeCast S100000x1 (Cert.Edge.scale (m ((c : Thread nD τ).loc main_arg1))) shapeCasts_S100000_S100000x1 := by
  dsimp only [Gen.V1, Gen.W1, Gen.W0, Gen.hostOps0]
  after_results_simp
  rfl

/-- The first weight matrix, transposed. -/
theorem V1_w1t (c : Dev nD) :
    (Gen.V1 m ρ c main_v35 : S128x128.Idx → EReal)
      = transpose S128x128 [1, 0] (m ((c : Thread nD τ).loc main_arg2)) transposes_S128x128_S128x128_1_0 := by
  dsimp only [Gen.V1, Gen.W1, Gen.W0, Gen.hostOps0]
  after_results_simp

/-- The second weight matrix, transposed. -/
theorem V1_w2t (c : Dev nD) :
    (Gen.V1 m ρ c main_v36 : S128x64.Idx → EReal)
      = transpose S128x64 [1, 0] (m ((c : Thread nD τ).loc main_arg4)) transposes_S64x128_S128x64_1_0 := by
  dsimp only [Gen.V1, Gen.W1, Gen.W0, Gen.hostOps0]
  after_results_simp

/-- The first bias as a row. -/
theorem V1_b1 (c : Dev nD) :
    (Gen.V1 m ρ c main_v37 : S1x128.Idx → EReal)
      = shapeCast S1x128 (m ((c : Thread nD τ).loc main_arg3)) shapeCasts_S128_S1x128 := by
  dsimp only [Gen.V1, Gen.W1, Gen.W0, Gen.hostOps0]
  after_results_simp
  rfl

/-- The second bias as a row. -/
theorem V1_b2 (c : Dev nD) :
    (Gen.V1 m ρ c main_v38 : S1x64.Idx → EReal)
      = shapeCast S1x64 (m ((c : Thread nD τ).loc main_arg5)) shapeCasts_S64_S1x64 := by
  dsimp only [Gen.V1, Gen.W1, Gen.W0, Gen.hostOps0]
  after_results_simp
  rfl

/-- The node features are as launched. -/
theorem V1_x (c : Dev nD) :
    (Gen.V1 m ρ c main_arg0 : S100000x128.Idx → EReal) = m ((c : Thread nD τ).loc main_arg0) := by
  dsimp only [Gen.V1, Gen.W1, Gen.W0, Gen.hostOps0]
  after_results_simp

end Cert.KernelIdeal.Host0

end
-- ==== Proof.KerReg0Spec.lean ====
/-
  The first kernel's result, as functions of its argument arrays.

  For an input `X` of 100000 rows and 128 columns, a weight matrix `W` (128 by 128, already transposed), a column `S` of
  100000 per-row scales and a bias row `B`, the hidden value at row `i` and column `q` is

      h (i, q) = (∑ k, X (i, k) * W (k, q)) * S (i, 0) + B (0, q).

  The kernel visits the rows in 20 blocks of 5000 and keeps running column sums of `h` and of `h * h`; what it ends with
  is the sum over all 100000 rows, because addition of extended reals is associative and commutative: the sum of the twenty
  block sums, block `t` holding the rows `5000 t + r`, is the sum over the rows.
-/
import Idealize.ShloMosaic.Lib.ValueIdx
import Idealize.ShloMosaic.PureOps.Ideal

noncomputable section

open scoped BigOperators

namespace Cert.KernelIdeal.Reg0

open Idealize.ShloMosaic Idealize.ShloMosaic.ValueIdx

/-- The hidden value at row `i`, column `q`. -/
def hbv (X : (⟨2, ![100000, 128]⟩ : Shape).Idx → EReal) (W1T : (⟨2, ![128, 128]⟩ : Shape).Idx → EReal)
    (SC : (⟨2, ![100000, 1]⟩ : Shape).Idx → EReal) (B1 : (⟨2, ![1, 128]⟩ : Shape).Idx → EReal)
    (i : Fin 100000) (q : Fin 128) : EReal :=
  (∑ k : Fin 128, X (ix2 i k) * W1T (ix2 k q)) * SC (ix2 i 0) + B1 (ix2 0 q)

/-- Row `r` of block `t`, among the 100000 rows. -/
def row (t : Fin 20) (r : Fin 5000) : Fin 100000 := ⟨5000 * t.val + r.val, by have := t.isLt; have := r.isLt; omega⟩

theorem row_val (t : Fin 20) (r : Fin 5000) : (row t r).val = 5000 * t.val + r.val := rfl

/-- Every row is a row of exactly one block: the blocks are the quotient and the rows within them the remainder by 5000. -/
def rowEquiv : Fin 20 × Fin 5000 ≃ Fin 100000 where
  toFun tr := row tr.1 tr.2
  invFun i := (⟨i.val / 5000, by have := i.isLt; omega⟩, ⟨i.val % 5000, Nat.mod_lt _ (by norm_num)⟩)
  left_inv tr := by
    obtain ⟨t, r⟩ := tr
    have ht := t.isLt
    have hr := r.isLt
    refine Prod.ext (Fin.ext ?_) (Fin.ext ?_)
    · show (5000 * t.val + r.val) / 5000 = t.val
      omega
    · show (5000 * t.val + r.val) % 5000 = r.val
      omega
  right_inv i := by
    apply Fin.ext
    show 5000 * (i.val / 5000) + i.val % 5000 = i.val
    omega

/-- The sum of the twenty block sums is the sum over all the rows, in any commutative monoid. -/
theorem sum_blocks {M : Type} [AddCommMonoid M] (f : Fin 100000 → M) :
    ∑ t : Fin 20, ∑ r : Fin 5000, f (row t r) = ∑ i : Fin 100000, f i := by
  rw [← Fintype.sum_prod_type' (f := fun t r => f (row t r))]
  exact Fintype.sum_equiv rowEquiv _ _ fun _ => rfl

end Cert.KernelIdeal.Reg0

end
-- ==== Proof.KerReg0Out.lean ====
/-
  What one run of the body of the first kernel leaves in the staging buffers of its three outputs.

  At every grid point the body covers each output buffer by whole-buffer stores, so what it leaves there is the value of
  the last store: the product block in the first output, and in the two accumulators the running sums over what the
  accumulator held when the point began. At the first grid point the body first stores the zero row into both
  accumulators and reads it back, so there the running sums start from the zero row; at every other point they start from
  what the point before left.
-/
import proofs.«162744_j44349832298684_2_alg».proof.Proof.Gen.KernelIdeal.Frame
import Idealize.ShloMosaic.Lib.Pipeline.Value
import Idealize.ShloMosaic.Lib.Tactic

noncomputable section

namespace Cert.KernelIdeal.Reg0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- Every point but the first leaves in the block of the first output the product block `k0_pay3` of its input blocks. -/
theorem out_B_4 (c : Dev nD) (i : grid0.Coords) (a1 : Memref sig .tc .vmem S5000x128 .f32) (h1 : a1.IsWhole) (a2 : Memref sig .tc .vmem S128x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S5000x128 .f32) (x1 : Vec F S128x128 .f32) (x2 : Vec F S5000x1 .f32) (x3 : Vec F S1x128 .f32) (xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S5000x1) hz, View.ld_unit_zero (S := S1x128) hz]

theorem out_B_5 (c : Dev nD) (i : grid0.Coords) (a1 : Memref sig .tc .vmem S5000x128 .f32) (h1 : a1.IsWhole) (a2 : Memref sig .tc .vmem S128x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S5000x128 .f32) (x1 : Vec F S128x128 .f32) (x2 : Vec F S5000x1 .f32) (x3 : Vec F S1x128 .f32) (xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S5000x1) hz, View.ld_unit_zero (S := S1x128) hz, h6.read_unread]

theorem out_B_6 (c : Dev nD) (i : grid0.Coords) (a1 : Memref sig .tc .vmem S5000x128 .f32) (h1 : a1.IsWhole) (a2 : Memref sig .tc .vmem S128x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S5000x128 .f32) (x1 : Vec F S128x128 .f32) (x2 : Vec F S5000x1 .f32) (x3 : Vec F S1x128 .f32) (xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S5000x1) hz, View.ld_unit_zero (S := S1x128) hz, h7.read_unread]

theorem out_A_4 (c : Dev nD) (i : grid0.Coords) (a1 : Memref sig .tc .vmem S5000x128 .f32) (h1 : a1.IsWhole) (a2 : Memref sig .tc .vmem S128x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 : Vec F S5000x128 .f32) (x1 : Vec F S128x128 .f32) (x2 : Vec F S5000x1 .f32) (x3 : Vec F S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S5000x1) hz, View.ld_unit_zero (S := S1x128) hz]

theorem out_A_5 (c : Dev nD) (i : grid0.Coords) (a1 : Memref sig .tc .vmem S5000x128 .f32) (h1 : a1.IsWhole) (a2 : Memref sig .tc .vmem S128x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 : Vec F S5000x128 .f32) (x1 : Vec F S128x128 .f32) (x2 : Vec F S5000x1 .f32) (x3 : Vec F S1x128 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S5000x1) hz, View.ld_unit_zero (S := S1x128) hz]

theorem out_A_6 (c : Dev nD) (i : grid0.Coords) (a1 : Memref sig .tc .vmem S5000x128 .f32) (h1 : a1.IsWhole) (a2 : Memref sig .tc .vmem S128x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 : Vec F S5000x128 .f32) (x1 : Vec F S128x128 .f32) (x2 : Vec F S5000x1 .f32) (x3 : Vec F S1x128 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S5000x1) hz, View.ld_unit_zero (S := S1x128) hz]

end Cert.KernelIdeal.Reg0

end
-- ==== Proof.KerReg0Blk.lean ====
/-
  The blocks the first kernel reads, as entries of the arrays they are cut from.

  The grid has twenty points. At point `t` the input window and the scale window hold rows `5000 t` to `5000 t + 4999` of
  their arrays; the weight matrix and the bias row are read whole at every point. So entry `(r, k)` of the input block at
  point `t` is entry `(5000 t + r, k)` of the input, and likewise for the scales.
-/
import proofs.«162744_j44349832298684_2_alg».proof.Proof.Gen.KernelIdeal.Frame
import Idealize.ShloMosaic.Lib.Pipeline.Value
import Idealize.ShloMosaic.Lib.Tactic
import Idealize.ShloMosaic.Lib.ValueIdx
import proofs.«162744_j44349832298684_2_alg».proof.Proof.KerReg0Spec

noncomputable section

namespace Cert.KernelIdeal.Reg0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

open Idealize.ShloMosaic.ValueIdx
variable (V : (c : Dev nD) → (b : Ref sig .tc) → Buf (Elt F) ((c : Thread nD τ).loc b))

/-- The block index of each window at each grid point, decided over the grid: the input rows, the scales and the first
    output move one block of rows per point; the weights, the bias and the two accumulators stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem tlt (t : Fin cfg0.N) : t.val < 20 := lt_of_lt_of_eq t.isLt (show cfg0.N = 20 from N_0)

/-- A grid point as one of the twenty blocks of rows. -/
def pt (t : Fin cfg0.N) : Fin 20 := ⟨t.val, tlt t⟩

/-- The input block at point `t` holds rows `5000 t + r` of the input. -/
theorem blk0_apply (c : Dev nD) (t : Fin cfg0.N) (r : Fin 5000) (k : Fin 128) :
    (iblk0 V c 0 t : Vec F S5000x128 .f32) (ix2 r k)
      = (V c main_arg0 : S100000x128.Idx → F .f32) (ix2 (row (pt t) r) k) := by
  obtain ⟨e0, e1, -⟩ := idx_facts t
  show V c main_arg0 (((cfg0.win 0).blk t).view.emb (ix2 r k)) = _
  refine congrArg (V c main_arg0) ?_
  funext a; apply Fin.ext
  match a with
  | ⟨0, _⟩ => show win0_0.index t (0 : Fin 2) * 5000 + 1 * r.val = 5000 * t.val + r.val; omega
  | ⟨1, _⟩ => show win0_0.index t (1 : Fin 2) * 128 + 1 * k.val = k.val; omega

/-- The weight block at every point is the whole weight matrix. -/
theorem blk1_apply (c : Dev nD) (t : Fin cfg0.N) (k : Fin 128) (q : Fin 128) :
    (iblk0 V c 1 t : Vec F S128x128 .f32) (ix2 k q) = (V c main_v35 : S128x128.Idx → F .f32) (ix2 k q) := by
  obtain ⟨-, -, e0, e1, -⟩ := idx_facts t
  show V c main_v35 (((cfg0.win 1).blk t).view.emb (ix2 k q)) = _
  refine congrArg (V c main_v35) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The scale block at point `t` holds the scales of rows `5000 t + r`. -/
theorem blk2_apply (c : Dev nD) (t : Fin cfg0.N) (r : Fin 5000) :
    (iblk0 V c 2 t : Vec F S5000x1 .f32) (ix2 r 0)
      = (V c main_v34 : S100000x1.Idx → F .f32) (ix2 (row (pt t) r) 0) := by
  obtain ⟨-, -, -, -, e0, e1, -⟩ := idx_facts t
  show V c main_v34 (((cfg0.win 2).blk t).view.emb (ix2 r 0)) = _
  refine congrArg (V c main_v34) ?_
  funext a; apply Fin.ext
  match a with
  | ⟨0, _⟩ => show win0_2.index t (0 : Fin 2) * 5000 + 1 * r.val = 5000 * t.val + r.val; omega
  | ⟨1, _⟩ => show win0_2.index t (1 : Fin 2) * 1 + 1 * 0 = 0; omega

/-- The bias block at every point is the whole bias row. -/
theorem blk3_apply (c : Dev nD) (t : Fin cfg0.N) (q : Fin 128) :
    (iblk0 V c 3 t : Vec F S1x128 .f32) (ix2 0 q) = (V c main_v37 : S1x128.Idx → F .f32) (ix2 0 q) := by
  obtain ⟨-, -, -, -, -, -, e0, e1, -⟩ := idx_facts t
  show V c main_v37 (((cfg0.win 3).blk t).view.emb (ix2 0 q)) = _
  refine congrArg (V c main_v37) ?_
  funext a; apply Fin.ext
  match a with
  | ⟨0, _⟩ => show win0_3.index t (0 : Fin 2) * 1 + 1 * 0 = 0; omega
  | ⟨1, _⟩ => show win0_3.index t (1 : Fin 2) * 128 + 1 * q.val = q.val; omega

end Cert.KernelIdeal.Reg0

end
-- ==== Proof.KerReg0Step.lean ====
/-
  What the three output buffers of the first kernel hold after each grid point, in terms of the values the body stores.

  The first output's buffer holds, after every point, the product block of that point's input blocks. The two
  accumulators hold the running sums: after the first point, started from the zero row; after every later point,
  continued from what the point before left (the accumulators' block does not move, so nothing is written back and
  nothing is fetched between two points).
-/
import proofs.«162744_j44349832298684_2_alg».proof.Proof.Gen.KernelIdeal.Frame
import Idealize.ShloMosaic.Lib.Pipeline.Value
import Idealize.ShloMosaic.Lib.Tactic
import Idealize.ShloMosaic.Lib.ValueIdx
import proofs.«162744_j44349832298684_2_alg».proof.Proof.KerReg0Spec
import proofs.«162744_j44349832298684_2_alg».proof.Proof.KerReg0Out
import proofs.«162744_j44349832298684_2_alg».proof.Proof.KerReg0Blk

noncomputable section

namespace Cert.KernelIdeal.Reg0

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

open Idealize.ShloMosaic.ValueIdx
variable (V : (c : Dev nD) → (b : Ref sig .tc) → Buf (Elt F) ((c : Thread nD τ).loc b))

/-- After the first grid point the accumulator of sums holds the running sums started from the zero row. -/
theorem outs_zero5 (c : Dev nD) (h : 0 < cfg0.N) :
    (outsAt0 V c 0 h).2.1 = k0_pay4 (iblk0 V c 0 ⟨0, h⟩) (iblk0 V c 1 ⟨0, h⟩) (iblk0 V c 2 ⟨0, h⟩) (iblk0 V c 3 ⟨0, h⟩) k0_pay1 :=
  (congrArg (fun o => o.2.1) (outsAt0_A V c ⟨0, h⟩ rfl)).trans
    (out_A_5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩))

/-- After the first grid point the accumulator of squares holds the running sums started from the zero row. -/
theorem outs_zero6 (c : Dev nD) (h : 0 < cfg0.N) :
    (outsAt0 V c 0 h).2.2 = k0_pay5 (iblk0 V c 0 ⟨0, h⟩) (iblk0 V c 1 ⟨0, h⟩) (iblk0 V c 2 ⟨0, h⟩) (iblk0 V c 3 ⟨0, h⟩) k0_pay2 :=
  (congrArg (fun o => o.2.2) (outsAt0_A V c ⟨0, h⟩ rfl)).trans
    (out_A_6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩))

theorem not_first (n : ℕ) (h : n + 1 < cfg0.N) : ¬(⟨n + 1, h⟩ : Fin cfg0.N).val % 20 = 0 := by
  have := tlt ⟨n + 1, h⟩
  dsimp only at this ⊢
  omega

/-- After every later grid point the accumulator of sums holds the running sums over what the point before left. -/
theorem outs_succ5 (c : Dev nD) (n : ℕ) (h : n + 1 < cfg0.N) :
    (outsAt0 V c (n + 1) h).2.1 = k0_pay4 (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).2.1 :=
  (congrArg (fun o => o.2.1) (outsAt0_B V c ⟨n + 1, h⟩ (not_first n h))).trans
    (out_B_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hc => not_first n h ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩)
      (outsAt0 V c n (Nat.lt_of_succ_lt h)).2.1 (outsAt0 V c n (Nat.lt_of_succ_lt h)).2.2)

/-- After every later grid point the accumulator of squares holds the running sums over what the point before left. -/
theorem outs_succ6 (c : Dev nD) (n : ℕ) (h : n + 1 < cfg0.N) :
    (outsAt0 V c (n + 1) h).2.2 = k0_pay5 (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).2.2 :=
  (congrArg (fun o => o.2.2) (outsAt0_B V c ⟨n + 1, h⟩ (not_first n h))).trans
    (out_B_6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hc => not_first n h ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩)
      (outsAt0 V c n (Nat.lt_of_succ_lt h)).2.1 (outsAt0 V c n (Nat.lt_of_succ_lt h)).2.2)

/-- The first component of a pair that is known. -/
theorem fst_of_eq {α β : Type} {x : α × β} {a : α} {b : β} (h : x = (a, b)) : x.1 = a := by rw [h]

/-- After every grid point the first output's buffer holds the product block of the point's input blocks. -/
theorem outs_fst (c : Dev nD) (t : Fin cfg0.N) :
    (outsAt0 V c t.val t.isLt).1 = k0_pay3 (iblk0 V c 0 t) (iblk0 V c 1 t) (iblk0 V c 2 t) (iblk0 V c 3 t) := by
  by_cases h0 : t.val % 20 = 0
  · exact (fst_of_eq (outsAt0_A V c t h0)).trans
      (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
  · exact (fst_of_eq (outsAt0_B V c t h0)).trans
      (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t)
        (outsAt0 V c (t.val - 1) (Nat.lt_of_le_of_lt (Nat.sub_le _ _) t.isLt)).2.1
        (outsAt0 V c (t.val - 1) (Nat.lt_of_le_of_lt (Nat.sub_le _ _) t.isLt)).2.2)

end Cert.KernelIdeal.Reg0

end
-- ==== Proof.KerReg0Pay.lean ====
/-
  The three values the body of the first kernel stores, read at an index, at the ideal values.

  At one grid point the body holds a block `x` of 5000 rows of the input, the whole weight matrix `w` (already transposed),
  the block `s` of 5000 per-row scales (a column) and the bias `b` (a row). It stores

    * the block `h (p, q) = (∑ k, x (p, k) * w (k, q)) * s (p, 0) + b (0, q)`: the rounding of the operands to a narrower
      format before the product is the identity on the extended reals, the product is a plain matrix product into the
      zero accumulator, the column of scales is repeated across the 128 lanes and the bias row down the 5000 rows;
    * the running column sums `acc (0, q) + ∑ p, h (p, q)`;
    * the running column sums of squares `acc (0, q) + ∑ p, h (p, q) * h (p, q)`.
-/
import proofs.«162744_j44349832298684_2_alg».proof.Proof.Gen.KernelIdeal.Skeleton
import proofs.«162744_j44349832298684_2_alg».proof.Proof.LibPlainDot
import proofs.«162744_j44349832298684_2_alg».proof.Proof.LibColumnLayout
import Idealize.ShloMosaic.Lib.ValueLayout
import Idealize.ShloMosaic.Lib.ValueIdx
import Idealize.ShloMosaic.PureOps.Ideal.Laws

noncomputable section

open scoped BigOperators

namespace Cert.KernelIdeal.Reg0

open Idealize.ShloMosaic Idealize.ShloMosaic.ValueIdx Cert.KernelIdeal Cert.KernelIdeal.Gen

/-- The product's dimension numbers are those of a plain `5000 × 128` by `128 × 128` matrix product. -/
theorem dot_eq : dot_S5000x128_S128x128_S5000x128_1_0_0_1_n_n = DotDims.plain 5000 128 128 := rfl

/-- The stored block at `(p, q)`: the row of `x` against the column of `w`, scaled by the row's scale, plus the bias. -/
theorem pay3_apply (v3 : Vec Ideal S5000x128 .f32) (v5 : Vec Ideal S128x128 .f32) (v9 : Vec Ideal S5000x1 .f32)
    (v13 : Vec Ideal S1x128 .f32) (p : Fin 5000) (q : Fin 128) :
    k0_pay3 (F := Ideal) v3 v5 v9 v13 (ix2 p q)
      = (∑ k : Fin 128, v3 (ix2 p k) * v5 (ix2 k q)) * v9 (ix2 p 0) + v13 (ix2 0 q) := by
  unfold k0_pay3
  rw [addf_apply, mulf_apply]
  refine congrArg₂ (· + ·) (congrArg₂ (· * ·) ?_ ?_) ?_
  · rw [dot_eq, shapeCast_self]
    exact Cert.Lib.PlainDot.matmul_zero_apply 5000 128 128 none _ _ p q
  · rw [shapeCast_self]
    exact Idealize.ShloMosaic.ColumnLayout.broadcastTo_a1_ab_apply (a := 5000) (b := 128) v9 broadcasts_S5000x1_S5000x128 p q
  · rw [shapeCast_self]
    exact broadcastTo_1b_ab_apply (a := 5000) (b := 128) v13 broadcasts_S1x128_S5000x128 p q

/-- Summing a `[5000, 128]` array over its rows: the source index over the lane `q` with the row `p` inserted is `(p, q)`. -/
theorem lift_col (p : Fin 5000) (q : Fin 128) :
    reduces_S5000x128_S128.lift (ix1 q) p = ix2 p q := by
  funext c
  apply Fin.ext
  match c with
  | ⟨0, _⟩ => rfl
  | ⟨1, _⟩ => rfl

/-- The column sums of a `[5000, 128]` array, laid out as a row `[1, 128]`, at `(0, q)`: the sum of column `q`. -/
theorem colsum_apply (src : FVec Ideal S5000x128 .f32) (q : Fin 128) :
    shapeCast S1x128 (multiReduction .add [0] S128 src 0x00000000#32 reduces_S5000x128_S128 (.inl rfl) rfl) shapeCasts_S128_S1x128 (ix2 0 q)
      = ∑ p : Fin 5000, src (ix2 p q) := by
  refine (shapeCast_a_1a_apply (a := 128) _ shapeCasts_S128_S1x128 0 q).trans ?_
  refine (Ideal.multiReduction_add_single src 0x00000000#32 reduces_S5000x128_S128 (.inl rfl) rfl (ix1 q)).trans ?_
  exact Finset.sum_congr rfl fun p _ => congrArg src (lift_col p q)

/-- The running column sums at `(0, q)`: what was there plus the sum of column `q` of the stored block. -/
theorem pay4_apply (v3 : Vec Ideal S5000x128 .f32) (v5 : Vec Ideal S128x128 .f32) (v9 : Vec Ideal S5000x1 .f32)
    (v13 : Vec Ideal S1x128 .f32) (v18 : Vec Ideal S1x128 .f32) (q : Fin 128) :
    k0_pay4 (F := Ideal) v3 v5 v9 v13 v18 (ix2 0 q)
      = v18 (ix2 0 q) + ∑ p : Fin 5000, k0_pay3 (F := Ideal) v3 v5 v9 v13 (ix2 p q) := by
  unfold k0_pay4
  rw [addf_apply, shapeCast_self]
  exact congrArg (v18 (ix2 0 q) + ·) (colsum_apply _ q)

/-- The running column sums of squares at `(0, q)`: what was there plus the sum of the squares of column `q`. -/
theorem pay5_apply (v3 : Vec Ideal S5000x128 .f32) (v5 : Vec Ideal S128x128 .f32) (v9 : Vec Ideal S5000x1 .f32)
    (v13 : Vec Ideal S1x128 .f32) (v24 : Vec Ideal S1x128 .f32) (q : Fin 128) :
    k0_pay5 (F := Ideal) v3 v5 v9 v13 v24 (ix2 0 q)
      = v24 (ix2 0 q) + ∑ p : Fin 5000, k0_pay3 (F := Ideal) v3 v5 v9 v13 (ix2 p q) * k0_pay3 (F := Ideal) v3 v5 v9 v13 (ix2 p q) := by
  unfold k0_pay5
  rw [addf_apply, shapeCast_self]
  exact congrArg (v24 (ix2 0 q) + ·) (colsum_apply _ q)

/-- The two accumulators start from the zero row: at the ideal values every entry is `0`. -/
theorem pay1_apply (j : S1x128.Idx) : k0_pay1 (F := Ideal) j = 0 := by
  unfold k0_pay1
  exact Ideal.ofBits_zero_f32

theorem pay2_apply (j : S1x128.Idx) : k0_pay2 (F := Ideal) j = 0 := by
  unfold k0_pay2
  exact Ideal.ofBits_zero_f32

end Cert.KernelIdeal.Reg0

end
-- ==== Proof.KerReg0Acc.lean ====
/-
  The two accumulators of the first kernel after each grid point, at the ideal values.

  Write `h (i, q)` for the hidden value at row `i`, column `q`, of the arrays the region finds. The product block stored at
  point `t` holds `h (5000 t + r, q)`. The accumulators start from the zero row at the first point and add one block's
  column sums per point, so after point `n` they hold the sum of the block sums of the points `0 … n`; after the last
  point that is the sum over all 100000 rows.
-/
import proofs.«162744_j44349832298684_2_alg».proof.Proof.KerReg0Step
import proofs.«162744_j44349832298684_2_alg».proof.Proof.KerReg0Pay
import proofs.«162744_j44349832298684_2_alg».proof.Proof.KerReg0Spec

noncomputable section

open scoped BigOperators

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The hidden value at row `i`, column `q`, of the arrays the region finds. -/
abbrev H (c : Dev nD) (i : Fin 100000) (q : Fin 128) : EReal :=
  hbv (V c main_arg0) (V c main_v35) (V c main_v34) (V c main_v37) i q

/-- The product block of the input blocks at point `t` holds the hidden values of rows `5000 t + r`. -/
theorem hb_blk (c : Dev nD) (t : Fin cfg0.N) (r : Fin 5000) (q : Fin 128) :
    k0_pay3 (F := Ideal) (iblk0 V c 0 t) (iblk0 V c 1 t) (iblk0 V c 2 t) (iblk0 V c 3 t) (ix2 r q) = H V c (row (pt t) r) q :=
  (pay3_apply (iblk0 V c 0 t) (iblk0 V c 1 t) (iblk0 V c 2 t) (iblk0 V c 3 t) r q).trans
    (congrArg₂ (· + ·)
      (congrArg₂ (· * ·)
        (Finset.sum_congr rfl fun k _ => congrArg₂ (· * ·) (blk0_apply V c t r k) (blk1_apply V c t k q))
        (blk2_apply V c t r))
      (blk3_apply V c t q))

/-- The sum of column `q` of the hidden values over the rows of block `t` (zero past the last block). -/
def bs5 (c : Dev nD) (q : Fin 128) (t : ℕ) : EReal :=
  if h : t < 20 then ∑ r : Fin 5000, H V c (row ⟨t, h⟩ r) q else 0

/-- The sum of the squares of column `q` of the hidden values over the rows of block `t` (zero past the last block). -/
def bs6 (c : Dev nD) (q : Fin 128) (t : ℕ) : EReal :=
  if h : t < 20 then ∑ r : Fin 5000, H V c (row ⟨t, h⟩ r) q * H V c (row ⟨t, h⟩ r) q else 0

theorem colsum5 (c : Dev nD) (t : Fin cfg0.N) (q : Fin 128) :
    ∑ p : Fin 5000, k0_pay3 (F := Ideal) (iblk0 V c 0 t) (iblk0 V c 1 t) (iblk0 V c 2 t) (iblk0 V c 3 t) (ix2 p q) = bs5 V c q t.val := by
  unfold bs5
  rw [dif_pos (tlt t)]
  exact Finset.sum_congr rfl fun r _ => hb_blk V c t r q

theorem colsum6 (c : Dev nD) (t : Fin cfg0.N) (q : Fin 128) :
    ∑ p : Fin 5000, k0_pay3 (F := Ideal) (iblk0 V c 0 t) (iblk0 V c 1 t) (iblk0 V c 2 t) (iblk0 V c 3 t) (ix2 p q) * k0_pay3 (F := Ideal) (iblk0 V c 0 t) (iblk0 V c 1 t) (iblk0 V c 2 t) (iblk0 V c 3 t) (ix2 p q)
      = bs6 V c q t.val := by
  unfold bs6
  rw [dif_pos (tlt t)]
  exact Finset.sum_congr rfl fun r _ => congrArg₂ (· * ·) (hb_blk V c t r q) (hb_blk V c t r q)

/-- After point `n` the accumulator of sums holds, in column `q`, the sum of the block sums of the points so far. -/
theorem acc5 (c : Dev nD) (q : Fin 128) : ∀ (n : ℕ) (h : n < cfg0.N),
    (outsAt0 V c n h).2.1 (ix2 0 q) = ∑ t ∈ Finset.range (n + 1), bs5 V c q t
  | 0, h => by
    refine (congrFun (outs_zero5 V c h) (ix2 0 q)).trans ?_
    refine (pay4_apply (iblk0 V c 0 ⟨0, h⟩) (iblk0 V c 1 ⟨0, h⟩) (iblk0 V c 2 ⟨0, h⟩) (iblk0 V c 3 ⟨0, h⟩) (k0_pay1 (F := Ideal)) q).trans ?_
    rw [pay1_apply, zero_add]
    exact (colsum5 V c ⟨0, h⟩ q).trans (Finset.sum_range_one _).symm
  | n + 1, h => by
    refine (congrFun (outs_succ5 V c n h) (ix2 0 q)).trans ?_
    refine (pay4_apply (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).2.1 q).trans ?_
    rw [acc5 c q n (Nat.lt_of_succ_lt h), Finset.sum_range_succ _ (n + 1)]
    exact congrArg _ (colsum5 V c ⟨n + 1, h⟩ q)

/-- After point `n` the accumulator of squares holds, in column `q`, the sum of the block sums of squares so far. -/
theorem acc6 (c : Dev nD) (q : Fin 128) : ∀ (n : ℕ) (h : n < cfg0.N),
    (outsAt0 V c n h).2.2 (ix2 0 q) = ∑ t ∈ Finset.range (n + 1), bs6 V c q t
  | 0, h => by
    refine (congrFun (outs_zero6 V c h) (ix2 0 q)).trans ?_
    refine (pay5_apply (iblk0 V c 0 ⟨0, h⟩) (iblk0 V c 1 ⟨0, h⟩) (iblk0 V c 2 ⟨0, h⟩) (iblk0 V c 3 ⟨0, h⟩) (k0_pay2 (F := Ideal)) q).trans ?_
    rw [pay2_apply, zero_add]
    exact (colsum6 V c ⟨0, h⟩ q).trans (Finset.sum_range_one _).symm
  | n + 1, h => by
    refine (congrFun (outs_succ6 V c n h) (ix2 0 q)).trans ?_
    refine (pay5_apply (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).2.2 q).trans ?_
    rw [acc6 c q n (Nat.lt_of_succ_lt h), Finset.sum_range_succ _ (n + 1)]
    exact congrArg _ (colsum6 V c ⟨n + 1, h⟩ q)

/-- The twenty block sums add up to the sum over all the rows. -/
theorem total5 (c : Dev nD) (q : Fin 128) :
    ∑ t ∈ Finset.range 20, bs5 V c q t = ∑ i : Fin 100000, H V c i q := by
  rw [Finset.sum_range, ← sum_blocks (fun i => H V c i q)]
  exact Finset.sum_congr rfl fun t _ => by unfold bs5; rw [dif_pos t.isLt]

theorem total6 (c : Dev nD) (q : Fin 128) :
    ∑ t ∈ Finset.range 20, bs6 V c q t = ∑ i : Fin 100000, H V c i q * H V c i q := by
  rw [Finset.sum_range, ← sum_blocks (fun i => H V c i q * H V c i q)]
  exact Finset.sum_congr rfl fun t _ => by unfold bs6; rw [dif_pos t.isLt]

end Cert.KernelIdeal.Reg0

end
-- ==== Proof.KerReg0Arr4.lean ====
/-
  The first output array of the first kernel after the run: the hidden values.

  Each grid point writes its product block back to rows `5000 t` to `5000 t + 4999` of the first output, and the twenty
  blocks tile the array (row `i` lies in the block of the point `i / 5000`). The block written at point `t` is block `t` of
  the array of hidden values, so the output ends holding `h (i, q)` at every `(i, q)`.
-/
import proofs.«162744_j44349832298684_2_alg».proof.Proof.KerReg0Acc
import Idealize.ShloMosaic.Lib.Pipeline.Value

noncomputable section

open scoped BigOperators

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The hidden values as an array of 100000 rows and 128 columns. -/
def G4 (c : Dev nD) : S100000x128.Idx → EReal := fun j => H V c (j 0) (j 1)

theorem G4_apply (c : Dev nD) (j : S100000x128.Idx) : G4 V c j = H V c (j 0) (j 1) := rfl

/-- What point `t` writes back to the first output is block `t` of the hidden values. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4, outs_fst]
  refine funext fun (y : S5000x128.Idx) => ?_
  obtain ⟨r, q, rfl⟩ : ∃ (r : Fin 5000) (q : Fin 128), y = ix2 r q := ⟨y 0, y 1, eq_ix2 y⟩
  show k0_pay3 (F := Ideal) (iblk0 V c 0 t) (iblk0 V c 1 t) (iblk0 V c 2 t) (iblk0 V c 3 t) (ix2 r q) = G4 V c (((cfg0.win 4).blk t).view.emb (ix2 r q))
  refine (hb_blk V c t r q).trans ?_
  rw [G4_apply]
  obtain ⟨-, -, -, -, -, -, -, -, e0, e1, -⟩ := idx_facts t
  refine congrArg₂ (H V c) (Fin.ext ?_) (Fin.ext ?_)
  · show 5000 * t.val + r.val = win0_4.index t (0 : Fin 2) * 5000 + 1 * r.val
    omega
  · show q.val = win0_4.index t (1 : Fin 2) * 128 + 1 * q.val
    omega

/-- Every row of the first output lies in the block of the point that is its quotient by 5000. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e0, e1, -⟩ := idx_facts t
  refine ⟨t, flush0_4 t, ?_⟩
  show i ∈ ((View.whole main_v39_0).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- The first output ends holding the hidden values. -/
theorem final4 (c : Dev nD) : (dat0 V c).arrAt 4 cfg0.N = G4 V c :=
  (dat0 V c).arrAt_eq_of_cover 4 (G4 V c) (fun t _ => flushed4_eq V c t) cover4

theorem arr4_apply (c : Dev nD) (i : Fin 100000) (q : Fin 128) :
    (dat0 V c).arrAt 4 cfg0.N (ix2 i q) = hbv (V c main_arg0) (V c main_v35) (V c main_v34) (V c main_v37) i q :=
  (congrFun (final4 V c) (ix2 i q)).trans (G4_apply V c (ix2 i q))

end Cert.KernelIdeal.Reg0

end
-- ==== Proof.KerReg0Arr56.lean ====
/-
  The two accumulator arrays of the first kernel after the run: the column sums of the hidden values and of their squares.

  The accumulators' block is block (0, 0) at every grid point, so it is written back once, after the last point, and that
  one block is the whole array. What it holds then is the sum of the twenty block sums, which is the sum over all 100000
  rows: column `q` of the second output ends at `∑ i, h (i, q)` and of the third at `∑ i, h (i, q) * h (i, q)`.
-/
import proofs.«162744_j44349832298684_2_alg».proof.Proof.KerReg0Acc
import Idealize.ShloMosaic.Lib.Pipeline.Value

noncomputable section

open scoped BigOperators

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Every index of a one-row array is `(0, q)` for its column `q`. -/
theorem row_idx (y : S1x128.Idx) : ∃ q : Fin 128, y = ix2 (0 : Fin 1) q :=
  ⟨y 1, funext fun d => match d with
    | ⟨0, _⟩ => Fin.ext (by have h : (y 0).val < 1 := (y 0).isLt; show (y 0).val = 0; omega)
    | ⟨1, _⟩ => rfl⟩

/-- The column sums of the hidden values over all the rows, as a row of 128 entries. -/
def G5 (c : Dev nD) : S1x128.Idx → EReal := fun j => ∑ i : Fin 100000, H V c i (j 1)

theorem G5_apply (c : Dev nD) (j : S1x128.Idx) : G5 V c j = ∑ i : Fin 100000, H V c i (j 1) := rfl

/-- A row that agrees, column by column, with an array's entries under the accumulator's block is that block of the array. -/
theorem cut5_eq (t : Fin cfg0.N) (f : Vec Ideal S1x128 .f32) (G : S1x128.Idx → EReal)
    (h : ∀ q : Fin 128, f (ix2 0 q) = G (((cfg0.win 5).blk t).view.emb (ix2 0 q))) :
    (cfg0.win 5).cut (grid0.coords t) f = ((cfg0.win 5).blk t).view.read (Elt Ideal) G := by
  refine funext fun (y : S1x128.Idx) => ?_
  obtain ⟨q, rfl⟩ : ∃ q : Fin 128, y = ix2 (0 : Fin 1) q := row_idx y
  exact h q

/-- The one write-back of this accumulator, after the last point, writes the sums over all the rows. -/
theorem flushed5_eq (c : Dev nD) (t : Fin cfg0.N) (hf : (cfg0.win 5).flush t = true) :
    (dat0 V c).flushed 5 t = ((cfg0.win 5).blk t).view.read (Elt Ideal) (G5 V c) := by
  have h19 : t.val + 1 = 20 := by have := (flush0_5 t).mp hf; have := tlt t; omega
  show (cfg0.win 5).cut (grid0.coords t) ((dat0 V c).after 5 t) = _
  rw [after0_5]
  refine cut5_eq t _ _ fun q => ?_
  rw [acc5 V c q t.val t.isLt, h19, total5, G5_apply]
  obtain ⟨-, -, -, -, -, -, -, -, -, -, e0, e1, -⟩ := idx_facts t
  have eq : q = ((cfg0.win 5).blk t).view.emb (ix2 0 q) 1 := Fin.ext (by
    show q.val = win0_5.index t (1 : Fin 2) * 128 + 1 * q.val
    omega)
  exact Finset.sum_congr rfl fun i _ => by rw [← eq]

/-- The accumulator's one block is its whole array, written back after the last point. -/
theorem cover5 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  have hN : cfg0.N = 20 := N_0
  obtain ⟨t, ht⟩ : ∃ t : Fin cfg0.N, t.val = 19 := ⟨⟨19, by rw [hN]; omega⟩, rfl⟩
  obtain ⟨-, -, -, -, -, -, -, -, -, -, e0, e1, -⟩ := idx_facts t
  refine ⟨t, (flush0_5 t).mpr (by rw [ht]), ?_⟩
  show i ∈ ((View.whole main_v39_1).slice (win0_5.rect t)).set
  rw [View.set_slice_whole, Rect.mem_set_unit]
  intro a
  match a with
  | ⟨0, _⟩ =>
    show win0_5.index t (0 : Fin 2) * 1 ≤ (i 0).val ∧ (i 0).val < win0_5.index t (0 : Fin 2) * 1 + 1
    omega
  | ⟨1, _⟩ =>
    show win0_5.index t (1 : Fin 2) * 128 ≤ (i 1).val ∧ (i 1).val < win0_5.index t (1 : Fin 2) * 128 + 128
    omega

theorem final5 (c : Dev nD) : (dat0 V c).arrAt 5 cfg0.N = G5 V c :=
  (dat0 V c).arrAt_eq_of_cover 5 (G5 V c) (flushed5_eq V c) cover5

/-- The column sums of the squares of the hidden values over all the rows, as a row of 128 entries. -/
def G6 (c : Dev nD) : S1x128.Idx → EReal := fun j => ∑ i : Fin 100000, H V c i (j 1) * H V c i (j 1)

theorem G6_apply (c : Dev nD) (j : S1x128.Idx) : G6 V c j = ∑ i : Fin 100000, H V c i (j 1) * H V c i (j 1) := rfl

/-- A row that agrees, column by column, with an array's entries under the accumulator's block is that block of the array. -/
theorem cut6_eq (t : Fin cfg0.N) (f : Vec Ideal S1x128 .f32) (G : S1x128.Idx → EReal)
    (h : ∀ q : Fin 128, f (ix2 0 q) = G (((cfg0.win 6).blk t).view.emb (ix2 0 q))) :
    (cfg0.win 6).cut (grid0.coords t) f = ((cfg0.win 6).blk t).view.read (Elt Ideal) G := by
  refine funext fun (y : S1x128.Idx) => ?_
  obtain ⟨q, rfl⟩ : ∃ q : Fin 128, y = ix2 (0 : Fin 1) q := row_idx y
  exact h q

/-- The one write-back of this accumulator, after the last point, writes the sums over all the rows. -/
theorem flushed6_eq (c : Dev nD) (t : Fin cfg0.N) (hf : (cfg0.win 6).flush t = true) :
    (dat0 V c).flushed 6 t = ((cfg0.win 6).blk t).view.read (Elt Ideal) (G6 V c) := by
  have h19 : t.val + 1 = 20 := by have := (flush0_6 t).mp hf; have := tlt t; omega
  show (cfg0.win 6).cut (grid0.coords t) ((dat0 V c).after 6 t) = _
  rw [after0_6]
  refine cut6_eq t _ _ fun q => ?_
  rw [acc6 V c q t.val t.isLt, h19, total6, G6_apply]
  obtain ⟨-, -, -, -, -, -, -, -, -, -, -, -, e0, e1⟩ := idx_facts t
  have eq : q = ((cfg0.win 6).blk t).view.emb (ix2 0 q) 1 := Fin.ext (by
    show q.val = win0_6.index t (1 : Fin 2) * 128 + 1 * q.val
    omega)
  exact Finset.sum_congr rfl fun i _ => by rw [← eq]

/-- The accumulator's one block is its whole array, written back after the last point. -/
theorem cover6 (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 20 := N_0
  obtain ⟨t, ht⟩ : ∃ t : Fin cfg0.N, t.val = 19 := ⟨⟨19, by rw [hN]; omega⟩, rfl⟩
  obtain ⟨-, -, -, -, -, -, -, -, -, -, -, -, e0, e1⟩ := idx_facts t
  refine ⟨t, (flush0_6 t).mpr (by rw [ht]), ?_⟩
  show i ∈ ((View.whole main_v39_2).slice (win0_6.rect t)).set
  rw [View.set_slice_whole, Rect.mem_set_unit]
  intro a
  match a with
  | ⟨0, _⟩ =>
    show win0_6.index t (0 : Fin 2) * 1 ≤ (i 0).val ∧ (i 0).val < win0_6.index t (0 : Fin 2) * 1 + 1
    omega
  | ⟨1, _⟩ =>
    show win0_6.index t (1 : Fin 2) * 128 ≤ (i 1).val ∧ (i 1).val < win0_6.index t (1 : Fin 2) * 128 + 128
    omega

theorem final6 (c : Dev nD) : (dat0 V c).arrAt 6 cfg0.N = G6 V c :=
  (dat0 V c).arrAt_eq_of_cover 6 (G6 V c) (flushed6_eq V c) cover6
/-- The second output ends holding, in column `q`, the sum over all the rows of the hidden values. -/
theorem arr5_apply (c : Dev nD) (q : Fin 128) :
    (dat0 V c).arrAt 5 cfg0.N (ix2 0 q) = ∑ i : Fin 100000, hbv (V c main_arg0) (V c main_v35) (V c main_v34) (V c main_v37) i q :=
  (congrFun (final5 V c) (ix2 0 q)).trans (G5_apply V c (ix2 0 q))

/-- The third output ends holding, in column `q`, the sum over all the rows of the squares of the hidden values. -/
theorem arr6_apply (c : Dev nD) (q : Fin 128) :
    (dat0 V c).arrAt 6 cfg0.N (ix2 0 q) = ∑ i : Fin 100000, hbv (V c main_arg0) (V c main_v35) (V c main_v34) (V c main_v37) i q * hbv (V c main_arg0) (V c main_v35) (V c main_v34) (V c main_v37) i q :=
  (congrFun (final6 V c) (ix2 0 q)).trans (G6_apply V c (ix2 0 q))

end Cert.KernelIdeal.Reg0

end
-- ==== Proof.LibRowScatter.lean ====
import Idealize.ShloMosaic.PureOps.Ideal
import Idealize.ShloMosaic.Lib.ValueIdx

/-!
# Row gather and row accumulating scatter, read at an index

For a table `x` of `N` rows and `D` columns and a column `idx` of `E` integer row numbers:

* the ROW GATHER `x[idx]` has `E` rows; its row `e` is row `idx e` of `x`, the row number read as a signed
  integer and clamped into `[0, N - 1]`;
* the ROW ACCUMULATING SCATTER (a segment sum) of updates `upd` of `E` rows and `D` columns adds, to the entry
  `(p, q)` of `x`, the entries `upd (e, q)` of all rows `e` whose row number `idx e`, read as a signed integer, is
  exactly `p`; a row whose number is negative or at least `N` is dropped.

Both are stated for any dimension-number record whose lists are those of a gather or scatter along axis 0 with whole
rows as slices, over natural numbers `N`, `D`, `E` that stay symbolic.
-/

noncomputable section

open scoped BigOperators

namespace Idealize.ShloMosaic.RowScatter

open Idealize.ShloMosaic Idealize.ShloMosaic.ValueIdx

/-! ## The row accumulating scatter -/

section Scatter
variable {N D E : Nat}

/-- The dimension numbers of a scatter of whole rows along axis 0: operand `[N, D]`, scatter indices `[E, 1]` (one
    row number per update row, the index vector on axis 1), updates `[E, D]` whose axis 1 is the window axis. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis the window of update `(e, c)` starts at the signed row number of `e`. -/
theorem rowScatterDims_start_zero {w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowScatterDims N D E wf).start j idx 0 = (idx (ix2 (j 0) 0)).toInt := by
  unfold ScatterDims.start
  rw [dif_pos (show (0 : Fin 2) ∈ (rowScatterDims N D E wf).scatterDimsToOperandDims from List.mem_singleton.mpr rfl)]
  have hsi : (rowScatterDims N D E wf).siIdx j ⟨List.idxOf (0 : Fin 2) (rowScatterDims N D E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis every window starts at `0`: no scatter index names that axis. -/
theorem rowScatterDims_start_one {w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowScatterDims N D E wf).start j idx 1 = 0 := by
  unfold ScatterDims.start
  rw [dif_neg (show (1 : Fin 2) ∉ ([0] : List (Fin 2)) by decide)]

/-- The row axis is an inserted axis: its window coordinate is `0`. -/
theorem rowScatterDims_window_zero (wf : ScatterDims.WF ⟨2, ![N, D]⟩ ⟨2, ![E, 1]⟩ ⟨2, ![E, D]⟩ [1] [0] [0] 1)
    (j : (⟨2, ![E, D]⟩ : Shape).Idx) :
    (rowScatterDims N D E wf).window j 0 = 0 := by
  unfold ScatterDims.window
  rw [dif_neg (by simp [Shape.kept, List.mem_filter])]

/-- The column axis is the window axis: its window coordinate is the update's column. -/
theorem rowScatterDims_window_one (wf : ScatterDims.WF ⟨2, ![N, D]⟩ ⟨2, ![E, 1]⟩ ⟨2, ![E, D]⟩ [1] [0] [0] 1)
    (j : (⟨2, ![E, D]⟩ : Shape).Idx) :
    (rowScatterDims N D E wf).window j 1 = (j 1).val := by
  unfold ScatterDims.window
  rw [dif_pos (by simp [Shape.kept, List.mem_filter])]
  rfl

/-- WHERE AN UPDATE LANDS: update `j = (e, c)` lands on entry `(p, q)` exactly when the signed row number of `e` is
    `p` and `c = q`. A row number outside `[0, N)` equals no `p`, so such an update lands nowhere. -/
theorem rowScatterDims_resultIdx?_eq_some_iff {w : Nat}
    (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) (p : Fin N) (q : Fin D) :
    (rowScatterDims N D E wf).resultIdx? j idx = some (ix2 p q) ↔
      (idx (ix2 (j 0) 0)).toInt = (p.val : Int) ∧ j 1 = q := by
  have hs0 := rowScatterDims_start_zero wf j idx
  have hs1 := rowScatterDims_start_one wf j idx
  have hw0 := rowScatterDims_window_zero wf j
  have hw1 := rowScatterDims_window_one wf j
  have hjD : (j 1).val < D := idx2_lt1 j
  have hpN : p.val < N := p.isLt
  unfold ScatterDims.resultIdx?
  split
  · rename_i h
    rw [Option.some.injEq]
    constructor
    · intro hf
      have e0 : ((rowScatterDims N D E wf).start j idx 0 + ((rowScatterDims N D E wf).window j 0 : Nat)).toNat = p.val :=
        congrArg (fun f : (⟨2, ![N, D]⟩ : Shape).Idx => (f 0).val) hf
      have e1 : ((rowScatterDims N D E wf).start j idx 1 + ((rowScatterDims N D E wf).window j 1 : Nat)).toNat = q.val :=
        congrArg (fun f : (⟨2, ![N, D]⟩ : Shape).Idx => (f 1).val) hf
      have h0 := (h 0).1
      rw [hs0, hw0] at e0 h0
      rw [hs1, hw1] at e1
      refine ⟨by omega, Fin.ext (by omega)⟩
    · rintro ⟨ht, hq⟩
      funext a; refine Fin.ext ?_
      match a with
      | ⟨0, _⟩ =>
        show ((rowScatterDims N D E wf).start j idx 0 + ((rowScatterDims N D E wf).window j 0 : Nat)).toNat = p.val
        rw [hs0, hw0, ht]; omega
      | ⟨1, _⟩ =>
        show ((rowScatterDims N D E wf).start j idx 1 + ((rowScatterDims N D E wf).window j 1 : Nat)).toNat = q.val
        rw [hs1, hw1, hq]; omega
  · rename_i h
    constructor
    · intro hn; cases hn
    · rintro ⟨ht, hq⟩
      refine absurd (fun a => ?_) h
      match a with
      | ⟨0, _⟩ =>
        show 0 ≤ (rowScatterDims N D E wf).start j idx 0 + ((rowScatterDims N D E wf).window j 0 : Nat) ∧
          (rowScatterDims N D E wf).start j idx 0 + ((rowScatterDims N D E wf).window j 0 : Nat) < (N : Int)
        rw [hs0, hw0, ht]; omega
      | ⟨1, _⟩ =>
        show 0 ≤ (rowScatterDims N D E wf).start j idx 1 + ((rowScatterDims N D E wf).window j 1 : Nat) ∧
          (rowScatterDims N D E wf).start j idx 1 + ((rowScatterDims N D E wf).window j 1 : Nat) < (D : Int)
        rw [hs1, hw1]; omega

/-- THE ROW ACCUMULATING SCATTER READ AT `(p, q)`, at the ideal instance: the operand's entry plus the sum, over the
    update rows `e` whose signed row number is exactly `p`, of the update's entry `(e, q)`. Update rows whose row
    number is negative or at least `N` contribute nothing. Holds for every record `d` with these dimension
    numbers. -/
theorem scatterAdd_rows_apply {φ : FTy} {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (p : Fin N) (q : Fin D) :
    Host.scatterAdd (F := Ideal) d x idx upd (ix2 p q) =
      x (ix2 p q) + ∑ e ∈ Finset.univ.filter (fun e : Fin E => (idx (ix2 e 0)).toInt = (p.val : Int)), upd (ix2 e q) := by
  obtain ⟨uw, iw, sd, iv, wf⟩ := d
  simp only at h1 h2 h3 h4
  subst h1 h2 h3 h4
  show x (ix2 p q) + ∑ j ∈ Finset.univ.filter
      (fun j => (rowScatterDims N D E wf).resultIdx? j idx = some (ix2 p q)), upd j = _
  congr 1
  rw [Finset.sum_filter, Finset.sum_filter, sum_idx2]
  refine Finset.sum_congr rfl fun e _ => ?_
  have hcond : ∀ b : Fin D, ((rowScatterDims N D E wf).resultIdx? (ix2 e b) idx = some (ix2 p q)) ↔
      ((idx (ix2 e 0)).toInt = (p.val : Int) ∧ b = q) :=
    fun b => rowScatterDims_resultIdx?_eq_some_iff wf (ix2 e b) idx p q
  simp only [hcond]
  by_cases hp : (idx (ix2 e 0)).toInt = (p.val : Int)
  · simp [hp]
  · simp [hp]

/-- The same scatter when every update entry is one value `c` (a count of the rows sent to `p`, weighted by `c`): the
    operand's entry plus `c` summed once for every update row whose signed row number is exactly `p`. -/
theorem scatterAdd_rows_apply_of_const {φ : FTy} {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ) (c : Ideal φ)
    (hc : ∀ j, upd j = c) (p : Fin N) (q : Fin D) :
    Host.scatterAdd (F := Ideal) d x idx upd (ix2 p q) =
      x (ix2 p q) + ∑ _e ∈ Finset.univ.filter (fun e : Fin E => (idx (ix2 e 0)).toInt = (p.val : Int)), c := by
  rw [scatterAdd_rows_apply d h1 h2 h3 h4 x idx upd p q]
  simp only [hc]

end Scatter

/-! ## The row gather -/

section Gather
variable {N D E : Nat} {α : Type}

/-- The row number of gathered row `e`: the entry `idx (e, 0)` read as a signed integer and clamped into
    `[0, N - 1]` (a negative number reads row `0`, a number past the end reads the last row). -/
def clampRow {w : Nat} (hN : 0 < N) (idx : IVec ⟨2, ![E, 1]⟩ w) (e : Fin E) : Fin N :=
  ⟨min (idx (ix2 e 0)).toInt.toNat (N - 1), by omega⟩

/-- The clamped row number as a natural number. -/
theorem clampRow_val {w : Nat} (hN : 0 < N) (idx : IVec ⟨2, ![E, 1]⟩ w) (e : Fin E) :
    (clampRow hN idx e).val = min (idx (ix2 e 0)).toInt.toNat (N - 1) := rfl

/-- A row number that is already in range is not changed by the clamp. -/
theorem clampRow_of_toInt_eq {w : Nat} (hN : 0 < N) (idx : IVec ⟨2, ![E, 1]⟩ w) (e : Fin E) (p : Fin N)
    (h : (idx (ix2 e 0)).toInt = (p.val : Int)) : clampRow hN idx e = p := by
  refine Fin.ext ?_
  have hp := p.isLt
  rw [clampRow_val, h]
  omega

/-- A row number below `N` is clamped from below only: the clamp is its natural-number part (`0` when it is negative). -/
theorem clampRow_val_of_lt {w : Nat} (hN : 0 < N) (idx : IVec ⟨2, ![E, 1]⟩ w) (e : Fin E)
    (h : (idx (ix2 e 0)).toInt < (N : Int)) : (clampRow hN idx e).val = (idx (ix2 e 0)).toInt.toNat := by
  rw [clampRow_val]
  omega

/-- The dimension numbers of a gather of whole rows along axis 0: operand `[N, D]`, start indices `[E, 1]` (one row
    number per result row, the index vector on axis 1), slices of one row (`[1, D]`) with the row axis collapsed,
    result `[E, D]` whose axis 1 is the offset axis. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, q)`: the operand's entry in column `q` of the row whose number is `idx (e, 0)`, read
    signed and clamped into `[0, N - 1]`. Holds for every record `g` with these dimension numbers and slice sizes. -/
theorem gather_rows_apply {w : Nat} (hN : 0 < N) (g : GatherDims ⟨2, ![N, D]⟩ ⟨2, ![E, 1]⟩ ⟨2, ![E, D]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, D])
    (x : (⟨2, ![N, D]⟩ : Shape).Idx → α) (idx : IVec ⟨2, ![E, 1]⟩ w) (e : Fin E) (q : Fin D) :
    Host.gather g x idx (ix2 e q) = x (ix2 (clampRow hN idx e) q) := by
  obtain ⟨od, cd, ob, sb, sm, iv, ss, wf⟩ := g
  simp only at h1 h2 h3 h4 h5 h6 h7
  subst h1 h2 h3 h4 h5 h6 h7
  show x ((rowGatherDims N D E wf).operandIdx (ix2 e q) idx) = _
  congr 1
  funext a; refine Fin.ext ?_
  match a with
  | ⟨0, _⟩ =>
    show (rowGatherDims N D E wf).start (ix2 e q) idx 0 + (rowGatherDims N D E wf).batchCoord (ix2 e q) 0 +
      (rowGatherDims N D E wf).offCoord (ix2 e q) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e q) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e q) idx 1 + (rowGatherDims N D E wf).batchCoord (ix2 e q) 1 +
      (rowGatherDims N D E wf).offCoord (ix2 e q) 1 = q.val
    have hst : (rowGatherDims N D E wf).start (ix2 e q) idx 1 = 0 := by
      unfold GatherDims.start
      rw [dif_neg (show (1 : Fin 2) ∉ ([0] : List (Fin 2)) by decide)]
    have hoff : (rowGatherDims N D E wf).offCoord (ix2 e q) 1 = q.val := by
      unfold GatherDims.offCoord
      rw [dif_pos (by simp [Shape.kept, List.mem_filter])]
      rfl
    rw [GatherDims.batchCoord_eq_zero _ _ _ List.not_mem_nil, hst, hoff]
    omega

end Gather

end Idealize.ShloMosaic.RowScatter

end
-- ==== Proof.Spec.lean ====
/-
  Both programs' results as formulas, entry by entry.

  Node features `x` (100000 × 128), the edge list `ei`, weights `W1` (128 × 128), `W2` (64 × 128), biases `b1`,
  `b2`. The first dense layer is `h1 = x · W1ᵀ`. A graph convolution of rows `h` is, at node `i`,
  `∑ h[src e] · w e` over the edges `e` leaving `i`, plus `h[i] / deg i`. After the first convolution and bias the
  rows are normalised column by column (mean and variance over the 100000 nodes), clipped below at zero, sent
  through the second dense layer and convolved again.

  The reference gathers rows and scatters them back (`…R`); the kernel multiplies each node's row by the node's
  factor `∑ w e + 1 / deg i` and takes the variance as the mean of squares minus the squared mean (`…K`).
-/
import proofs.«162744_j44349832298684_2_alg».proof.Proof.Edge
import proofs.«162744_j44349832298684_2_alg».proof.Proof.LibRowScatter
import Idealize.ShloMosaic.Lib.ValueIdx

noncomputable section

open scoped BigOperators

namespace Cert.Spec

open Idealize.ShloMosaic Idealize.ShloMosaic.ValueIdx Cert.ReferenceIdeal Cert.Edge

variable (x : FVec Ideal S100000x128 .f32) (ei : EdgeList) (W1 : FVec Ideal S128x128 .f32) (b1 : FVec Ideal S128 .f32)
  (W2 : FVec Ideal S64x128 .f32) (b2 : FVec Ideal S64 .f32)

/-- The words of zero, of the node count and of the variance's small constant. -/
abbrev zw : EReal := Ideal.ofBits .f32 0x00000000#32
abbrev nw : EReal := Ideal.ofBits .f32 0x47C35000#32
abbrev epsw : EReal := Ideal.ofBits .f32 0x3727C5AC#32

/-- The edges that leave node `i`: those whose source, read signed, is `i`. -/
def leaving (i : Fin 100000) : Finset (Fin 1600000) :=
  Finset.univ.filter fun e : Fin 1600000 => (src ei (ix1 e)).toInt = (i.val : Int)

/-- The row a gather at edge `e`'s source reads: the source counted from the end if negative, clamped into range. -/
def srcRow (e : Fin 1600000) : Fin 100000 := RowScatter.clampRow (N := 100000) (by decide) (col (nrm (src ei))) e

/-- The first dense layer. -/
def h1 (i : Fin 100000) (q : Fin 128) : EReal := ∑ k : Fin 128, x (ix2 i k) * W1 (ix2 q k)

/-! ### The reference -/

/-- The first convolution plus bias, by gather and scatter. -/
def hbR (i : Fin 100000) (q : Fin 128) : EReal :=
  (zw + ∑ e ∈ leaving ei i, h1 x W1 (srcRow ei e) q * wgt ei (ix1 e)) + h1 x W1 i q * invdeg ei (ix1 i) + b1 (ix1 q)
/-- The column means. -/
def meanR (q : Fin 128) : EReal := Ideal.div (zw + ∑ i : Fin 100000, hbR x ei W1 b1 i q) nw
/-- The column variances: the mean of the squared deviations. -/
def varR (q : Fin 128) : EReal :=
  Ideal.div (zw + ∑ i : Fin 100000, (hbR x ei W1 b1 i q - meanR x ei W1 b1 q) * (hbR x ei W1 b1 i q - meanR x ei W1 b1 q))
    (nw - (((0#32 : BitVec 32).toInt : ℝ) : EReal))
/-- Normalised and clipped below at zero. -/
def nR (i : Fin 100000) (k : Fin 128) : EReal :=
  max ((hbR x ei W1 b1 i k - meanR x ei W1 b1 k) * Ideal.rsqrt (varR x ei W1 b1 k + epsw)) zw
/-- The second dense layer. -/
def h2R (i : Fin 100000) (q : Fin 64) : EReal := ∑ k : Fin 128, nR x ei W1 b1 i k * W2 (ix2 q k)
/-- The reference's result. -/
def outR (i : Fin 100000) (q : Fin 64) : EReal :=
  (zw + ∑ e ∈ leaving ei i, h2R x ei W1 b1 W2 (srcRow ei e) q * wgt ei (ix1 e))
    + h2R x ei W1 b1 W2 i q * invdeg ei (ix1 i) + b2 (ix1 q)

/-! ### The kernel -/

/-- The first convolution plus bias, by the node's factor. -/
def hbK (i : Fin 100000) (q : Fin 128) : EReal := h1 x W1 i q * scale ei (ix1 i) + b1 (ix1 q)
/-- The column sums and sums of squares. -/
def sK (q : Fin 128) : EReal := ∑ i : Fin 100000, hbK x ei W1 b1 i q
def ssK (q : Fin 128) : EReal := ∑ i : Fin 100000, hbK x ei W1 b1 i q * hbK x ei W1 b1 i q
/-- The column means and variances. -/
def meanK (q : Fin 128) : EReal := Ideal.div (sK x ei W1 b1 q) nw
def varK (q : Fin 128) : EReal :=
  Ideal.div (ssK x ei W1 b1 q) nw - Ideal.div (sK x ei W1 b1 q) nw * Ideal.div (sK x ei W1 b1 q) nw
/-- Normalised and clipped below at zero. -/
def nK (i : Fin 100000) (k : Fin 128) : EReal :=
  max ((hbK x ei W1 b1 i k - meanK x ei W1 b1 k) * Ideal.rsqrt (varK x ei W1 b1 k + epsw)) zw
/-- The kernel's result. -/
def outK (i : Fin 100000) (q : Fin 64) : EReal :=
  (∑ k : Fin 128, nK x ei W1 b1 i k * W2 (ix2 q k)) * scale ei (ix1 i) + b2 (ix1 q)

end Cert.Spec

end
-- ==== Proof.KerVal.lean ====
/- The kernel program's result, entry by entry, as the formula over the six argument arrays. The result array at the
   last boundary is the second call's function of the first call's three results and of the arrays the host prepared;
   the first call's results are the hidden values and their column sums and sums of squares; the prepared arrays are the
   weights transposed, the per-node factor as a column and the biases as rows. Read at an index, each layout operation
   names an entry of an argument, and the whole is the formula. -/
import proofs.«162744_j44349832298684_2_alg».proof.Proof.KerReg1Final
import proofs.«162744_j44349832298684_2_alg».proof.Proof.KerHost0
import proofs.«162744_j44349832298684_2_alg».proof.Proof.KerReg0Spec
import proofs.«162744_j44349832298684_2_alg».proof.Proof.KerReg0Arr4
import proofs.«162744_j44349832298684_2_alg».proof.Proof.KerReg0Arr56
import proofs.«162744_j44349832298684_2_alg».proof.Proof.Spec
import proofs.«162744_j44349832298684_2_alg».proof.Proof.LibColumnLayout
import Idealize.ShloMosaic.Lib.ValueLayout

set_option maxRecDepth 16384

noncomputable section

open scoped BigOperators

namespace Cert.KernelIdeal.KerVal

open Cert.KernelIdeal Cert.KernelIdeal.Gen
open Idealize.ShloMosaic Idealize.ShloMosaic.TcCoe Idealize.ShloMosaic.ValueIdx

/-! ## The layouts, over any arrays -/

/-- The hidden value over the prepared layouts: the transposed weights read `W1 (q, k)`, the factor column reads the
    factor of row `i`, the bias row reads the bias of column `q`. -/
theorem hbv_layout (x : FVec Ideal S100000x128 .f32) (W1 : FVec Ideal S128x128 .f32) (sc : FVec Ideal S100000 .f32)
    (b1 : FVec Ideal S128 .f32) (i : Fin 100000) (q : Fin 128) :
    Reg0.hbv x (transpose S128x128 [1, 0] W1 transposes_S128x128_S128x128_1_0)
        (shapeCast S100000x1 sc shapeCasts_S100000_S100000x1) (shapeCast S1x128 b1 shapeCasts_S128_S1x128) i q
      = (∑ k : Fin 128, x (ix2 i k) * W1 (ix2 q k)) * sc (ix1 i) + b1 (ix1 q) := by
  unfold Reg0.hbv
  rw [ColumnLayout.shapeCast_a_a1_apply sc shapeCasts_S100000_S100000x1 i 0,
    shapeCast_a_1a_apply b1 shapeCasts_S128_S1x128 0 q]
  refine congrArg (fun s => s * sc (ix1 i) + b1 (ix1 q)) (Finset.sum_congr rfl fun k _ => ?_)
  rw [transpose_ix2_apply W1 transposes_S128x128_S128x128_1_0 k q]

/-- One entry of the second call's function, from the entries it reads. -/
theorem outv_of (HB : FVec Ideal S100000x128 .f32) (MEAN VAR : FVec Ideal S1x128 .f32) (W2T : FVec Ideal S128x64 .f32)
    (SC : FVec Ideal S100000x1 .f32) (B2 : FVec Ideal S1x64 .f32) (i : Fin 100000) (q : Fin 64)
    (hb mean var w : Fin 128 → EReal) (s b : EReal)
    (h0 : ∀ k : Fin 128, HB (ix2 i k) = hb k) (h1 : ∀ k : Fin 128, MEAN (ix2 (0 : Fin 1) k) = mean k)
    (h2 : ∀ k : Fin 128, VAR (ix2 (0 : Fin 1) k) = var k) (h3 : ∀ k : Fin 128, W2T (ix2 k q) = w k)
    (h4 : SC (ix2 i (0 : Fin 1)) = s) (h5 : B2 (ix2 (0 : Fin 1) q) = b) :
    Reg1.outv HB MEAN VAR W2T SC B2 i q
      = (∑ k : Fin 128, max ((hb k - mean k) * Ideal.rsqrt (var k + Ideal.ofBits .f32 0x3727C5AC#32))
            (Ideal.ofBits .f32 0x00000000#32) * w k) * s + b := by
  unfold Reg1.outv
  rw [h4, h5]
  refine congrArg (fun t => t * s + b) (Finset.sum_congr rfl fun k _ => ?_)
  rw [h0 k, h1 k, h2 k, h3 k]

variable (m : (ℓ : Loc nD τ sig) → Buf (Elt Ideal) ℓ) (ρ : Dev nD → PrngReg)

/-! ## The first call's hidden values over the argument arrays -/

/-- The hidden value of the arrays the first call finds is the formula's, over the argument arrays. -/
theorem hbv_eq (c : Dev nD) (i : Fin 100000) (q : Fin 128) :
    Reg0.hbv (Gen.V1 m ρ c main_arg0) (Gen.V1 m ρ c main_v35) (Gen.V1 m ρ c main_v34) (Gen.V1 m ρ c main_v37) i q
      = Cert.Spec.hbK (m ((c : Thread nD τ).loc main_arg0)) (m ((c : Thread nD τ).loc main_arg1)) (m ((c : Thread nD τ).loc main_arg2)) (m ((c : Thread nD τ).loc main_arg3)) i q := by
  rw [Host0.V1_x, Host0.V1_w1t, Host0.V1_scale, Host0.V1_b1, hbv_layout]
  rfl

/-! ## The result, given the first call's three arrays read at an index -/

section
variable (c : Dev nD)
  (h4 : ∀ (i : Fin 100000) (q : Fin 128), @Eq EReal (((Gen.dat0 (Gen.V1 m ρ) c).arrAt 4 cfg0.N : FVec Ideal S100000x128 .f32) (ix2 i q)) (Reg0.hbv (Gen.V1 m ρ c main_arg0) (Gen.V1 m ρ c main_v35) (Gen.V1 m ρ c main_v34) (Gen.V1 m ρ c main_v37) i q))
  (h5 : ∀ q : Fin 128, @Eq EReal (((Gen.dat0 (Gen.V1 m ρ) c).arrAt 5 cfg0.N : FVec Ideal S1x128 .f32) (ix2 (0 : Fin 1) q))
      (∑ i : Fin 100000, Reg0.hbv (Gen.V1 m ρ c main_arg0) (Gen.V1 m ρ c main_v35) (Gen.V1 m ρ c main_v34) (Gen.V1 m ρ c main_v37) i q))
  (h6 : ∀ q : Fin 128, @Eq EReal (((Gen.dat0 (Gen.V1 m ρ) c).arrAt 6 cfg0.N : FVec Ideal S1x128 .f32) (ix2 (0 : Fin 1) q))
      (∑ i : Fin 100000, Reg0.hbv (Gen.V1 m ρ c main_arg0) (Gen.V1 m ρ c main_v35) (Gen.V1 m ρ c main_v34) (Gen.V1 m ρ c main_v37) i q * Reg0.hbv (Gen.V1 m ρ c main_arg0) (Gen.V1 m ρ c main_v35) (Gen.V1 m ρ c main_v34) (Gen.V1 m ρ c main_v37) i q))
include h4 h5 h6

/-- The column sums of the hidden values. -/
theorem sum_eq (q : Fin 128) :
    @Eq EReal (((Gen.dat0 (Gen.V1 m ρ) c).arrAt 5 cfg0.N : FVec Ideal S1x128 .f32) (ix2 (0 : Fin 1) q)) (Cert.Spec.sK (m ((c : Thread nD τ).loc main_arg0)) (m ((c : Thread nD τ).loc main_arg1)) (m ((c : Thread nD τ).loc main_arg2)) (m ((c : Thread nD τ).loc main_arg3)) q) := by
  rw [h5 q]
  exact Finset.sum_congr rfl fun i _ => hbv_eq m ρ c i q

/-- The column sums of their squares. -/
theorem sumsq_eq (q : Fin 128) :
    @Eq EReal (((Gen.dat0 (Gen.V1 m ρ) c).arrAt 6 cfg0.N : FVec Ideal S1x128 .f32) (ix2 (0 : Fin 1) q)) (Cert.Spec.ssK (m ((c : Thread nD τ).loc main_arg0)) (m ((c : Thread nD τ).loc main_arg1)) (m ((c : Thread nD τ).loc main_arg2)) (m ((c : Thread nD τ).loc main_arg3)) q) := by
  rw [h6 q]
  exact Finset.sum_congr rfl fun i _ => by rw [hbv_eq m ρ c i q]

/-- The result array at the last boundary, read at `(i, q)`, is the formula over the six argument arrays. -/
theorem W4_apply_of (i : Fin 100000) (q : Fin 64) :
    (Gen.W4 m ρ c (Proc.devRef .tc main_v46) : FVec Ideal S100000x64 .f32) (ix2 i q)
      = Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i q := by
  rw [Reg1.result_apply m ρ c i q]
  refine (outv_of _ _ _ _ _ _ i q
    (fun k => Cert.Spec.hbK (m ((c : Thread nD τ).loc main_arg0)) (m ((c : Thread nD τ).loc main_arg1)) (m ((c : Thread nD τ).loc main_arg2)) (m ((c : Thread nD τ).loc main_arg3)) i k)
    (fun k => Cert.Spec.meanK (m ((c : Thread nD τ).loc main_arg0)) (m ((c : Thread nD τ).loc main_arg1)) (m ((c : Thread nD τ).loc main_arg2)) (m ((c : Thread nD τ).loc main_arg3)) k)
    (fun k => Cert.Spec.varK (m ((c : Thread nD τ).loc main_arg0)) (m ((c : Thread nD τ).loc main_arg1)) (m ((c : Thread nD τ).loc main_arg2)) (m ((c : Thread nD τ).loc main_arg3)) k)
    (fun k => (m ((c : Thread nD τ).loc main_arg4) : FVec Ideal S64x128 .f32) (ix2 q k))
    (Cert.Edge.scale (m ((c : Thread nD τ).loc main_arg1)) (ix1 i))
    ((m ((c : Thread nD τ).loc main_arg5) : FVec Ideal S64 .f32) (ix1 q))
    (fun k => (h4 i k).trans (hbv_eq m ρ c i k))
    (fun k => by rw [Host1.meanOf_apply, sum_eq m ρ c h4 h5 h6 k]; rfl)
    (fun k => by rw [Host1.varOf_apply, sum_eq m ρ c h4 h5 h6 k, sumsq_eq m ρ c h4 h5 h6 k]; rfl)
    (fun k => by rw [Host0.V1_w2t, transpose_ix2_apply _ transposes_S64x128_S128x64_1_0 k q])
    (by rw [Host0.V1_scale, ColumnLayout.shapeCast_a_a1_apply _ shapeCasts_S100000_S100000x1 i 0])
    (by rw [Host0.V1_b2, shapeCast_a_1a_apply _ shapeCasts_S64_S1x64 0 q])).trans ?_
  rfl

end

/-- THE KERNEL PROGRAM'S RESULT: the result array at the last boundary, read at `(i, q)`, is the formula over the six
    argument arrays — the first call's three arrays being the hidden values, their column sums and the column sums of
    their squares. -/
theorem W4_apply (c : Dev nD) (i : Fin 100000) (q : Fin 64) :
    (Gen.W4 m ρ c (Proc.devRef .tc main_v46) : FVec Ideal S100000x64 .f32) (ix2 i q)
      = Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i q :=
  W4_apply_of m ρ c (Reg0.arr4_apply (Gen.V1 m ρ) c) (Reg0.arr5_apply (Gen.V1 m ρ) c) (Reg0.arr6_apply (Gen.V1 m ρ) c) i q

end Cert.KernelIdeal.KerVal

end
-- ==== Proof.RefRun.lean ====
import proofs.«162744_j44349832298684_2_alg».proof.Proof.Gen.ReferenceIdeal
import Idealize.ShloMosaic.Lib.StableHlo.Run

/-! The reference program's run: @main as one straight line of host operations (the three windows it is
    printed in, the outlined functions' operations standing at their calls over the calls' own buffers), and
    the statement that every weakly fair execution ends with each buffer at the fold of the operations'
    results over the launch contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 60 operations: the edge list's two rows, the first product x · W1ᵀ, the degree
    and its inverse square root, the edge weights, the gathered rows scaled and scatter-added, the self term. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg2 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v1 main_v3 main_v6 (cmpi .ne : (⟨S1600000, .i32⟩ : BufTy).Contents (Elt F) → (⟨S1600000, .i32⟩ : BufTy).Contents (Elt F) → (⟨S1600000, .i1⟩ : BufTy).Contents (Elt F)),
    StableHlo.unary main_v6 main_v7 (uitofp .f32 : (⟨S1600000, .i1⟩ : BufTy).Contents (Elt F) → (⟨S1600000, .f32⟩ : BufTy).Contents (Elt F)),
    StableHlo.nullary main_cst (constant S_ .f32 0x00000000#32),
    StableHlo.unary main_cst main_v8 (broadcastInDim S100000 ![] bcast_S_S100000 : (⟨S_, .f32⟩ : BufTy).Contents (Elt F) → (⟨S100000, .f32⟩ : BufTy).Contents (Elt F)),
    StableHlo.unary main_v3 main_v9 (broadcastInDim S1600000x1 ![0] bcast_S1600000_S1600000x1_0 : (⟨S1600000, .i32⟩ : BufTy).Contents (Elt F) → (⟨S1600000x1, .i32⟩ : BufTy).Contents (Elt F)),
    StableHlo.ternary main_v8 main_v9 main_v7 main_v10 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_0 (constant S_ .f32 0x3F800000#32),
    StableHlo.unary main_cst_0 main_v11 (broadcastInDim S100000 ![] bcast_S_S100000 : (⟨S_, .f32⟩ : BufTy).Contents (Elt F) → (⟨S100000, .f32⟩ : BufTy).Contents (Elt F)),
    StableHlo.binary main_v10 main_v11 main_v12 (addf : (⟨S100000, .f32⟩ : BufTy).Contents (Elt F) → (⟨S100000, .f32⟩ : BufTy).Contents (Elt F) → (⟨S100000, .f32⟩ : BufTy).Contents (Elt F)),
    StableHlo.unary main_v12 main_v13 (Host.rsqrt : (⟨S100000, .f32⟩ : BufTy).Contents (Elt F) → (⟨S100000, .f32⟩ : BufTy).Contents (Elt F)),
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v16 (broadcastInDim S1600000 ![] bcast_S_S1600000 : (⟨S_, .i32⟩ : BufTy).Contents (Elt F) → (⟨S1600000, .i32⟩ : BufTy).Contents (Elt F)),
    StableHlo.binary main_v1 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_2 (constantI S_ 32 0#32),
    StableHlo.unary main_c_2 main_v21 (broadcastInDim S1600000 ![] bcast_S_S1600000 : (⟨S_, .i32⟩ : BufTy).Contents (Elt F) → (⟨S1600000, .i32⟩ : BufTy).Contents (Elt F)),
    StableHlo.binary main_v3 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v23 (broadcastInDim S1600000 ![] bcast_S_S1600000 : (⟨S_, .i32⟩ : BufTy).Contents (Elt F) → (⟨S1600000, .i32⟩ : BufTy).Contents (Elt F)),
    StableHlo.binary main_v3 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v3 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v13 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v20 main_v27 main_v28 (mulf : (⟨S1600000, .f32⟩ : BufTy).Contents (Elt F) → (⟨S1600000, .f32⟩ : BufTy).Contents (Elt F) → (⟨S1600000, .f32⟩ : BufTy).Contents (Elt F)),
    StableHlo.binary main_v28 main_v7 main_v29 (mulf : (⟨S1600000, .f32⟩ : BufTy).Contents (Elt F) → (⟨S1600000, .f32⟩ : BufTy).Contents (Elt F) → (⟨S1600000, .f32⟩ : BufTy).Contents (Elt F)),
    StableHlo.nullary main_c_4 (constantI S_ 32 0#32),
    StableHlo.unary main_c_4 main_v30 (broadcastInDim S1600000 ![] bcast_S_S1600000 : (⟨S_, .i32⟩ : BufTy).Contents (Elt F) → (⟨S1600000, .i32⟩ : BufTy).Contents (Elt F)),
    StableHlo.binary main_v1 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v32 (broadcastInDim S1600000 ![] bcast_S_S1600000 : (⟨S_, .i32⟩ : BufTy).Contents (Elt F) → (⟨S1600000, .i32⟩ : BufTy).Contents (Elt F)),
    StableHlo.binary main_v1 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v5 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v29 main_v37 (broadcastInDim S1600000x1 ![0] bcast_S1600000_S1600000x1_0 : (⟨S1600000, .f32⟩ : BufTy).Contents (Elt F) → (⟨S1600000x1, .f32⟩ : BufTy).Contents (Elt F)),
    StableHlo.unary main_v37 main_v38 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v36 main_v38 main_v39 (mulf : (⟨S1600000x128, .f32⟩ : BufTy).Contents (Elt F) → (⟨S1600000x128, .f32⟩ : BufTy).Contents (Elt F) → (⟨S1600000x128, .f32⟩ : BufTy).Contents (Elt F)),
    StableHlo.nullary main_cst_6 (constant S_ .f32 0x00000000#32),
    StableHlo.unary main_cst_6 main_v40 (broadcastInDim S100000x128 ![] bcast_S_S100000x128 : (⟨S_, .f32⟩ : BufTy).Contents (Elt F) → (⟨S100000x128, .f32⟩ : BufTy).Contents (Elt F)),
    StableHlo.unary main_v1 main_v41 (broadcastInDim S1600000x1 ![0] bcast_S1600000_S1600000x1_0 : (⟨S1600000, .i32⟩ : BufTy).Contents (Elt F) → (⟨S1600000x1, .i32⟩ : BufTy).Contents (Elt F)),
    StableHlo.ternary main_v40 main_v41 main_v39 main_v42 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_7 (constant S_ .f32 0x3F800000#32),
    StableHlo.unary main_cst_7 main_v43 (broadcastInDim S100000 ![] bcast_S_S100000 : (⟨S_, .f32⟩ : BufTy).Contents (Elt F) → (⟨S100000, .f32⟩ : BufTy).Contents (Elt F)),
    StableHlo.binary main_v43 main_v12 main_v44 (Host.divf : (⟨S100000, .f32⟩ : BufTy).Contents (Elt F) → (⟨S100000, .f32⟩ : BufTy).Contents (Elt F) → (⟨S100000, .f32⟩ : BufTy).Contents (Elt F)),
    StableHlo.unary main_v44 main_v45 (broadcastInDim S100000x1 ![0] bcast_S100000_S100000x1_0 : (⟨S100000, .f32⟩ : BufTy).Contents (Elt F) → (⟨S100000x1, .f32⟩ : BufTy).Contents (Elt F)),
    StableHlo.unary main_v45 main_v46 (broadcastInDim S100000x128 ![0, 1] bcast_S100000x1_S100000x128_0_1 : (⟨S100000x1, .f32⟩ : BufTy).Contents (Elt F) → (⟨S100000x128, .f32⟩ : BufTy).Contents (Elt F)),
    StableHlo.binary main_v5 main_v46 main_v47 (mulf : (⟨S100000x128, .f32⟩ : BufTy).Contents (Elt F) → (⟨S100000x128, .f32⟩ : BufTy).Contents (Elt F) → (⟨S100000x128, .f32⟩ : BufTy).Contents (Elt F)),
    StableHlo.binary main_v42 main_v47 main_v48 (addf : (⟨S100000x128, .f32⟩ : BufTy).Contents (Elt F) → (⟨S100000x128, .f32⟩ : BufTy).Contents (Elt F) → (⟨S100000x128, .f32⟩ : BufTy).Contents (Elt F)),
    StableHlo.unary main_arg3 main_v49 (broadcastInDim S1x128 ![1] bcast_S128_S1x128_1 : (⟨S128, .f32⟩ : BufTy).Contents (Elt F) → (⟨S1x128, .f32⟩ : BufTy).Contents (Elt F)) ]

/-- The second window's operations: the bias, the column mean, the variance function's operations (with the
    select of the function it calls) over its call's buffers, the normalisation, the rectifier's three
    operations over its call's buffers, the second product, and the edge quantities computed again. -/
abbrev ops1 : List (HloOp τ sig (Elt F)) :=
  [ StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v51 main_cst_8 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call0.cst (constant S_ .f32 0x00000000#32),
    StableHlo.TRef.binary (.of main_v51 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v51 : StableHlo.TRef sig ⟨S100000x128, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v51 main_v57 main_v58 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v63 main_v64 (mulf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v64 : StableHlo.TRef sig ⟨S100000x128, .f32⟩) main_call1.v0 main_call1.v1 maximumf,
    StableHlo.unary main_arg4 main_v66 ((transpose S128x64 [1, 0] · transposes_S64x128_S128x64_1_0) : (⟨S64x128, .f32⟩ : BufTy).Contents (Elt F) → (⟨S128x64, .f32⟩ : BufTy).Contents (Elt F)),
    StableHlo.binary main_v65 main_v66 main_v67 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v1 main_v3 main_v68 (cmpi .ne : (⟨S1600000, .i32⟩ : BufTy).Contents (Elt F) → (⟨S1600000, .i32⟩ : BufTy).Contents (Elt F) → (⟨S1600000, .i1⟩ : BufTy).Contents (Elt F)),
    StableHlo.unary main_v68 main_v69 (uitofp .f32 : (⟨S1600000, .i1⟩ : BufTy).Contents (Elt F) → (⟨S1600000, .f32⟩ : BufTy).Contents (Elt F)),
    StableHlo.nullary main_cst_12 (constant S_ .f32 0x00000000#32),
    StableHlo.unary main_cst_12 main_v70 (broadcastInDim S100000 ![] bcast_S_S100000 : (⟨S_, .f32⟩ : BufTy).Contents (Elt F) → (⟨S100000, .f32⟩ : BufTy).Contents (Elt F)),
    StableHlo.unary main_v3 main_v71 (broadcastInDim S1600000x1 ![0] bcast_S1600000_S1600000x1_0 : (⟨S1600000, .i32⟩ : BufTy).Contents (Elt F) → (⟨S1600000x1, .i32⟩ : BufTy).Contents (Elt F)),
    StableHlo.ternary main_v70 main_v71 main_v69 main_v72 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v73 (broadcastInDim S100000 ![] bcast_S_S100000 : (⟨S_, .f32⟩ : BufTy).Contents (Elt F) → (⟨S100000, .f32⟩ : BufTy).Contents (Elt F)),
    StableHlo.binary main_v72 main_v73 main_v74 (addf : (⟨S100000, .f32⟩ : BufTy).Contents (Elt F) → (⟨S100000, .f32⟩ : BufTy).Contents (Elt F) → (⟨S100000, .f32⟩ : BufTy).Contents (Elt F)),
    StableHlo.unary main_v74 main_v75 (Host.rsqrt : (⟨S100000, .f32⟩ : BufTy).Contents (Elt F) → (⟨S100000, .f32⟩ : BufTy).Contents (Elt F)),
    StableHlo.nullary main_c_14 (constantI S_ 32 0#32),
    StableHlo.unary main_c_14 main_v76 (broadcastInDim S1600000 ![] bcast_S_S1600000 : (⟨S_, .i32⟩ : BufTy).Contents (Elt F) → (⟨S1600000, .i32⟩ : BufTy).Contents (Elt F)),
    StableHlo.binary main_v1 main_v76 main_v77 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v78 (broadcastInDim S1600000 ![] bcast_S_S1600000 : (⟨S_, .i32⟩ : BufTy).Contents (Elt F) → (⟨S1600000, .i32⟩ : BufTy).Contents (Elt F)),
    StableHlo.binary main_v1 main_v78 main_v79 (addi : (⟨S1600000, .i32⟩ : BufTy).Contents (Elt F) → (⟨S1600000, .i32⟩ : BufTy).Contents (Elt F) → (⟨S1600000, .i32⟩ : BufTy).Contents (Elt F)),
    StableHlo.ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v80 main_v81 (broadcastInDim S1600000x1 ![0] bcast_S1600000_S1600000x1_0 : (⟨S1600000, .i32⟩ : BufTy).Contents (Elt F) → (⟨S1600000x1, .i32⟩ : BufTy).Contents (Elt F)),
    StableHlo.binary main_v75 main_v81 main_v82 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_16 (constantI S_ 32 0#32),
    StableHlo.unary main_c_16 main_v83 (broadcastInDim S1600000 ![] bcast_S_S1600000 : (⟨S_, .i32⟩ : BufTy).Contents (Elt F) → (⟨S1600000, .i32⟩ : BufTy).Contents (Elt F)),
    StableHlo.binary main_v3 main_v83 main_v84 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v85 (broadcastInDim S1600000 ![] bcast_S_S1600000 : (⟨S_, .i32⟩ : BufTy).Contents (Elt F) → (⟨S1600000, .i32⟩ : BufTy).Contents (Elt F)),
    StableHlo.binary main_v3 main_v85 main_v86 (addi : (⟨S1600000, .i32⟩ : BufTy).Contents (Elt F) → (⟨S1600000, .i32⟩ : BufTy).Contents (Elt F) → (⟨S1600000, .i32⟩ : BufTy).Contents (Elt F)),
    StableHlo.ternary main_v84 main_v86 main_v3 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v87 main_v88 (broadcastInDim S1600000x1 ![0] bcast_S1600000_S1600000x1_0 : (⟨S1600000, .i32⟩ : BufTy).Contents (Elt F) → (⟨S1600000x1, .i32⟩ : BufTy).Contents (Elt F)),
    StableHlo.binary main_v75 main_v88 main_v89 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v82 main_v89 main_v90 (mulf : (⟨S1600000, .f32⟩ : BufTy).Contents (Elt F) → (⟨S1600000, .f32⟩ : BufTy).Contents (Elt F) → (⟨S1600000, .f32⟩ : BufTy).Contents (Elt F)),
    StableHlo.binary main_v90 main_v69 main_v91 (mulf : (⟨S1600000, .f32⟩ : BufTy).Contents (Elt F) → (⟨S1600000, .f32⟩ : BufTy).Contents (Elt F) → (⟨S1600000, .f32⟩ : BufTy).Contents (Elt F)),
    StableHlo.nullary main_c_18 (constantI S_ 32 0#32),
    StableHlo.unary main_c_18 main_v92 (broadcastInDim S1600000 ![] bcast_S_S1600000 : (⟨S_, .i32⟩ : BufTy).Contents (Elt F) → (⟨S1600000, .i32⟩ : BufTy).Contents (Elt F)),
    StableHlo.binary main_v1 main_v92 main_v93 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v94 (broadcastInDim S1600000 ![] bcast_S_S1600000 : (⟨S_, .i32⟩ : BufTy).Contents (Elt F) → (⟨S1600000, .i32⟩ : BufTy).Contents (Elt F)),
    StableHlo.binary main_v1 main_v94 main_v95 (addi : (⟨S1600000, .i32⟩ : BufTy).Contents (Elt F) → (⟨S1600000, .i32⟩ : BufTy).Contents (Elt F) → (⟨S1600000, .i32⟩ : BufTy).Contents (Elt F)),
    StableHlo.ternary main_v93 main_v95 main_v1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v96 main_v97 (broadcastInDim S1600000x1 ![0] bcast_S1600000_S1600000x1_0 : (⟨S1600000, .i32⟩ : BufTy).Contents (Elt F) → (⟨S1600000x1, .i32⟩ : BufTy).Contents (Elt F)) ]

/-- The third window's operations: the second gather, scale, scatter-add, self term and bias. -/
abbrev ops2 : List (HloOp τ sig (Elt F)) :=
  [ StableHlo.binary main_v67 main_v97 main_v98 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v91 main_v99 (broadcastInDim S1600000x1 ![0] bcast_S1600000_S1600000x1_0 : (⟨S1600000, .f32⟩ : BufTy).Contents (Elt F) → (⟨S1600000x1, .f32⟩ : BufTy).Contents (Elt F)),
    StableHlo.unary main_v99 main_v100 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v98 main_v100 main_v101 (mulf : (⟨S1600000x64, .f32⟩ : BufTy).Contents (Elt F) → (⟨S1600000x64, .f32⟩ : BufTy).Contents (Elt F) → (⟨S1600000x64, .f32⟩ : BufTy).Contents (Elt F)),
    StableHlo.nullary main_cst_20 (constant S_ .f32 0x00000000#32),
    StableHlo.unary main_cst_20 main_v102 (broadcastInDim S100000x64 ![] bcast_S_S100000x64 : (⟨S_, .f32⟩ : BufTy).Contents (Elt F) → (⟨S100000x64, .f32⟩ : BufTy).Contents (Elt F)),
    StableHlo.unary main_v1 main_v103 (broadcastInDim S1600000x1 ![0] bcast_S1600000_S1600000x1_0 : (⟨S1600000, .i32⟩ : BufTy).Contents (Elt F) → (⟨S1600000x1, .i32⟩ : BufTy).Contents (Elt F)),
    StableHlo.ternary main_v102 main_v103 main_v101 main_v104 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_21 (constant S_ .f32 0x3F800000#32),
    StableHlo.unary main_cst_21 main_v105 (broadcastInDim S100000 ![] bcast_S_S100000 : (⟨S_, .f32⟩ : BufTy).Contents (Elt F) → (⟨S100000, .f32⟩ : BufTy).Contents (Elt F)),
    StableHlo.binary main_v105 main_v74 main_v106 (Host.divf : (⟨S100000, .f32⟩ : BufTy).Contents (Elt F) → (⟨S100000, .f32⟩ : BufTy).Contents (Elt F) → (⟨S100000, .f32⟩ : BufTy).Contents (Elt F)),
    StableHlo.unary main_v106 main_v107 (broadcastInDim S100000x1 ![0] bcast_S100000_S100000x1_0 : (⟨S100000, .f32⟩ : BufTy).Contents (Elt F) → (⟨S100000x1, .f32⟩ : BufTy).Contents (Elt F)),
    StableHlo.unary main_v107 main_v108 (broadcastInDim S100000x64 ![0, 1] bcast_S100000x1_S100000x64_0_1 : (⟨S100000x1, .f32⟩ : BufTy).Contents (Elt F) → (⟨S100000x64, .f32⟩ : BufTy).Contents (Elt F)),
    StableHlo.binary main_v67 main_v108 main_v109 (mulf : (⟨S100000x64, .f32⟩ : BufTy).Contents (Elt F) → (⟨S100000x64, .f32⟩ : BufTy).Contents (Elt F) → (⟨S100000x64, .f32⟩ : BufTy).Contents (Elt F)),
    StableHlo.binary main_v104 main_v109 main_v110 (addf : (⟨S100000x64, .f32⟩ : BufTy).Contents (Elt F) → (⟨S100000x64, .f32⟩ : BufTy).Contents (Elt F) → (⟨S100000x64, .f32⟩ : BufTy).Contents (Elt F)),
    StableHlo.unary main_arg5 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v112 main_v113 (addf : (⟨S100000x64, .f32⟩ : BufTy).Contents (Elt F) → (⟨S100000x64, .f32⟩ : BufTy).Contents (Elt F) → (⟨S100000x64, .f32⟩ : BufTy).Contents (Elt F)) ]

/-- @main's operations, in order. -/
abbrev ops : List (HloOp τ sig (Elt F)) := ops0 ++ (ops1 ++ ops2)

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

/-- @main is the straight line of its operations: each window is its list, and lists run one after the
    other are their concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., binary_bufs_sub ..,
    binary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..⟩

set_option maxRecDepth 8192 in
theorem ops1_sub : (ops1 : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., nullary_bufs_sub .., unary_bufs_sub ..,
    binary_bufs_sub .., unary_bufs_sub .., binary_bufs_sub .., binary_bufs_sub .., unary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., nullary_bufs_sub .., unary_bufs_sub .., binary_bufs_sub ..,
    nullary_bufs_sub .., unary_bufs_sub .., binary_bufs_sub .., ternary_bufs_sub .., unary_bufs_sub ..⟩

set_option maxRecDepth 8192 in
theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl⟩

/-- Every operation determines its results. -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

/-- At the compiled mesh, for any float values, from any memory with zero counters: every weakly fair execution
    of @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStages.lean ====
import proofs.«162744_j44349832298684_2_alg».proof.Proof.Edge

/-! The reference's result as one term of its six arguments, stage by stage: the first product, the graph
    convolution (rows gathered along the edges, weighted, summed into their node, plus the node's own row over its
    degree), the bias, the column mean and variance, the normalisation, the rectifier, the second product, the
    second convolution and bias. Every stage is written with the operations the reference prints. -/

noncomputable section

namespace Cert.ReferenceIdeal.RefRun

open Idealize.ShloMosaic Cert.ReferenceIdeal Cert.ReferenceIdeal.Facts₀

abbrev Feat := FVec Ideal S100000x128 .f32
abbrev Feat2 := FVec Ideal S100000x64 .f32
abbrev Cols := FVec Ideal S128 .f32

/-- The zero scalar. -/
def zeroS : FVec Ideal S_ .f32 := constant (F := Ideal) S_ .f32 0x00000000#32
/-- The number of nodes, as a scalar. -/
def countS : FVec Ideal S_ .f32 := constant (F := Ideal) S_ .f32 0x47C35000#32

/-- The first product: x · W1ᵀ. -/
def h1 (x : Feat) (W1 : FVec Ideal S128x128 .f32) : Feat :=
  Host.dotGeneral (F := Ideal) dot_S100000x128_S128x128_S100000x128_1_0_0_1_n_n none x
    (transpose S128x128 [1, 0] W1 transposes_S128x128_S128x128_1_0)

/-- An edge vector as a [1600000,128] array constant along the rows. -/
def spreadE (w : Cert.Edge.EdgeReals) : FVec Ideal S1600000x128 .f32 :=
  broadcastInDim S1600000x128 ![0, 1] bcast_S1600000x1_S1600000x128_0_1
    (broadcastInDim S1600000x1 ![0] bcast_S1600000_S1600000x1_0 w)
/-- A node vector as a [100000,128] array constant along the rows. -/
def spreadN (d : Cert.Edge.NodeReals) : Feat :=
  broadcastInDim S100000x128 ![0, 1] bcast_S100000x1_S100000x128_0_1
    (broadcastInDim S100000x1 ![0] bcast_S100000_S100000x1_0 d)
/-- A row of 128 columns as a [100000,128] array constant down the columns. -/
def spreadC (b : Cols) : Feat :=
  broadcastInDim S100000x128 ![0, 1] bcast_S1x128_S100000x128_0_1 (broadcastInDim S1x128 ![1] bcast_S128_S1x128_1 b)

/-- The first convolution: each edge's source row, weighted, summed into the source node's row; plus the
    node's own row over its degree. -/
def conv1 (ei : Cert.Edge.EdgeList) (h : Feat) : Feat :=
  addf (F := Ideal)
    (Host.scatterAdd (F := Ideal) scatter_S100000x128_S1600000x1_S1600000x128_1_0_0_1
      (broadcastInDim S100000x128 ![] bcast_S_S100000x128 (constant (F := Ideal) S_ .f32 0x00000000#32))
      (Cert.Edge.col (Cert.Edge.src ei))
      (mulf (F := Ideal)
        (Host.gather gather_S100000x128_S1600000x1_S1600000x128_1_0_n_n_0_1_1128 h (Cert.Edge.col (Cert.Edge.nrm (Cert.Edge.src ei))))
        (spreadE (Cert.Edge.wgt ei))))
    (mulf (F := Ideal) h (spreadN (Cert.Edge.invdeg ei)))

/-- The first layer before normalisation: convolution plus bias. -/
def hb (x : Feat) (ei : Cert.Edge.EdgeList) (W1 : FVec Ideal S128x128 .f32) (b1 : Cols) : Feat :=
  addf (F := Ideal) (conv1 ei (h1 x W1)) (spreadC b1)

/-- The column sums. -/
def colSum (a : Feat) : Cols :=
  Host.reduceAdd (F := Ideal) a (constant (F := Ideal) S_ .f32 0x00000000#32) reducesTo_S100000x128_S128_d0 h_S_

/-- The column means. -/
def mean (a : Feat) : Cols :=
  Host.divf (F := Ideal) (colSum a) (broadcastInDim S128 ![] bcast_S_S128 (constant (F := Ideal) S_ .f32 0x47C35000#32))

/-- The deviations from the column means, as the variance function computes them. -/
def dev (a : Feat) : Feat :=
  subf (F := Ideal) a
    (broadcastInDim S100000x128 ![0, 1] bcast_S1x128_S100000x128_0_1
      (Host.divf (F := Ideal) (broadcastInDim S1x128 ![1] bcast_S128_S1x128_1 (colSum a))
        (broadcastInDim S1x128 ![] bcast_S_S1x128 (constant (F := Ideal) S_ .f32 0x47C35000#32))))

/-- The variance function's divisor: the number of nodes less the correction, zero here. -/
def varN : FVec Ideal S_ .f32 :=
  subf (F := Ideal) (constant (F := Ideal) S_ .f32 0x47C35000#32) (sitofp (F := Ideal) .f32 (constantI S_ 32 0#32))

/-- The column variances: the summed squared deviations over the divisor where the divisor is positive. -/
def var (a : Feat) : Cols :=
  select (broadcastInDim S128 ![] bcast_S_S128 (cmpf (F := Ideal) .ogt varN (constant (F := Ideal) S_ .f32 0x00000000#32)))
    (Host.divf (F := Ideal) (colSum (mulf (F := Ideal) (dev a) (dev a))) (broadcastInDim S128 ![] bcast_S_S128 varN))
    (broadcastInDim S128 ![] bcast_S_S128 (id (constant (F := Ideal) S_ .f32 0x7FC00000#32)))

/-- The normalisation: deviations from the mean times the inverse square root of variance plus ε. -/
def norm (a : Feat) : Feat :=
  mulf (F := Ideal) (subf (F := Ideal) a (spreadC (mean a)))
    (spreadC (Host.rsqrt (F := Ideal) (addf (F := Ideal) (var a)
      (broadcastInDim S128 ![] bcast_S_S128 (constant (F := Ideal) S_ .f32 0x3727C5AC#32)))))

/-- The rectifier. -/
def act (a : Feat) : Feat :=
  maximumf (F := Ideal) (norm a) (broadcastInDim S100000x128 ![] bcast_S_S100000x128 (constant (F := Ideal) S_ .f32 0x00000000#32))

/-- The second product: a · W2ᵀ. -/
def h2 (a : Feat) (W2 : FVec Ideal S64x128 .f32) : Feat2 :=
  Host.dotGeneral (F := Ideal) dot_S100000x128_S128x64_S100000x64_1_0_0_1_n_n none a
    (transpose S128x64 [1, 0] W2 transposes_S64x128_S128x64_1_0)

/-- An edge vector as a [1600000,64] array constant along the rows. -/
def spreadE2 (w : Cert.Edge.EdgeReals) : FVec Ideal S1600000x64 .f32 :=
  broadcastInDim S1600000x64 ![0, 1] bcast_S1600000x1_S1600000x64_0_1
    (broadcastInDim S1600000x1 ![0] bcast_S1600000_S1600000x1_0 w)
/-- A node vector as a [100000,64] array constant along the rows. -/
def spreadN2 (d : Cert.Edge.NodeReals) : Feat2 :=
  broadcastInDim S100000x64 ![0, 1] bcast_S100000x1_S100000x64_0_1
    (broadcastInDim S100000x1 ![0] bcast_S100000_S100000x1_0 d)
/-- A row of 64 columns as a [100000,64] array constant down the columns. -/
def spreadC2 (b : FVec Ideal S64 .f32) : Feat2 :=
  broadcastInDim S100000x64 ![0, 1] bcast_S1x64_S100000x64_0_1 (broadcastInDim S1x64 ![1] bcast_S64_S1x64_1 b)

/-- The second convolution, on 64 columns. -/
def conv2 (ei : Cert.Edge.EdgeList) (h : Feat2) : Feat2 :=
  addf (F := Ideal)
    (Host.scatterAdd (F := Ideal) scatter_S100000x64_S1600000x1_S1600000x64_1_0_0_1
      (broadcastInDim S100000x64 ![] bcast_S_S100000x64 (constant (F := Ideal) S_ .f32 0x00000000#32))
      (Cert.Edge.col (Cert.Edge.src ei))
      (mulf (F := Ideal)
        (Host.gather gather_S100000x64_S1600000x1_S1600000x64_1_0_n_n_0_1_164 h (Cert.Edge.col (Cert.Edge.nrm (Cert.Edge.src ei))))
        (spreadE2 (Cert.Edge.wgt ei))))
    (mulf (F := Ideal) h (spreadN2 (Cert.Edge.invdeg ei)))

/-- The reference's result. -/
def out (x : Feat) (ei : Cert.Edge.EdgeList) (W1 : FVec Ideal S128x128 .f32) (b1 : Cols)
    (W2 : FVec Ideal S64x128 .f32) (b2 : FVec Ideal S64 .f32) : Feat2 :=
  addf (F := Ideal) (conv2 ei (h2 (act (hb x ei W1 b1)) W2)) (spreadC2 b2)

end Cert.ReferenceIdeal.RefRun

end
-- ==== Proof.RefOut0.lean ====
import proofs.«162744_j44349832298684_2_alg».proof.Proof.RefRun
import proofs.«162744_j44349832298684_2_alg».proof.Proof.RefStages

/-! The reference's operation list read window by window: the buffer contents after one, two and three windows,
    and, after the first window, every buffer a later window still reads as its term of the six arguments'
    launch contents. -/

noncomputable section

namespace Cert.ReferenceIdeal.RefRun

open Cert.ReferenceIdeal Idealize.ShloMosaic Idealize.ShloMosaic.TcCoe Idealize.SL.Sem Idealize.ShloMosaic.StableHlo

/-- Two lines run one after the other: the second from what the first leaves. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The buffer contents after the first window. -/
def val0 (V : Valuation τ sig (Elt Ideal)) : Valuation τ sig (Elt Ideal) := after ops0 V
/-- The buffer contents after the first two windows. -/
def val1 (V : Valuation τ sig (Elt Ideal)) : Valuation τ sig (Elt Ideal) := after ops1 (val0 V)
/-- The buffer contents after all three windows. -/
def val2 (V : Valuation τ sig (Elt Ideal)) : Valuation τ sig (Elt Ideal) := after ops2 (val1 V)

theorem after_ops (V : Valuation τ sig (Elt Ideal)) : after ops V = val2 V := by
  simp only [ops, after_app]
  rfl

/-! ## After the first window -/

set_option maxHeartbeats 2000000 in
theorem val0_v1 (V : Valuation τ sig (Elt Ideal)) :
    val0 V (no_index (Proc.devRef .tc main_v1)) = Cert.Edge.src (V (main_arg1 : DevRef τ sig)) := by
  unfold val0
  simp only [ops0]
  after_results_simp
  all_goals rfl

set_option maxHeartbeats 2000000 in
theorem val0_v3 (V : Valuation τ sig (Elt Ideal)) :
    val0 V (no_index (Proc.devRef .tc main_v3)) = Cert.Edge.dst (V (main_arg1 : DevRef τ sig)) := by
  unfold val0
  simp only [ops0]
  after_results_simp
  all_goals rfl

set_option maxHeartbeats 2000000 in
theorem val0_v48 (V : Valuation τ sig (Elt Ideal)) :
    val0 V (no_index (Proc.devRef .tc main_v48)) = conv1 (V (main_arg1 : DevRef τ sig)) (h1 (V (main_arg0 : DevRef τ sig)) (V (main_arg2 : DevRef τ sig))) := by
  unfold val0
  simp only [ops0]
  after_results_simp
  all_goals rfl

set_option maxHeartbeats 2000000 in
theorem val0_v49 (V : Valuation τ sig (Elt Ideal)) :
    val0 V (no_index (Proc.devRef .tc main_v49)) = broadcastInDim S1x128 ![1] Facts₀.bcast_S128_S1x128_1 (V (main_arg3 : DevRef τ sig)) := by
  unfold val0
  simp only [ops0]
  after_results_simp
  all_goals rfl

set_option maxHeartbeats 1000000 in
theorem val0_arg0 (V : Valuation τ sig (Elt Ideal)) :
    val0 V (no_index (Proc.devRef .tc main_arg0)) = V (main_arg0 : DevRef τ sig) := by
  unfold val0
  simp only [ops0]
  after_results_simp
  all_goals rfl

set_option maxHeartbeats 1000000 in
theorem val0_arg1 (V : Valuation τ sig (Elt Ideal)) :
    val0 V (no_index (Proc.devRef .tc main_arg1)) = V (main_arg1 : DevRef τ sig) := by
  unfold val0
  simp only [ops0]
  after_results_simp
  all_goals rfl

set_option maxHeartbeats 1000000 in
theorem val0_arg2 (V : Valuation τ sig (Elt Ideal)) :
    val0 V (no_index (Proc.devRef .tc main_arg2)) = V (main_arg2 : DevRef τ sig) := by
  unfold val0
  simp only [ops0]
  after_results_simp
  all_goals rfl

set_option maxHeartbeats 1000000 in
theorem val0_arg3 (V : Valuation τ sig (Elt Ideal)) :
    val0 V (no_index (Proc.devRef .tc main_arg3)) = V (main_arg3 : DevRef τ sig) := by
  unfold val0
  simp only [ops0]
  after_results_simp
  all_goals rfl

set_option maxHeartbeats 1000000 in
theorem val0_arg4 (V : Valuation τ sig (Elt Ideal)) :
    val0 V (no_index (Proc.devRef .tc main_arg4)) = V (main_arg4 : DevRef τ sig) := by
  unfold val0
  simp only [ops0]
  after_results_simp
  all_goals rfl

set_option maxHeartbeats 1000000 in
theorem val0_arg5 (V : Valuation τ sig (Elt Ideal)) :
    val0 V (no_index (Proc.devRef .tc main_arg5)) = V (main_arg5 : DevRef τ sig) := by
  unfold val0
  simp only [ops0]
  after_results_simp
  all_goals rfl

end Cert.ReferenceIdeal.RefRun

end
-- ==== Proof.RefOps1.lean ====
import proofs.«162744_j44349832298684_2_alg».proof.Proof.RefRun

/-! The second window's operations once more, the called functions' operations written over the calls' buffers
    directly (each buffer a literal reference, each function at the buffer's own contents type): the same list. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The second window's operations over literal references. -/
abbrev ops1u : List (HloOp τ sig (Elt F)) :=
  [ StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v51 main_cst_8 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.nullary main_call0_cst (constant S_ .f32 0x00000000#32 : (⟨S_, .f32⟩ : BufTy).Contents (Elt F)),
    StableHlo.binary main_v51 main_call0_cst main_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call0_v0 main_call0_v1 ((broadcastInDim S1x128 ![1] bcast_S128_S1x128_1) : (⟨S128, .f32⟩ : BufTy).Contents (Elt F) → (⟨S1x128, .f32⟩ : BufTy).Contents (Elt F)),
    StableHlo.nullary main_call0_cst_0 (constant S_ .f32 0x47C35000#32 : (⟨S_, .f32⟩ : BufTy).Contents (Elt F)),
    StableHlo.unary main_call0_cst_0 main_call0_v2 ((broadcastInDim S1x128 ![] bcast_S_S1x128) : (⟨S_, .f32⟩ : BufTy).Contents (Elt F) → (⟨S1x128, .f32⟩ : BufTy).Contents (Elt F)),
    StableHlo.binary main_call0_v1 main_call0_v2 main_call0_v3 ((Host.divf) : (⟨S1x128, .f32⟩ : BufTy).Contents (Elt F) → (⟨S1x128, .f32⟩ : BufTy).Contents (Elt F) → (⟨S1x128, .f32⟩ : BufTy).Contents (Elt F)),
    StableHlo.unary main_call0_v3 main_call0_v4 ((broadcastInDim S100000x128 ![0, 1] bcast_S1x128_S100000x128_0_1) : (⟨S1x128, .f32⟩ : BufTy).Contents (Elt F) → (⟨S100000x128, .f32⟩ : BufTy).Contents (Elt F)),
    StableHlo.binary main_v51 main_call0_v4 main_call0_v5 ((subf) : (⟨S100000x128, .f32⟩ : BufTy).Contents (Elt F) → (⟨S100000x128, .f32⟩ : BufTy).Contents (Elt F) → (⟨S100000x128, .f32⟩ : BufTy).Contents (Elt F)),
    StableHlo.binary main_call0_v5 main_call0_v5 main_call0_v6 ((mulf) : (⟨S100000x128, .f32⟩ : BufTy).Contents (Elt F) → (⟨S100000x128, .f32⟩ : BufTy).Contents (Elt F) → (⟨S100000x128, .f32⟩ : BufTy).Contents (Elt F)),
    StableHlo.unary main_c_10 main_call0_v7 ((sitofp .f32) : (⟨S_, .i32⟩ : BufTy).Contents (Elt F) → (⟨S_, .f32⟩ : BufTy).Contents (Elt F)),
    StableHlo.nullary main_call0_cst_1 (constant S_ .f32 0x47C35000#32 : (⟨S_, .f32⟩ : BufTy).Contents (Elt F)),
    StableHlo.binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32 : (⟨S_, .f32⟩ : BufTy).Contents (Elt F)),
    StableHlo.binary main_call0_v6 main_call0_cst_2 main_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call0_v8 main_call0_v10 ((broadcastInDim S128 ![] bcast_S_S128) : (⟨S_, .f32⟩ : BufTy).Contents (Elt F) → (⟨S128, .f32⟩ : BufTy).Contents (Elt F)),
    StableHlo.binary main_call0_v9 main_call0_v10 main_call0_v11 ((Host.divf) : (⟨S128, .f32⟩ : BufTy).Contents (Elt F) → (⟨S128, .f32⟩ : BufTy).Contents (Elt F) → (⟨S128, .f32⟩ : BufTy).Contents (Elt F)),
    StableHlo.nullary main_call0_cst_3 (constant S_ .f32 0x00000000#32 : (⟨S_, .f32⟩ : BufTy).Contents (Elt F)),
    StableHlo.binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32 : (⟨S_, .f32⟩ : BufTy).Contents (Elt F)),
    StableHlo.unary main_call0_cst_4 main_call0_call0_v0 ((id) : (⟨S_, .f32⟩ : BufTy).Contents (Elt F) → (⟨S_, .f32⟩ : BufTy).Contents (Elt F)),
    StableHlo.unary main_call0_call0_v0 main_call0_call0_v1 ((broadcastInDim S128 ![] bcast_S_S128) : (⟨S_, .f32⟩ : BufTy).Contents (Elt F) → (⟨S128, .f32⟩ : BufTy).Contents (Elt F)),
    StableHlo.ternary main_call0_v12 main_call0_v11 main_call0_call0_v1 main_v55 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v51 main_v57 main_v58 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v63 main_v64 (mulf : (⟨S100000x128, .f32⟩ : BufTy).Contents (Elt F) → (⟨S100000x128, .f32⟩ : BufTy).Contents (Elt F) → (⟨S100000x128, .f32⟩ : BufTy).Contents (Elt F)),
    StableHlo.nullary main_call1_cst (constant S_ .f32 0x00000000#32 : (⟨S_, .f32⟩ : BufTy).Contents (Elt F)),
    StableHlo.unary main_call1_cst main_call1_v0 ((broadcastInDim S100000x128 ![] bcast_S_S100000x128) : (⟨S_, .f32⟩ : BufTy).Contents (Elt F) → (⟨S100000x128, .f32⟩ : BufTy).Contents (Elt F)),
    StableHlo.binary main_v64 main_call1_v0 main_v65 ((maximumf) : (⟨S100000x128, .f32⟩ : BufTy).Contents (Elt F) → (⟨S100000x128, .f32⟩ : BufTy).Contents (Elt F) → (⟨S100000x128, .f32⟩ : BufTy).Contents (Elt F)),
    StableHlo.unary main_arg4 main_v66 ((transpose S128x64 [1, 0] · transposes_S64x128_S128x64_1_0) : (⟨S64x128, .f32⟩ : BufTy).Contents (Elt F) → (⟨S128x64, .f32⟩ : BufTy).Contents (Elt F)),
    StableHlo.binary main_v65 main_v66 main_v67 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v1 main_v3 main_v68 (cmpi .ne : (⟨S1600000, .i32⟩ : BufTy).Contents (Elt F) → (⟨S1600000, .i32⟩ : BufTy).Contents (Elt F) → (⟨S1600000, .i1⟩ : BufTy).Contents (Elt F)),
    StableHlo.unary main_v68 main_v69 (uitofp .f32 : (⟨S1600000, .i1⟩ : BufTy).Contents (Elt F) → (⟨S1600000, .f32⟩ : BufTy).Contents (Elt F)),
    StableHlo.nullary main_cst_12 (constant S_ .f32 0x00000000#32),
    StableHlo.unary main_cst_12 main_v70 (broadcastInDim S100000 ![] bcast_S_S100000 : (⟨S_, .f32⟩ : BufTy).Contents (Elt F) → (⟨S100000, .f32⟩ : BufTy).Contents (Elt F)),
    StableHlo.unary main_v3 main_v71 (broadcastInDim S1600000x1 ![0] bcast_S1600000_S1600000x1_0 : (⟨S1600000, .i32⟩ : BufTy).Contents (Elt F) → (⟨S1600000x1, .i32⟩ : BufTy).Contents (Elt F)),
    StableHlo.ternary main_v70 main_v71 main_v69 main_v72 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v73 (broadcastInDim S100000 ![] bcast_S_S100000 : (⟨S_, .f32⟩ : BufTy).Contents (Elt F) → (⟨S100000, .f32⟩ : BufTy).Contents (Elt F)),
    StableHlo.binary main_v72 main_v73 main_v74 (addf : (⟨S100000, .f32⟩ : BufTy).Contents (Elt F) → (⟨S100000, .f32⟩ : BufTy).Contents (Elt F) → (⟨S100000, .f32⟩ : BufTy).Contents (Elt F)),
    StableHlo.unary main_v74 main_v75 (Host.rsqrt : (⟨S100000, .f32⟩ : BufTy).Contents (Elt F) → (⟨S100000, .f32⟩ : BufTy).Contents (Elt F)),
    StableHlo.nullary main_c_14 (constantI S_ 32 0#32),
    StableHlo.unary main_c_14 main_v76 (broadcastInDim S1600000 ![] bcast_S_S1600000 : (⟨S_, .i32⟩ : BufTy).Contents (Elt F) → (⟨S1600000, .i32⟩ : BufTy).Contents (Elt F)),
    StableHlo.binary main_v1 main_v76 main_v77 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v78 (broadcastInDim S1600000 ![] bcast_S_S1600000 : (⟨S_, .i32⟩ : BufTy).Contents (Elt F) → (⟨S1600000, .i32⟩ : BufTy).Contents (Elt F)),
    StableHlo.binary main_v1 main_v78 main_v79 (addi : (⟨S1600000, .i32⟩ : BufTy).Contents (Elt F) → (⟨S1600000, .i32⟩ : BufTy).Contents (Elt F) → (⟨S1600000, .i32⟩ : BufTy).Contents (Elt F)),
    StableHlo.ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v80 main_v81 (broadcastInDim S1600000x1 ![0] bcast_S1600000_S1600000x1_0 : (⟨S1600000, .i32⟩ : BufTy).Contents (Elt F) → (⟨S1600000x1, .i32⟩ : BufTy).Contents (Elt F)),
    StableHlo.binary main_v75 main_v81 main_v82 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_16 (constantI S_ 32 0#32),
    StableHlo.unary main_c_16 main_v83 (broadcastInDim S1600000 ![] bcast_S_S1600000 : (⟨S_, .i32⟩ : BufTy).Contents (Elt F) → (⟨S1600000, .i32⟩ : BufTy).Contents (Elt F)),
    StableHlo.binary main_v3 main_v83 main_v84 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v85 (broadcastInDim S1600000 ![] bcast_S_S1600000 : (⟨S_, .i32⟩ : BufTy).Contents (Elt F) → (⟨S1600000, .i32⟩ : BufTy).Contents (Elt F)),
    StableHlo.binary main_v3 main_v85 main_v86 (addi : (⟨S1600000, .i32⟩ : BufTy).Contents (Elt F) → (⟨S1600000, .i32⟩ : BufTy).Contents (Elt F) → (⟨S1600000, .i32⟩ : BufTy).Contents (Elt F)),
    StableHlo.ternary main_v84 main_v86 main_v3 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v87 main_v88 (broadcastInDim S1600000x1 ![0] bcast_S1600000_S1600000x1_0 : (⟨S1600000, .i32⟩ : BufTy).Contents (Elt F) → (⟨S1600000x1, .i32⟩ : BufTy).Contents (Elt F)),
    StableHlo.binary main_v75 main_v88 main_v89 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v82 main_v89 main_v90 (mulf : (⟨S1600000, .f32⟩ : BufTy).Contents (Elt F) → (⟨S1600000, .f32⟩ : BufTy).Contents (Elt F) → (⟨S1600000, .f32⟩ : BufTy).Contents (Elt F)),
    StableHlo.binary main_v90 main_v69 main_v91 (mulf : (⟨S1600000, .f32⟩ : BufTy).Contents (Elt F) → (⟨S1600000, .f32⟩ : BufTy).Contents (Elt F) → (⟨S1600000, .f32⟩ : BufTy).Contents (Elt F)),
    StableHlo.nullary main_c_18 (constantI S_ 32 0#32),
    StableHlo.unary main_c_18 main_v92 (broadcastInDim S1600000 ![] bcast_S_S1600000 : (⟨S_, .i32⟩ : BufTy).Contents (Elt F) → (⟨S1600000, .i32⟩ : BufTy).Contents (Elt F)),
    StableHlo.binary main_v1 main_v92 main_v93 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v94 (broadcastInDim S1600000 ![] bcast_S_S1600000 : (⟨S_, .i32⟩ : BufTy).Contents (Elt F) → (⟨S1600000, .i32⟩ : BufTy).Contents (Elt F)),
    StableHlo.binary main_v1 main_v94 main_v95 (addi : (⟨S1600000, .i32⟩ : BufTy).Contents (Elt F) → (⟨S1600000, .i32⟩ : BufTy).Contents (Elt F) → (⟨S1600000, .i32⟩ : BufTy).Contents (Elt F)),
    StableHlo.ternary main_v93 main_v95 main_v1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v96 main_v97 (broadcastInDim S1600000x1 ![0] bcast_S1600000_S1600000x1_0 : (⟨S1600000, .i32⟩ : BufTy).Contents (Elt F) → (⟨S1600000x1, .i32⟩ : BufTy).Contents (Elt F)) ]

set_option maxRecDepth 8192 in
set_option maxHeartbeats 4000000 in
/-- A typed reference made from a literal reference carries the reference's own type: its two conversions are the
    identity, and the typed builders are the plain ones. -/
theorem ops1_eq_u : (ops1 : List (HloOp τ sig (Elt F))) = ops1u := rfl

end Cert.ReferenceIdeal.RefRun

end
-- ==== Proof.RefOut1.lean ====
import proofs.«162744_j44349832298684_2_alg».proof.Proof.RefOut0
import proofs.«162744_j44349832298684_2_alg».proof.Proof.RefOps1

/-! The buffers the third window still reads, after the second window: each as its term of the arguments. -/

noncomputable section

namespace Cert.ReferenceIdeal.RefRun

open Cert.ReferenceIdeal Idealize.ShloMosaic Idealize.ShloMosaic.TcCoe Idealize.SL.Sem Idealize.ShloMosaic.StableHlo

/-- The second window read over literal references. -/
theorem val1_eq_u (V : Valuation τ sig (Elt Ideal)) : val1 V = after ops1u (val0 V) := by
  unfold val1
  rw [ops1_eq_u]

-- each closing equation is between two copies of one term, symbol by symbol, once the stages are written out
attribute [local irreducible] Host.reduceAdd Ideal.matmul Host.scatterAdd Host.gather Host.divf Host.rsqrt
  addf mulf subf maximumf broadcastInDim select cmpf cmpi sitofp uitofp constant constantI transpose addi

set_option maxHeartbeats 2000000 in
theorem val1_v1 (V : Valuation τ sig (Elt Ideal)) :
    val1 V (no_index (Proc.devRef .tc main_v1)) = Cert.Edge.src (V (main_arg1 : DevRef τ sig)) := by
  rw [val1_eq_u]
  simp only [ops1u]
  after_results_simp
  simp only [val0_v1] <;> rfl

set_option maxHeartbeats 2000000 in
theorem val1_v67 (V : Valuation τ sig (Elt Ideal)) :
    val1 V (no_index (Proc.devRef .tc main_v67)) = h2 (act (hb (V (main_arg0 : DevRef τ sig)) (V (main_arg1 : DevRef τ sig)) (V (main_arg2 : DevRef τ sig)) (V (main_arg3 : DevRef τ sig)))) (V (main_arg4 : DevRef τ sig)) := by
  rw [val1_eq_u]
  simp only [ops1u]
  after_results_simp
  simp only [val0_v48, val0_v49, val0_arg4] <;> rfl

set_option maxHeartbeats 2000000 in
theorem val1_v74 (V : Valuation τ sig (Elt Ideal)) :
    val1 V (no_index (Proc.devRef .tc main_v74)) = Cert.Edge.deg (V (main_arg1 : DevRef τ sig)) := by
  rw [val1_eq_u]
  simp only [ops1u]
  after_results_simp
  simp only [val0_v1, val0_v3] <;> rfl

set_option maxHeartbeats 2000000 in
theorem val1_v91 (V : Valuation τ sig (Elt Ideal)) :
    val1 V (no_index (Proc.devRef .tc main_v91)) = Cert.Edge.wgt (V (main_arg1 : DevRef τ sig)) := by
  rw [val1_eq_u]
  simp only [ops1u]
  after_results_simp
  simp only [val0_v1, val0_v3] <;> rfl

set_option maxHeartbeats 2000000 in
theorem val1_v97 (V : Valuation τ sig (Elt Ideal)) :
    val1 V (no_index (Proc.devRef .tc main_v97)) = Cert.Edge.col (Cert.Edge.nrm (Cert.Edge.src (V (main_arg1 : DevRef τ sig)))) := by
  rw [val1_eq_u]
  simp only [ops1u]
  after_results_simp
  simp only [val0_v1, val0_v3] <;> rfl

set_option maxHeartbeats 1000000 in
theorem val1_arg0 (V : Valuation τ sig (Elt Ideal)) :
    val1 V (no_index (Proc.devRef .tc main_arg0)) = V (main_arg0 : DevRef τ sig) := by
  rw [val1_eq_u]
  simp only [ops1u]
  after_results_simp
  simp only [val0_arg0] <;> rfl

set_option maxHeartbeats 1000000 in
theorem val1_arg1 (V : Valuation τ sig (Elt Ideal)) :
    val1 V (no_index (Proc.devRef .tc main_arg1)) = V (main_arg1 : DevRef τ sig) := by
  rw [val1_eq_u]
  simp only [ops1u]
  after_results_simp
  simp only [val0_arg1] <;> rfl

set_option maxHeartbeats 1000000 in
theorem val1_arg2 (V : Valuation τ sig (Elt Ideal)) :
    val1 V (no_index (Proc.devRef .tc main_arg2)) = V (main_arg2 : DevRef τ sig) := by
  rw [val1_eq_u]
  simp only [ops1u]
  after_results_simp
  simp only [val0_arg2] <;> rfl

set_option maxHeartbeats 1000000 in
theorem val1_arg3 (V : Valuation τ sig (Elt Ideal)) :
    val1 V (no_index (Proc.devRef .tc main_arg3)) = V (main_arg3 : DevRef τ sig) := by
  rw [val1_eq_u]
  simp only [ops1u]
  after_results_simp
  simp only [val0_arg3] <;> rfl

set_option maxHeartbeats 1000000 in
theorem val1_arg4 (V : Valuation τ sig (Elt Ideal)) :
    val1 V (no_index (Proc.devRef .tc main_arg4)) = V (main_arg4 : DevRef τ sig) := by
  rw [val1_eq_u]
  simp only [ops1u]
  after_results_simp
  simp only [val0_arg4] <;> rfl

set_option maxHeartbeats 1000000 in
theorem val1_arg5 (V : Valuation τ sig (Elt Ideal)) :
    val1 V (no_index (Proc.devRef .tc main_arg5)) = V (main_arg5 : DevRef τ sig) := by
  rw [val1_eq_u]
  simp only [ops1u]
  after_results_simp
  simp only [val0_arg5] <;> rfl

end Cert.ReferenceIdeal.RefRun

end
-- ==== Proof.RefOut.lean ====
import proofs.«162744_j44349832298684_2_alg».proof.Proof.RefOut1

/-! The reference's result buffer after the run, as the one term `out` of the six arguments' launch contents;
    and the arguments unchanged. -/

noncomputable section

namespace Cert.ReferenceIdeal.RefRun

open Cert.ReferenceIdeal Idealize.ShloMosaic Idealize.ShloMosaic.TcCoe Idealize.SL.Sem Idealize.ShloMosaic.StableHlo

-- each closing equation is between two copies of one term, symbol by symbol, once the stages are written out
attribute [local irreducible] Host.reduceAdd Ideal.matmul Host.scatterAdd Host.gather Host.divf Host.rsqrt
  addf mulf subf maximumf broadcastInDim select cmpf cmpi sitofp uitofp constant constantI transpose addi

/-! ## After the third window -/

set_option maxHeartbeats 2000000 in
theorem val2_v113 (V : Valuation τ sig (Elt Ideal)) :
    val2 V (no_index (Proc.devRef .tc main_v113)) = out (V (main_arg0 : DevRef τ sig)) (V (main_arg1 : DevRef τ sig)) (V (main_arg2 : DevRef τ sig)) (V (main_arg3 : DevRef τ sig)) (V (main_arg4 : DevRef τ sig)) (V (main_arg5 : DevRef τ sig)) := by
  unfold val2
  simp only [ops2]
  after_results_simp
  simp only [val1_v1, val1_v67, val1_v74, val1_v91, val1_v97, val1_arg5] <;> rfl

set_option maxHeartbeats 1000000 in
theorem val2_arg0 (V : Valuation τ sig (Elt Ideal)) :
    val2 V (no_index (Proc.devRef .tc main_arg0)) = V (main_arg0 : DevRef τ sig) := by
  unfold val2
  simp only [ops2]
  after_results_simp
  simp only [val1_arg0] <;> rfl

set_option maxHeartbeats 1000000 in
theorem val2_arg1 (V : Valuation τ sig (Elt Ideal)) :
    val2 V (no_index (Proc.devRef .tc main_arg1)) = V (main_arg1 : DevRef τ sig) := by
  unfold val2
  simp only [ops2]
  after_results_simp
  simp only [val1_arg1] <;> rfl

set_option maxHeartbeats 1000000 in
theorem val2_arg2 (V : Valuation τ sig (Elt Ideal)) :
    val2 V (no_index (Proc.devRef .tc main_arg2)) = V (main_arg2 : DevRef τ sig) := by
  unfold val2
  simp only [ops2]
  after_results_simp
  simp only [val1_arg2] <;> rfl

set_option maxHeartbeats 1000000 in
theorem val2_arg3 (V : Valuation τ sig (Elt Ideal)) :
    val2 V (no_index (Proc.devRef .tc main_arg3)) = V (main_arg3 : DevRef τ sig) := by
  unfold val2
  simp only [ops2]
  after_results_simp
  simp only [val1_arg3] <;> rfl

set_option maxHeartbeats 1000000 in
theorem val2_arg4 (V : Valuation τ sig (Elt Ideal)) :
    val2 V (no_index (Proc.devRef .tc main_arg4)) = V (main_arg4 : DevRef τ sig) := by
  unfold val2
  simp only [ops2]
  after_results_simp
  simp only [val1_arg4] <;> rfl

set_option maxHeartbeats 1000000 in
theorem val2_arg5 (V : Valuation τ sig (Elt Ideal)) :
    val2 V (no_index (Proc.devRef .tc main_arg5)) = V (main_arg5 : DevRef τ sig) := by
  unfold val2
  simp only [ops2]
  after_results_simp
  simp only [val1_arg5] <;> rfl

/-! ## The whole run -/

/-- The result buffer after the run: `out` of the arguments' launch contents. -/
theorem out_eq (V : Valuation τ sig (Elt Ideal)) :
    after ops V (main_v113 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops]; exact val2_v113 V

theorem arg0_eq (V : Valuation τ sig (Elt Ideal)) : after ops V (main_arg0 : DevRef τ sig) = V (main_arg0 : DevRef τ sig) := by
  rw [after_ops]; exact val2_arg0 V
theorem arg1_eq (V : Valuation τ sig (Elt Ideal)) : after ops V (main_arg1 : DevRef τ sig) = V (main_arg1 : DevRef τ sig) := by
  rw [after_ops]; exact val2_arg1 V
theorem arg2_eq (V : Valuation τ sig (Elt Ideal)) : after ops V (main_arg2 : DevRef τ sig) = V (main_arg2 : DevRef τ sig) := by
  rw [after_ops]; exact val2_arg2 V
theorem arg3_eq (V : Valuation τ sig (Elt Ideal)) : after ops V (main_arg3 : DevRef τ sig) = V (main_arg3 : DevRef τ sig) := by
  rw [after_ops]; exact val2_arg3 V
theorem arg4_eq (V : Valuation τ sig (Elt Ideal)) : after ops V (main_arg4 : DevRef τ sig) = V (main_arg4 : DevRef τ sig) := by
  rw [after_ops]; exact val2_arg4 V
theorem arg5_eq (V : Valuation τ sig (Elt Ideal)) : after ops V (main_arg5 : DevRef τ sig) = V (main_arg5 : DevRef τ sig) := by
  rw [after_ops]; exact val2_arg5 V

end Cert.ReferenceIdeal.RefRun

end
-- ==== Proof.LibVecScatter.lean ====
import Idealize.ShloMosaic.PureOps.Ideal
import Idealize.ShloMosaic.Lib.ValueIdx

/-!
# The accumulating scatter of a vector, read at an index

For a vector `x` of `N` entries, a column `idx` of `E` integer positions and a vector `upd` of `E` updates, the
accumulating scatter (a segment sum) adds to the entry `p` of `x` the updates `upd e` of all `e` whose position
`idx e`, read as a signed integer, is exactly `p`; an update whose position is negative or at least `N` is dropped.
Stated for any dimension-number record whose lists are those of a scatter of scalars along the one axis, over natural
numbers `N`, `E` that stay symbolic.
-/

noncomputable section

open scoped BigOperators

namespace Cert.Lib.VecScatter

open Idealize.ShloMosaic Idealize.ShloMosaic.ValueIdx

variable {N E : Nat}

/-- The dimension numbers of a scatter of scalars into a vector: operand `[N]`, scatter indices `[E, 1]` (one
    position per update, the index vector on axis 1), updates `[E]` with no window axis. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the signed position of `e`. -/
theorem start_zero {w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The one axis is an inserted axis: its window coordinate is `0`. -/
theorem window_zero (wf : ScatterDims.WF ⟨1, ![N]⟩ ⟨2, ![E, 1]⟩ ⟨1, ![E]⟩ [] [0] [0] 1)
    (j : (⟨1, ![E]⟩ : Shape).Idx) :
    (vecScatterDims N E wf).window j 0 = 0 := by
  unfold ScatterDims.window
  rw [dif_neg (by simp [Shape.kept, List.mem_filter])]

/-- WHERE AN UPDATE LANDS: update `e` lands on entry `p` exactly when its signed position is `p`. -/
theorem resultIdx?_eq_some_iff {w : Nat}
    (wf : ScatterDims.WF ⟨1, ![N]⟩ ⟨2, ![E, 1]⟩ ⟨1, ![E]⟩ [] [0] [0] 1)
    (j : (⟨1, ![E]⟩ : Shape).Idx) (idx : IVec ⟨2, ![E, 1]⟩ w) (p : Fin N) :
    (vecScatterDims N E wf).resultIdx? j idx = some (ix1 p) ↔ (idx (ix2 (j 0) 0)).toInt = (p.val : Int) := by
  have hs0 := start_zero wf j idx
  have hw0 := window_zero wf j
  have hpN : p.val < N := p.isLt
  unfold ScatterDims.resultIdx?
  split
  · rename_i h
    rw [Option.some.injEq]
    constructor
    · intro hf
      have e0 : ((vecScatterDims N E wf).start j idx 0 + ((vecScatterDims N E wf).window j 0 : Nat)).toNat = p.val :=
        congrArg (fun f : (⟨1, ![N]⟩ : Shape).Idx => (f 0).val) hf
      have h0 := (h 0).1
      rw [hs0, hw0] at e0 h0
      omega
    · intro ht
      funext a; refine Fin.ext ?_
      match a with
      | ⟨0, _⟩ =>
        show ((vecScatterDims N E wf).start j idx 0 + ((vecScatterDims N E wf).window j 0 : Nat)).toNat = p.val
        rw [hs0, hw0, ht]; omega
  · rename_i h
    constructor
    · intro hn; cases hn
    · intro ht
      refine absurd (fun a => ?_) h
      match a with
      | ⟨0, _⟩ =>
        show 0 ≤ (vecScatterDims N E wf).start j idx 0 + ((vecScatterDims N E wf).window j 0 : Nat) ∧
          (vecScatterDims N E wf).start j idx 0 + ((vecScatterDims N E wf).window j 0 : Nat) < (N : Int)
        rw [hs0, hw0, ht]; omega

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ACCUMULATING SCATTER OF A VECTOR READ AT `p`, at the ideal instance: the operand's entry plus the sum, over
    the updates `e` whose signed position is exactly `p`, of `upd e`. -/
theorem scatterAdd_vec_apply {φ : FTy} {w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (p : Fin N) :
    Host.scatterAdd (F := Ideal) d x idx upd (ix1 p) =
      x (ix1 p) + ∑ e ∈ Finset.univ.filter (fun e : Fin E => (idx (ix2 e 0)).toInt = (p.val : Int)), upd (ix1 e) := by
  obtain ⟨uw, iw, sd, iv, wf⟩ := d
  simp only at h1 h2 h3 h4
  subst h1 h2 h3 h4
  show x (ix1 p) + ∑ j ∈ Finset.univ.filter
      (fun j => (vecScatterDims N E wf).resultIdx? j idx = some (ix1 p)), upd j = _
  congr 1
  rw [Finset.sum_filter, Finset.sum_filter, sum_idx1]
  refine Finset.sum_congr rfl fun e _ => ?_
  have hcond : ((vecScatterDims N E wf).resultIdx? (ix1 e) idx = some (ix1 p)) ↔
      ((idx (ix2 e 0)).toInt = (p.val : Int)) := resultIdx?_eq_some_iff wf (ix1 e) idx p
  simp only [hcond]

/-- Whatever the positions, the scatter's entry is the operand's plus a sum of updates over SOME set of edges. -/
theorem scatterAdd_apply_exists {s si su : Shape} {φ : FTy} {w : Nat} (d : ScatterDims s si su)
    (x : FVec Ideal s φ) (idx : IVec si w) (upd : FVec Ideal su φ) (i : s.Idx) :
    ∃ S : Finset su.Idx, Host.scatterAdd (F := Ideal) d x idx upd i = x i + ∑ j ∈ S, upd j :=
  ⟨_, rfl⟩

end Cert.Lib.VecScatter

end
-- ==== Proof.EdgeFacts.lean ====
/-
  Facts about the edge weights, read at an index.

  Every node's degree is a real number at least one: it is one plus a sum of mask entries, each zero or one. So the
  inverse square root of the degree, the weight of every edge (a product of two such roots and a mask entry) and the
  reciprocal of the degree are real numbers too. The sum of the weights of the edges that leave a node is read off
  the accumulating scatter: it runs over the edges whose source, read as a signed integer, is that node. For such
  an edge the source is not negative, so counting it from the end leaves it unchanged, and clamping it into range
  gives the node itself: a row gathered at the edge's source is the node's own row.
-/
import proofs.«162744_j44349832298684_2_alg».proof.Proof.Edge
import proofs.«162744_j44349832298684_2_alg».proof.Proof.LibVecScatter
import proofs.«162744_j44349832298684_2_alg».proof.Proof.LibRowScatter
import Idealize.ShloMosaic.PureOps.Ideal.Laws
import Idealize.ShloMosaic.Lib.Pipeline.Value
import Idealize.ShloMosaic.Lib.ValueIdx
import Idealize.ShloMosaic.Lib.Affine

noncomputable section

open scoped BigOperators

namespace Cert.Edge

open Idealize.ShloMosaic Idealize.ShloMosaic.ValueIdx Cert.ReferenceIdeal Cert.ReferenceIdeal.Facts₀

/-- The word of the float one denotes the real one. -/
theorem one_word : Ideal.ofBits .f32 0x3F800000#32 = ((1 : ℝ) : EReal) := by
  simp [Ideal.ofBits, Ideal.ieee]
  rw [← EReal.coe_mul, ← EReal.coe_one]
  exact congrArg _ (by norm_num)

/-- A finite sum of non-negative reals is a non-negative real. -/
theorem sum_coe_nonneg {ι : Type} (S : Finset ι) (f : ι → EReal) (hf : ∀ j, ∃ r : ℝ, 0 ≤ r ∧ f j = r) :
    ∃ r : ℝ, 0 ≤ r ∧ ∑ j ∈ S, f j = r := by
  classical
  induction S using Finset.induction_on with
  | empty => exact ⟨0, le_rfl, by simp⟩
  | insert a S ha ih =>
    obtain ⟨r, hr, e⟩ := ih
    obtain ⟨q, hq, e'⟩ := hf a
    refine ⟨q + r, add_nonneg hq hr, ?_⟩
    rw [Finset.sum_insert ha, e, e', EReal.coe_add]

/-! The host operations read at an index, over any shape. -/

theorem hostRsqrt_apply {s : Shape} (x : FVec Ideal s .f32) (i : s.Idx) :
    Host.rsqrt (F := Ideal) x i = Ideal.rsqrt (x i) := rfl
theorem hostDivf_apply {s : Shape} (x y : FVec Ideal s .f32) (i : s.Idx) :
    Host.divf (F := Ideal) x y i = Ideal.div (x i) (y i) := rfl
theorem gather_apply {s si t : Shape} {w : Nat} (g : GatherDims s si t) (x : FVec Ideal s .f32) (idx : IVec si w) (j : t.Idx) :
    Host.gather g x idx j = x (g.operandIdx j idx) := rfl
theorem uitofp_apply {s : Shape} (b : IVec s 1) (j : s.Idx) :
    uitofp (F := Ideal) .f32 b j = (((b j).toNat : ℝ) : EReal) := rfl
theorem scatterAdd_apply {s si su : Shape} {w : Nat} (d : ScatterDims s si su) (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := rfl
theorem bcast_scalar_apply {s : Shape} (h : S_.BroadcastsInDim s (![] : Fin 0 → Fin s.rank)) (b : BitVec 32) (i : s.Idx) :
    broadcastInDim s ![] h (constant (F := Ideal) S_ .f32 b) i = Ideal.ofBits .f32 b := rfl

variable (ei : EdgeList)

/-- A mask entry is a non-negative real. -/
theorem mask_real (j : S1600000.Idx) : ∃ r : ℝ, 0 ≤ r ∧ mask ei j = r :=
  ⟨((cmpi .ne (src ei) (dst ei) j).toNat : ℝ), Nat.cast_nonneg _, by unfold mask; rw [uitofp_apply]⟩

/-- A node's degree is a real number, at least one. -/
theorem deg_real (k : S100000.Idx) : ∃ r : ℝ, 1 ≤ r ∧ deg ei k = r := by
  obtain ⟨r, hr, e⟩ := sum_coe_nonneg
    (Finset.univ.filter fun j => scatter_S100000_S1600000x1_S1600000_n_0_0_1.resultIdx? j (col (dst ei)) = some k)
    (mask ei) (mask_real ei)
  refine ⟨r + 1, by linarith, ?_⟩
  unfold deg
  rw [addf_apply, scatterAdd_apply, e]
  unfold zerosN onesN
  rw [bcast_scalar_apply, bcast_scalar_apply, Ideal.ofBits_zero_f32, zero_add, one_word, EReal.coe_add]

/-- The inverse square root of a degree is a real number. -/
theorem dinv_real (k : S100000.Idx) : ∃ r : ℝ, dinv ei k = r := by
  obtain ⟨r, hr, e⟩ := deg_real ei k
  refine ⟨(Real.sqrt r)⁻¹, ?_⟩
  unfold dinv
  rw [hostRsqrt_apply, e, Ideal.rsqrt_coe, if_neg (by linarith), if_neg (by linarith)]

/-- The reciprocal of a degree is a real number. -/
theorem invdeg_real (k : S100000.Idx) : ∃ r : ℝ, invdeg ei k = r := by
  obtain ⟨r, hr, e⟩ := deg_real ei k
  refine ⟨1 / r, ?_⟩
  unfold invdeg
  rw [hostDivf_apply, e]
  unfold onesN
  rw [bcast_scalar_apply, Ideal.div_coe (by linarith), one_word, ← EReal.coe_mul, one_mul]

/-- The weight of an edge is a real number. -/
theorem wgt_real (j : S1600000.Idx) : ∃ r : ℝ, wgt ei j = r := by
  obtain ⟨a, ea⟩ := dinv_real ei (gather_S100000_S1600000x1_S1600000_n_0_n_n_0_1_1.operandIdx j (col (nrm (src ei))))
  obtain ⟨b, eb⟩ := dinv_real ei (gather_S100000_S1600000x1_S1600000_n_0_n_n_0_1_1.operandIdx j (col (nrm (dst ei))))
  obtain ⟨c, _, ec⟩ := mask_real ei j
  refine ⟨a * b * c, ?_⟩
  unfold wgt
  rw [mulf_apply, mulf_apply, gather_apply, gather_apply, ea, eb, ec, ← EReal.coe_mul, ← EReal.coe_mul]

/-- The factor of a node is the sum of its leaving edges' weights plus the reciprocal of its degree. -/
theorem scale_apply (k : S100000.Idx) : scale ei k = coef ei k + invdeg ei k := by
  unfold scale
  rw [addf_apply]

/-- A column of indices read at row `e` is the vector's entry `e`. -/
theorem col_apply (v : EdgeInts) (e : Fin 1600000) : col v (ix2 e (0 : Fin 1)) = v (ix1 e) :=
  broadcastInDim_apply _ _ v (ix2 e (0 : Fin 1)) (ix1 e) fun a => by
    match a with
    | ⟨0, _⟩ =>
      show e.val = if (1600000 : Nat) = 1 then 0 else e.val
      rw [if_neg (by decide)]

/-- A node number that is not negative is unchanged by counting from the end. -/
theorem nrm_of_nonneg (v : EdgeInts) (j : S1600000.Idx) (h : 0 ≤ (v j).toInt) : nrm v j = v j := by
  show Scalar.select (IntOp.cmpi .slt (v j) (0#32)) _ (v j) = v j
  unfold Scalar.select
  rw [if_neg]
  intro hc
  have := IntOp.cmpi_slt.1 hc
  simp at this
  omega

/-- The weights of the edges leaving node `i`, summed: over the edges whose signed source is `i`. -/
theorem coef_apply (i : Fin 100000) :
    coef ei (ix1 i) = Ideal.ofBits .f32 0x00000000#32
      + ∑ e ∈ Finset.univ.filter (fun e : Fin 1600000 => (src ei (ix1 e)).toInt = (i.val : Int)), wgt ei (ix1 e) := by
  have h := Cert.Lib.VecScatter.scatterAdd_vec_apply (N := 100000) (E := 1600000)
    scatter_S100000_S1600000x1_S1600000_n_0_0_1 rfl rfl rfl rfl zerosN (col (src ei)) (wgt ei) i
  simp only [col_apply] at h
  exact h

/-- For an edge whose signed source is node `i`, the gather position of its source is `i`. -/
theorem clamp_src (i : Fin 100000) (e : Fin 1600000) (h : (src ei (ix1 e)).toInt = (i.val : Int)) :
    RowScatter.clampRow (N := 100000) (by decide) (col (nrm (src ei))) e = i := by
  refine RowScatter.clampRow_of_toInt_eq _ _ e i ?_
  rw [col_apply, nrm_of_nonneg (src ei) (ix1 e) (by rw [h]; exact Int.natCast_nonneg _)]
  exact h

end Cert.Edge

end
-- ==== Proof.RefReadConv.lean ====
/-
  The reference's dense layers and graph convolutions, read at an entry.

  A dense layer's entry is the row of the left operand against the row of the (untransposed) weight matrix. A
  convolution's entry at node `i`, column `q`: the accumulating scatter of rows adds, over the edges whose signed
  source is `i`, the gathered row's entry times the edge's weight; the gather reads the row of the edge's source,
  counted from the end if negative and clamped into range; then the node's own entry over its degree is added.
-/
import proofs.«162744_j44349832298684_2_alg».proof.Proof.RefStages
import proofs.«162744_j44349832298684_2_alg».proof.Proof.Spec
import proofs.«162744_j44349832298684_2_alg».proof.Proof.EdgeFacts
import proofs.«162744_j44349832298684_2_alg».proof.Proof.LibPlainDot
import proofs.«162744_j44349832298684_2_alg».proof.Proof.LibRowScatter
import Idealize.ShloMosaic.Lib.ValueLayout
import Idealize.ShloMosaic.Lib.Pipeline.Value
import Idealize.ShloMosaic.Lib.ValueIdx

noncomputable section

open scoped BigOperators

namespace Cert.ReferenceIdeal.RefRun

open Idealize.ShloMosaic Idealize.ShloMosaic.ValueIdx Cert.ReferenceIdeal Cert.ReferenceIdeal.Facts₀ Cert.Edge

/-! ## Broadcasts of small shapes, read at an index built from coordinates -/

section Layout
variable {α : Type}

/-- A vector `[n]` as a column `[n, 1]` reads, at `(i, 0)`, the vector's entry `i`. -/
theorem bcast_vec_col {n : ℕ} (hn : n ≠ 1) (v : (⟨1, ![n]⟩ : Shape).Idx → α)
    (h : (⟨1, ![n]⟩ : Shape).BroadcastsInDim ⟨2, ![n, 1]⟩ (![0] : Fin 1 → Fin 2)) (i : Fin n) :
    broadcastInDim ⟨2, ![n, 1]⟩ ![0] h v (ix2 i (0 : Fin 1)) = v (ix1 i) :=
  broadcastInDim_apply _ h v (ix2 i (0 : Fin 1)) (ix1 i) fun a => by
    match a with
    | ⟨0, _⟩ =>
      show i.val = if n = 1 then 0 else i.val
      rw [if_neg hn]

/-- A column `[n, 1]` repeated across `m` columns reads, at `(i, q)`, the column's entry `(i, 0)`. -/
theorem bcast_col_mat {n m : ℕ} (hn : n ≠ 1) (v : (⟨2, ![n, 1]⟩ : Shape).Idx → α)
    (h : (⟨2, ![n, 1]⟩ : Shape).BroadcastsInDim ⟨2, ![n, m]⟩ (![0, 1] : Fin 2 → Fin 2)) (i : Fin n) (q : Fin m) :
    broadcastInDim ⟨2, ![n, m]⟩ ![0, 1] h v (ix2 i q) = v (ix2 i (0 : Fin 1)) :=
  broadcastInDim_apply _ h v (ix2 i q) (ix2 i (0 : Fin 1)) fun a => by
    match a with
    | ⟨0, _⟩ =>
      show i.val = if n = 1 then 0 else i.val
      rw [if_neg hn]
    | ⟨1, _⟩ => rfl

/-- A vector `[m]` as a row `[1, m]` reads, at `(0, q)`, the vector's entry `q`. -/
theorem bcast_vec_row {m : ℕ} (hm : m ≠ 1) (v : (⟨1, ![m]⟩ : Shape).Idx → α)
    (h : (⟨1, ![m]⟩ : Shape).BroadcastsInDim ⟨2, ![1, m]⟩ (![1] : Fin 1 → Fin 2)) (q : Fin m) :
    broadcastInDim ⟨2, ![1, m]⟩ ![1] h v (ix2 (0 : Fin 1) q) = v (ix1 q) :=
  broadcastInDim_apply _ h v (ix2 (0 : Fin 1) q) (ix1 q) fun a => by
    match a with
    | ⟨0, _⟩ =>
      show q.val = if m = 1 then 0 else q.val
      rw [if_neg hm]

/-- A row `[1, m]` repeated down `n` rows reads, at `(i, q)`, the row's entry `(0, q)`. -/
theorem bcast_row_mat {n m : ℕ} (hm : m ≠ 1) (v : (⟨2, ![1, m]⟩ : Shape).Idx → α)
    (h : (⟨2, ![1, m]⟩ : Shape).BroadcastsInDim ⟨2, ![n, m]⟩ (![0, 1] : Fin 2 → Fin 2)) (i : Fin n) (q : Fin m) :
    broadcastInDim ⟨2, ![n, m]⟩ ![0, 1] h v (ix2 i q) = v (ix2 (0 : Fin 1) q) :=
  broadcastInDim_apply _ h v (ix2 i q) (ix2 (0 : Fin 1) q) fun a => by
    match a with
    | ⟨0, _⟩ => rfl
    | ⟨1, _⟩ =>
      show q.val = if m = 1 then 0 else q.val
      rw [if_neg hm]

end Layout

theorem spreadE_apply (w : EdgeReals) (e : Fin 1600000) (q : Fin 128) : spreadE w (ix2 e q) = w (ix1 e) := by
  unfold spreadE
  rw [bcast_col_mat (by decide), bcast_vec_col (by decide)]
theorem spreadN_apply (d : NodeReals) (i : Fin 100000) (q : Fin 128) : spreadN d (ix2 i q) = d (ix1 i) := by
  unfold spreadN
  rw [bcast_col_mat (by decide), bcast_vec_col (by decide)]
theorem spreadC_at (b : Cols) (i : Fin 100000) (q : Fin 128) : spreadC b (ix2 i q) = b (ix1 q) := by
  unfold spreadC
  rw [bcast_row_mat (by decide), bcast_vec_row (by decide)]
theorem spreadE2_apply (w : EdgeReals) (e : Fin 1600000) (q : Fin 64) : spreadE2 w (ix2 e q) = w (ix1 e) := by
  unfold spreadE2
  rw [bcast_col_mat (by decide), bcast_vec_col (by decide)]
theorem spreadN2_apply (d : NodeReals) (i : Fin 100000) (q : Fin 64) : spreadN2 d (ix2 i q) = d (ix1 i) := by
  unfold spreadN2
  rw [bcast_col_mat (by decide), bcast_vec_col (by decide)]
theorem spreadC2_apply (b : FVec Ideal S64 .f32) (i : Fin 100000) (q : Fin 64) : spreadC2 b (ix2 i q) = b (ix1 q) := by
  unfold spreadC2
  rw [bcast_row_mat (by decide), bcast_vec_row (by decide)]

/-! ## The dense layers -/

theorem dot1_eq : dot_S100000x128_S128x128_S100000x128_1_0_0_1_n_n = DotDims.plain 100000 128 128 := rfl
theorem dot2_eq : dot_S100000x128_S128x64_S100000x64_1_0_0_1_n_n = DotDims.plain 100000 128 64 := rfl

/-- The first dense layer at `(i, q)`. -/
theorem h1_apply (x : Feat) (W1 : FVec Ideal S128x128 .f32) (i : Fin 100000) (q : Fin 128) :
    h1 x W1 (ix2 i q) = Cert.Spec.h1 x W1 i q := by
  unfold h1 Cert.Spec.h1
  rw [dot1_eq]
  simp only [Host.dotGeneral]
  rw [Cert.Lib.PlainDot.dotGeneral_apply]
  exact Finset.sum_congr rfl fun k _ => by rw [transpose_ix2_apply]

/-- The second dense layer at `(i, q)`. -/
theorem h2_apply (a : Feat) (W2 : FVec Ideal S64x128 .f32) (i : Fin 100000) (q : Fin 64) :
    h2 a W2 (ix2 i q) = ∑ k : Fin 128, a (ix2 i k) * W2 (ix2 q k) := by
  unfold h2
  rw [dot2_eq]
  simp only [Host.dotGeneral]
  rw [Cert.Lib.PlainDot.dotGeneral_apply]
  exact Finset.sum_congr rfl fun k _ => by rw [transpose_ix2_apply]

/-! ## The convolutions -/

/-- The first convolution at `(i, q)`. -/
theorem conv1_apply (ei : EdgeList) (h : Feat) (i : Fin 100000) (q : Fin 128) :
    conv1 ei h (ix2 i q)
      = (Cert.Spec.zw + ∑ e ∈ Cert.Spec.leaving ei i, h (ix2 (Cert.Spec.srcRow ei e) q) * wgt ei (ix1 e))
        + h (ix2 i q) * invdeg ei (ix1 i) := by
  unfold conv1
  rw [addf_apply, mulf_apply, spreadN_apply,
    RowScatter.scatterAdd_rows_apply (N := 100000) (D := 128) (E := 1600000)
      scatter_S100000x128_S1600000x1_S1600000x128_1_0_0_1 rfl rfl rfl rfl,
    bcast_scalar_apply]
  simp only [col_apply]
  unfold Cert.Spec.leaving
  refine congrArg (fun s => (Cert.Spec.zw + s) + h (ix2 i q) * invdeg ei (ix1 i)) ?_
  refine Finset.sum_congr rfl fun e _ => ?_
  rw [mulf_apply, spreadE_apply,
    RowScatter.gather_rows_apply (N := 100000) (D := 128) (E := 1600000) (by decide) gather_S100000x128_S1600000x1_S1600000x128_1_0_n_n_0_1_1128
      rfl rfl rfl rfl rfl rfl rfl]
  rfl

/-- The second convolution at `(i, q)`. -/
theorem conv2_apply (ei : EdgeList) (h : Feat2) (i : Fin 100000) (q : Fin 64) :
    conv2 ei h (ix2 i q)
      = (Cert.Spec.zw + ∑ e ∈ Cert.Spec.leaving ei i, h (ix2 (Cert.Spec.srcRow ei e) q) * wgt ei (ix1 e))
        + h (ix2 i q) * invdeg ei (ix1 i) := by
  unfold conv2
  rw [addf_apply, mulf_apply, spreadN2_apply,
    RowScatter.scatterAdd_rows_apply (N := 100000) (D := 64) (E := 1600000)
      scatter_S100000x64_S1600000x1_S1600000x64_1_0_0_1 rfl rfl rfl rfl,
    bcast_scalar_apply]
  simp only [col_apply]
  unfold Cert.Spec.leaving
  refine congrArg (fun s => (Cert.Spec.zw + s) + h (ix2 i q) * invdeg ei (ix1 i)) ?_
  refine Finset.sum_congr rfl fun e _ => ?_
  rw [mulf_apply, spreadE2_apply,
    RowScatter.gather_rows_apply (N := 100000) (D := 64) (E := 1600000) (by decide) gather_S100000x64_S1600000x1_S1600000x64_1_0_n_n_0_1_164
      rfl rfl rfl rfl rfl rfl rfl]
  rfl

/-- The first layer before normalisation at `(i, q)`. -/
theorem hb_apply (x : Feat) (ei : EdgeList) (W1 : FVec Ideal S128x128 .f32) (b1 : Cols) (i : Fin 100000) (q : Fin 128) :
    hb x ei W1 b1 (ix2 i q) = Cert.Spec.hbR x ei W1 b1 i q := by
  unfold hb Cert.Spec.hbR
  rw [addf_apply, conv1_apply, spreadC_at]
  simp only [h1_apply]

end Cert.ReferenceIdeal.RefRun

end
-- ==== Proof.Algebra.lean ====
/-
  The two laws of real arithmetic that join the two programs.

  The convolution law. At a node, the reference adds up the rows it gathered at the sources of the edges leaving the
  node, each times its edge's weight, then adds the node's own row over its degree. Every gathered row IS the node's
  own row, so the row factors out of the sum: the result is the node's row times (the sum of the weights plus the
  reciprocal of the degree). Factoring out needs the distributive law, which holds among real numbers and fails at
  the infinities; the row entry, the weights and the reciprocal are real.

  The variance law. The mean of the squared deviations from the mean is the mean of the squares minus the square of
  the mean. Again a law of real numbers, used for real entries.
-/
import Idealize.ShloMosaic.PureOps.Ideal
import Idealize.ShloMosaic.PureOps.Ideal.Laws

noncomputable section

open scoped BigOperators

namespace Cert.Algebra

open Idealize.ShloMosaic

/-- The coercion of a finite sum of reals is the sum of the coercions. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A finite sum of real numbers is a real number. -/
theorem sum_real {ι : Type} (S : Finset ι) (f : ι → EReal) (hf : ∀ j, ∃ r : ℝ, f j = r) : ∃ r : ℝ, ∑ j ∈ S, f j = r := by
  choose fr hfr using hf
  exact ⟨∑ j ∈ S, fr j, by rw [coe_sum]; exact Finset.sum_congr rfl fun j _ => hfr j⟩

/-- THE CONVOLUTION LAW: gathered rows that are all the node's own row factor out of the weighted sum. -/
theorem conv_law {ι : Type} (S : Finset ι) (g w : ι → EReal) (h d b : EReal)
    (hg : ∀ e ∈ S, g e = h) (hh : ∃ r : ℝ, h = r) (hw : ∀ e, ∃ r : ℝ, w e = r) (hd : ∃ r : ℝ, d = r) :
    (0 + ∑ e ∈ S, g e * w e) + h * d + b = h * ((0 + ∑ e ∈ S, w e) + d) + b := by
  obtain ⟨hr, rfl⟩ := hh
  obtain ⟨dr, rfl⟩ := hd
  choose wr hwr using hw
  have e1 : ∑ e ∈ S, g e * w e = ((∑ e ∈ S, hr * wr e : ℝ) : EReal) := by
    rw [coe_sum]; exact Finset.sum_congr rfl fun e he => by rw [hg e he, hwr e, EReal.coe_mul]
  have e2 : ∑ e ∈ S, w e = ((∑ e ∈ S, wr e : ℝ) : EReal) := by
    rw [coe_sum]; exact Finset.sum_congr rfl fun e _ => hwr e
  rw [e1, e2, zero_add, zero_add, ← EReal.coe_mul, ← EReal.coe_add, ← EReal.coe_add, ← EReal.coe_mul]
  congr 1
  exact congrArg _ (by rw [mul_add, Finset.mul_sum])

/-- THE VARIANCE LAW over `n` real entries, with the quotients written as the programs write them. -/
theorem var_law {n : ℕ} (hn : (n : ℝ) ≠ 0) (a : Fin n → EReal) (ha : ∀ i, ∃ r : ℝ, a i = r) :
    Ideal.div (∑ i, (a i - Ideal.div (∑ j, a j) ((n : ℝ) : EReal)) * (a i - Ideal.div (∑ j, a j) ((n : ℝ) : EReal)))
        ((n : ℝ) : EReal)
      = Ideal.div (∑ i, a i * a i) ((n : ℝ) : EReal)
        - Ideal.div (∑ j, a j) ((n : ℝ) : EReal) * Ideal.div (∑ j, a j) ((n : ℝ) : EReal) := by
  choose ar har using ha
  have es : ∑ j, a j = ((∑ j, ar j : ℝ) : EReal) := by
    rw [coe_sum]; exact Finset.sum_congr rfl fun j _ => har j
  have esq : ∑ i, a i * a i = ((∑ i, ar i * ar i : ℝ) : EReal) := by
    rw [coe_sum]; exact Finset.sum_congr rfl fun i _ => by rw [har i, EReal.coe_mul]
  rw [es, esq, Ideal.div_coe hn, Ideal.div_coe hn, Ideal.div_coe hn, ← EReal.coe_mul, ← EReal.coe_mul, ← EReal.coe_mul,
    ← EReal.coe_sub]
  have edev : ∑ i, (a i - (((∑ j, ar j) * (1 / (n : ℝ)) : ℝ) : EReal)) * (a i - (((∑ j, ar j) * (1 / (n : ℝ)) : ℝ) : EReal))
      = ((∑ i, (ar i - (∑ j, ar j) * (1 / (n : ℝ))) * (ar i - (∑ j, ar j) * (1 / (n : ℝ))) : ℝ) : EReal) := by
    rw [coe_sum]; exact Finset.sum_congr rfl fun i _ => by rw [har i, ← EReal.coe_sub, ← EReal.coe_mul]
  rw [edev, ← EReal.coe_mul]
  congr 1
  have hexp : ∑ i, (ar i - (∑ j, ar j) * (1 / (n : ℝ))) * (ar i - (∑ j, ar j) * (1 / (n : ℝ)))
      = (∑ i, ar i * ar i) - 2 * ((∑ j, ar j) * (1 / (n : ℝ))) * (∑ j, ar j)
        + (n : ℝ) * (((∑ j, ar j) * (1 / (n : ℝ))) * ((∑ j, ar j) * (1 / (n : ℝ)))) := by
    have : ∀ i, (ar i - (∑ j, ar j) * (1 / (n : ℝ))) * (ar i - (∑ j, ar j) * (1 / (n : ℝ)))
        = ar i * ar i - 2 * ((∑ j, ar j) * (1 / (n : ℝ))) * ar i
          + ((∑ j, ar j) * (1 / (n : ℝ))) * ((∑ j, ar j) * (1 / (n : ℝ))) := fun i => by ring
    simp only [this, Finset.sum_add_distrib, Finset.sum_sub_distrib, ← Finset.mul_sum, Finset.sum_const,
      Finset.card_univ, Fintype.card_fin, nsmul_eq_mul]
    ring
  rw [hexp]
  field_simp
  ring

/-- The inverse square root of a positive real is a real number. -/
theorem rsqrt_real_of_pos (r : ℝ) (h : 0 < r) : Ideal.rsqrt (r : EReal) = (((Real.sqrt r)⁻¹ : ℝ) : EReal) := by
  rw [Ideal.rsqrt_coe, if_neg (by linarith), if_neg (by linarith)]

/-- The word of the float 100000 denotes the real 100000. -/
theorem word_1e5 : Ideal.ofBits .f32 0x47C35000#32 = ((100000 : ℝ) : EReal) := by
  simp [Ideal.ofBits, Ideal.ieee]
  rw [← EReal.coe_mul]
  exact congrArg _ (by norm_num)

/-- The word of the small constant added to the variance denotes a positive real. -/
theorem word_eps : ∃ r : ℝ, 0 < r ∧ Ideal.ofBits .f32 0x3727C5AC#32 = (r : EReal) := by
  refine ⟨_, ?_, by simp [Ideal.ofBits, Ideal.ieee]; rfl⟩
  norm_num

end Cert.Algebra

end
-- ==== Proof.RefReadStat.lean ====
import proofs.«162744_j44349832298684_2_alg».proof.Proof.RefStages
import proofs.«162744_j44349832298684_2_alg».proof.Proof.EdgeFacts
import proofs.«162744_j44349832298684_2_alg».proof.Proof.Algebra
import Idealize.ShloMosaic.Lib.Pipeline.Value
import Idealize.ShloMosaic.Lib.ValueIdx
import Idealize.ShloMosaic.PureOps.Ideal.Laws

/-! The statistics stages of the reference read at an index, for any array `a` of 100000 rows and 128 columns:
    a column's sum is the initial word plus the sum of the column's entries; its mean that sum over the word of the
    row count; a deviation is the entry less the column's mean; the variance the summed squared deviations over the
    divisor (the divisor is positive, so the guarding select takes the quotient); the normalised and rectified
    entry the maximum of zero and the deviation times the inverse square root of variance plus the small constant. -/

noncomputable section

open scoped BigOperators

namespace Cert.ReferenceIdeal.RefRun

open Idealize.ShloMosaic Idealize.ShloMosaic.ValueIdx Cert.ReferenceIdeal Cert.ReferenceIdeal.Facts₀

/-- The host's sum over one axis read at an index, over any shapes: the initial value plus the sum over that
    axis's coordinates. -/
theorem hostReduceAdd_apply {s t u : Shape} {ax : Fin s.rank} (x : FVec Ideal s .f32) (init : FVec Ideal u .f32)
    (h' : s.ReducesTo [ax] t) (hu : 0 < u.numel) (h : s.Reduces [ax] t) (j : t.Idx) :
    Host.reduceAdd (F := Ideal) x init h' hu j = init (Shape.Idx.first hu) + ∑ k : Fin (s.size ax), x (h.lift j k) :=
  Ideal.hostReduceAdd_single h' h x (init (Shape.Idx.first hu)) j

/-- A scalar broadcast to any shape reads the scalar's one entry. -/
theorem bcast0_apply {α : Type} {s : Shape} (h : S_.BroadcastsInDim s (![] : Fin 0 → Fin s.rank)) (x : S_.Idx → α) (i : s.Idx) :
    broadcastInDim s ![] h x i = x ix0 :=
  broadcastInDim_apply _ h x i ix0 fun a => a.elim0

/-- Summing an `[M, K]` array down its columns: the source index over the column `q` with the row `i` inserted
    is `(i, q)`. -/
theorem lift_col (M K : Nat) (hred : (⟨2, ![M, K]⟩ : Shape).Reduces [0] ⟨1, ![K]⟩) (q : Fin K) (i : Fin M) :
    hred.lift (ix1 q) i = ix2 i q := by
  funext c
  apply Fin.ext
  match c with
  | ⟨0, _⟩ => rfl
  | ⟨1, _⟩ => rfl

/-- A row of 128 columns spread down 100000 rows reads, at `(i, k)`, the row's entry `k`. -/
theorem spreadC_apply (b : Cols) (i : Fin 100000) (k : Fin 128) : spreadC b (ix2 i k) = b (ix1 k) := by
  unfold spreadC
  rw [broadcastInDim_apply _ _ _ (ix2 i k) (ix2 (0 : Fin 1) k) (fun a => by
        match a with
        | ⟨0, _⟩ =>
          show (0 : Nat) = if (1 : Nat) = 1 then 0 else i.val
          rw [if_pos rfl]
        | ⟨1, _⟩ =>
          show k.val = if (128 : Nat) = 1 then 0 else k.val
          rw [if_neg (by decide)]),
    broadcastInDim_apply _ _ _ (ix2 (0 : Fin 1) k) (ix1 k) (fun a => by
        match a with
        | ⟨0, _⟩ =>
          show k.val = if (128 : Nat) = 1 then 0 else k.val
          rw [if_neg (by decide)])]

/-- A column's sum. -/
theorem colSum_apply (a : Feat) (q : Fin 128) :
    colSum a (ix1 q) = Ideal.ofBits .f32 0x00000000#32 + ∑ i : Fin 100000, a (ix2 i q) := by
  have hred : S100000x128.Reduces [0] S128 := by decide
  unfold colSum
  rw [hostReduceAdd_apply a _ _ _ hred (ix1 q), constant_apply]
  exact congrArg _ (Finset.sum_congr rfl fun k _ => by rw [lift_col 100000 128 hred q k])

/-- A column's mean. -/
theorem mean_apply (a : Feat) (q : Fin 128) :
    mean a (ix1 q) = Ideal.div (Ideal.ofBits .f32 0x00000000#32 + ∑ i : Fin 100000, a (ix2 i q))
      (Ideal.ofBits .f32 0x47C35000#32) := by
  unfold mean
  rw [Cert.Edge.hostDivf_apply, colSum_apply, Cert.Edge.bcast_scalar_apply]

/-- A deviation, as the variance function computes it, is the entry less the column's mean: both divide the same
    column sum by the same word. -/
theorem dev_apply (a : Feat) (i : Fin 100000) (q : Fin 128) : dev a (ix2 i q) = a (ix2 i q) - mean a (ix1 q) := by
  rw [mean_apply]
  unfold dev
  rw [subf_apply,
    broadcastInDim_apply _ _ _ (ix2 i q) (ix2 (0 : Fin 1) q) (fun c => by
        match c with
        | ⟨0, _⟩ =>
          show (0 : Nat) = if (1 : Nat) = 1 then 0 else i.val
          rw [if_pos rfl]
        | ⟨1, _⟩ =>
          show q.val = if (128 : Nat) = 1 then 0 else q.val
          rw [if_neg (by decide)]),
    Cert.Edge.hostDivf_apply,
    broadcastInDim_apply _ _ _ (ix2 (0 : Fin 1) q) (ix1 q) (fun c => by
        match c with
        | ⟨0, _⟩ =>
          show q.val = if (128 : Nat) = 1 then 0 else q.val
          rw [if_neg (by decide)]),
    colSum_apply, Cert.Edge.bcast_scalar_apply]

/-- The variance function's divisor. -/
theorem varN_apply : varN ix0 = Ideal.ofBits .f32 0x47C35000#32 - (((0#32 : BitVec 32).toInt : ℝ) : EReal) := by
  unfold varN
  rw [subf_apply, constant_apply, sitofp_apply]
  rfl

/-- The divisor is positive. -/
theorem varN_pos :
    Ideal.cmp .ogt (Ideal.ofBits .f32 0x47C35000#32 - (((0#32 : BitVec 32).toInt : ℝ) : EReal))
      (Ideal.ofBits .f32 0x00000000#32) = 1#1 := by
  have h0 : (((0#32 : BitVec 32).toInt : ℝ) : EReal) = 0 := by
    rw [BitVec.toInt_zero, Int.cast_zero, EReal.coe_zero]
  have hpos : (0 : EReal) < ((100000 : ℝ) : EReal) := by
    exact_mod_cast (by norm_num : (0 : ℝ) < 100000)
  rw [h0, sub_zero, Cert.Algebra.word_1e5, Ideal.ofBits_zero_f32]
  unfold Ideal.cmp
  simp [hpos]

/-- A column's variance. -/
theorem var_apply (a : Feat) (q : Fin 128) :
    var a (ix1 q) = Ideal.div (Ideal.ofBits .f32 0x00000000#32
        + ∑ i : Fin 100000, (a (ix2 i q) - mean a (ix1 q)) * (a (ix2 i q) - mean a (ix1 q)))
      (Ideal.ofBits .f32 0x47C35000#32 - (((0#32 : BitVec 32).toInt : ℝ) : EReal)) := by
  unfold var
  rw [select_apply, bcast0_apply, cmpf_apply, Ideal.cmpf_def, varN_apply, constant_apply, varN_pos, select_one,
    Cert.Edge.hostDivf_apply, colSum_apply, bcast0_apply, varN_apply]
  have hs : ∑ i : Fin 100000, mulf (F := Ideal) (dev a) (dev a) (ix2 i q)
      = ∑ i : Fin 100000, (a (ix2 i q) - mean a (ix1 q)) * (a (ix2 i q) - mean a (ix1 q)) :=
    Finset.sum_congr rfl fun i _ => by rw [mulf_apply, dev_apply]
  rw [hs]

/-- The normalised and rectified entry. -/
theorem act_apply (a : Feat) (i : Fin 100000) (k : Fin 128) :
    act a (ix2 i k) = max ((a (ix2 i k) - mean a (ix1 k)) * Ideal.rsqrt (var a (ix1 k) + Ideal.ofBits .f32 0x3727C5AC#32))
      (Ideal.ofBits .f32 0x00000000#32) := by
  unfold act norm
  rw [maximumf_apply, mulf_apply, subf_apply, spreadC_apply, spreadC_apply, Cert.Edge.hostRsqrt_apply, addf_apply,
    Cert.Edge.bcast_scalar_apply, Cert.Edge.bcast_scalar_apply]

end Cert.ReferenceIdeal.RefRun

end
-- ==== Proof.RefReadOut.lean ====
/-
  The reference's result at an entry is the formula of the specification.

  The statistics of the first layer's output are read column by column (its mean, its variance as the mean squared
  deviation); the normalised and clipped entries follow; the second dense layer and the second convolution are read
  as the first ones were.
-/
import proofs.«162744_j44349832298684_2_alg».proof.Proof.RefReadConv
import proofs.«162744_j44349832298684_2_alg».proof.Proof.RefReadStat

noncomputable section

open scoped BigOperators

namespace Cert.ReferenceIdeal.RefRun

open Idealize.ShloMosaic Idealize.ShloMosaic.ValueIdx Cert.ReferenceIdeal Cert.ReferenceIdeal.Facts₀ Cert.Edge

variable (x : Feat) (ei : EdgeList) (W1 : FVec Ideal S128x128 .f32) (b1 : Cols) (W2 : FVec Ideal S64x128 .f32)
  (b2 : FVec Ideal S64 .f32)

/-- The column means of the first layer's output. -/
theorem mean_hb (q : Fin 128) : mean (hb x ei W1 b1) (ix1 q) = Cert.Spec.meanR x ei W1 b1 q := by
  rw [mean_apply]
  simp only [hb_apply]
  rfl

/-- The column variances of the first layer's output. -/
theorem var_hb (q : Fin 128) : var (hb x ei W1 b1) (ix1 q) = Cert.Spec.varR x ei W1 b1 q := by
  rw [var_apply]
  simp only [hb_apply, mean_hb]
  rfl

/-- The normalised, clipped entries. -/
theorem act_hb (i : Fin 100000) (k : Fin 128) : act (hb x ei W1 b1) (ix2 i k) = Cert.Spec.nR x ei W1 b1 i k := by
  rw [act_apply, hb_apply, mean_hb, var_hb]
  rfl

/-- The second dense layer's entries. -/
theorem h2_hb (i : Fin 100000) (q : Fin 64) :
    h2 (act (hb x ei W1 b1)) W2 (ix2 i q) = Cert.Spec.h2R x ei W1 b1 W2 i q := by
  rw [h2_apply]
  unfold Cert.Spec.h2R
  exact Finset.sum_congr rfl fun k _ => by rw [act_hb]

/-- THE REFERENCE'S RESULT at `(i, q)`. -/
theorem out_apply (i : Fin 100000) (q : Fin 64) :
    out x ei W1 b1 W2 b2 (ix2 i q) = Cert.Spec.outR x ei W1 b1 W2 b2 i q := by
  unfold out Cert.Spec.outR
  rw [addf_apply, conv2_apply, spreadC2_apply]
  simp only [h2_hb]

end Cert.ReferenceIdeal.RefRun

end
-- ==== Proof.Bridge.lean ====
/-
  The kernel's formula is the reference's, entry by entry, when every float input is real.

  First convolution: the convolution law, with the first dense layer's entry as the row entry (a finite sum of
  products of reals is real). Mean: the same sum. Variance: the variance law over the 100000 real entries of a
  column. Normalisation: the same function of equal arguments; its value is real because the variance is a
  non-negative real and the small constant is positive, so the inverse square root is real. Second convolution:
  the convolution law again, with the second dense layer's entry as the row entry.
-/
import proofs.«162744_j44349832298684_2_alg».proof.Proof.Spec
import proofs.«162744_j44349832298684_2_alg».proof.Proof.EdgeFacts
import proofs.«162744_j44349832298684_2_alg».proof.Proof.Algebra

noncomputable section

open scoped BigOperators

namespace Cert.Bridge

open Idealize.ShloMosaic Idealize.ShloMosaic.ValueIdx Cert.ReferenceIdeal Cert.Edge Cert.Spec Cert.Algebra

variable (x : FVec Ideal S100000x128 .f32) (ei : EdgeList) (W1 : FVec Ideal S128x128 .f32) (b1 : FVec Ideal S128 .f32)
  (W2 : FVec Ideal S64x128 .f32) (b2 : FVec Ideal S64 .f32)

theorem zw_eq : zw = 0 := Ideal.ofBits_zero_f32
theorem nw_eq : nw = ((100000 : ℝ) : EReal) := word_1e5

/-- A node's factor is real. -/
theorem scale_real (i : Fin 100000) : ∃ r : ℝ, scale ei (ix1 i) = r := by
  obtain ⟨d, ed⟩ := invdeg_real ei (ix1 i)
  obtain ⟨s, es⟩ := sum_real (Finset.univ.filter (fun e : Fin 1600000 => (src ei (ix1 e)).toInt = (i.val : Int)))
    (fun e => wgt ei (ix1 e)) (fun e => wgt_real ei _)
  refine ⟨s + d, ?_⟩
  rw [scale_apply, coef_apply, es, ed, Ideal.ofBits_zero_f32, zero_add, EReal.coe_add]

section
variable (hx : ∀ j, ∃ r : ℝ, x j = r) (hW1 : ∀ j, ∃ r : ℝ, W1 j = r) (hb1 : ∀ j, ∃ r : ℝ, b1 j = r)
include hx hW1

/-- The first dense layer's entries are real. -/
theorem h1_real (i : Fin 100000) (q : Fin 128) : ∃ r : ℝ, h1 x W1 i q = r := by
  unfold h1
  exact sum_real _ _ fun k => by
    obtain ⟨a, ea⟩ := hx (ix2 i k)
    obtain ⟨b, eb⟩ := hW1 (ix2 q k)
    exact ⟨a * b, by rw [ea, eb, EReal.coe_mul]⟩

/-- The first convolution: factoring the node's row out of the gathered sum. -/
theorem hb_eq (i : Fin 100000) (q : Fin 128) : hbK x ei W1 b1 i q = hbR x ei W1 b1 i q := by
  unfold hbK hbR leaving
  rw [scale_apply, coef_apply, zw_eq, Ideal.ofBits_zero_f32]
  exact (conv_law _ (fun e => h1 x W1 (srcRow ei e) q) (fun e => wgt ei (ix1 e)) (h1 x W1 i q) (invdeg ei (ix1 i))
    (b1 (ix1 q)) (fun e he => by
      show h1 x W1 (srcRow ei e) q = h1 x W1 i q
      rw [srcRow, clamp_src ei i e (Finset.mem_filter.1 he).2])
    (h1_real x W1 hx hW1 i q) (fun e => wgt_real ei _) (invdeg_real ei _)).symm

include hb1

/-- The convolved rows are real. -/
theorem hbK_real (i : Fin 100000) (q : Fin 128) : ∃ r : ℝ, hbK x ei W1 b1 i q = r := by
  obtain ⟨h, eh⟩ := h1_real x W1 hx hW1 i q
  obtain ⟨s, es⟩ := scale_real ei i
  obtain ⟨b, eb⟩ := hb1 (ix1 q)
  exact ⟨h * s + b, by unfold hbK; rw [eh, es, eb, ← EReal.coe_mul, ← EReal.coe_add]⟩

/-- The means agree. -/
theorem mean_eq (q : Fin 128) : meanK x ei W1 b1 q = meanR x ei W1 b1 q := by
  unfold meanK meanR sK
  rw [zw_eq, zero_add]
  exact congrArg (fun s => Ideal.div s nw) (Finset.sum_congr rfl fun i _ => hb_eq x ei W1 b1 hx hW1 i q)

/-- The variances agree: the variance law. -/
theorem var_eq (q : Fin 128) : varK x ei W1 b1 q = varR x ei W1 b1 q := by
  unfold varR
  rw [← mean_eq x ei W1 b1 hx hW1 hb1 q]
  simp only [← hb_eq x ei W1 b1 hx hW1]
  unfold varK meanK ssK sK
  have h0 : (((0#32 : BitVec 32).toInt : ℝ) : EReal) = 0 := by simp
  have h5 : ((100000 : ℝ) : EReal) = (((100000 : ℕ) : ℝ) : EReal) := by norm_num
  rw [zw_eq, zero_add, h0, sub_zero, nw_eq, h5]
  exact (var_law (n := 100000) (by norm_num) (fun i => hbK x ei W1 b1 i q)
    (fun i => hbK_real x ei W1 b1 hx hW1 hb1 i q)).symm

/-- The normalised rows agree. -/
theorem n_eq (i : Fin 100000) (k : Fin 128) : nK x ei W1 b1 i k = nR x ei W1 b1 i k := by
  unfold nK nR
  rw [hb_eq x ei W1 b1 hx hW1, mean_eq x ei W1 b1 hx hW1 hb1, var_eq x ei W1 b1 hx hW1 hb1]

/-- A column's mean is real. -/
theorem meanK_real (q : Fin 128) : ∃ r : ℝ, meanK x ei W1 b1 q = r := by
  obtain ⟨s, es⟩ := sum_real Finset.univ (fun i => hbK x ei W1 b1 i q) (fun i => hbK_real x ei W1 b1 hx hW1 hb1 i q)
  refine ⟨s * (1 / 100000), ?_⟩
  unfold meanK sK
  rw [es, nw_eq, Ideal.div_coe (by norm_num), ← EReal.coe_mul]

/-- A column's variance is a non-negative real. -/
theorem varR_real (q : Fin 128) : ∃ v : ℝ, 0 ≤ v ∧ varR x ei W1 b1 q = v := by
  obtain ⟨mu, emu⟩ := meanK_real x ei W1 b1 hx hW1 hb1 q
  have hdev : ∀ i, ∃ r : ℝ, 0 ≤ r ∧
      (hbR x ei W1 b1 i q - meanR x ei W1 b1 q) * (hbR x ei W1 b1 i q - meanR x ei W1 b1 q) = r := fun i => by
    obtain ⟨a, ea⟩ := hbK_real x ei W1 b1 hx hW1 hb1 i q
    refine ⟨(a - mu) * (a - mu), mul_self_nonneg _, ?_⟩
    rw [← hb_eq x ei W1 b1 hx hW1, ← mean_eq x ei W1 b1 hx hW1 hb1, ea, emu, ← EReal.coe_sub, ← EReal.coe_mul]
  obtain ⟨s, hs, es⟩ := sum_coe_nonneg Finset.univ _ hdev
  refine ⟨s * (1 / 100000), mul_nonneg hs (by norm_num), ?_⟩
  unfold varR
  have h0 : (((0#32 : BitVec 32).toInt : ℝ) : EReal) = 0 := by simp
  rw [es, zw_eq, zero_add, h0, sub_zero, nw_eq, Ideal.div_coe (by norm_num), ← EReal.coe_mul]

/-- The normalised rows are real. -/
theorem nR_real (i : Fin 100000) (k : Fin 128) : ∃ r : ℝ, nR x ei W1 b1 i k = r := by
  obtain ⟨a, ea⟩ := hbK_real x ei W1 b1 hx hW1 hb1 i k
  obtain ⟨mu, emu⟩ := meanK_real x ei W1 b1 hx hW1 hb1 k
  obtain ⟨v, hv, ev⟩ := varR_real x ei W1 b1 hx hW1 hb1 k
  obtain ⟨ep, hep, eep⟩ := word_eps
  have eep : epsw = (ep : EReal) := eep
  refine ⟨max ((a - mu) * (Real.sqrt (v + ep))⁻¹) 0, ?_⟩
  unfold nR
  rw [← hb_eq x ei W1 b1 hx hW1, ← mean_eq x ei W1 b1 hx hW1 hb1, ea, emu, ev, eep, zw_eq, ← EReal.coe_add,
    rsqrt_real_of_pos _ (by linarith), ← EReal.coe_sub, ← EReal.coe_mul, ← EReal.coe_zero]
  exact (Monotone.map_max EReal.coe_strictMono.monotone).symm

end

section
variable (hx : ∀ j, ∃ r : ℝ, x j = r) (hW1 : ∀ j, ∃ r : ℝ, W1 j = r) (hb1 : ∀ j, ∃ r : ℝ, b1 j = r)
  (hW2 : ∀ j, ∃ r : ℝ, W2 j = r)
include hx hW1 hb1 hW2

/-- The second dense layer's entries are real. -/
theorem h2R_real (i : Fin 100000) (q : Fin 64) : ∃ r : ℝ, h2R x ei W1 b1 W2 i q = r := by
  unfold h2R
  exact sum_real _ _ fun k => by
    obtain ⟨a, ea⟩ := nR_real x ei W1 b1 hx hW1 hb1 i k
    obtain ⟨b, eb⟩ := hW2 (ix2 q k)
    exact ⟨a * b, by rw [ea, eb, EReal.coe_mul]⟩

/-- THE TWO RESULTS AGREE at every entry. -/
theorem out_eq (i : Fin 100000) (q : Fin 64) : outK x ei W1 b1 W2 b2 i q = outR x ei W1 b1 W2 b2 i q := by
  have hh : (∑ k : Fin 128, nK x ei W1 b1 i k * W2 (ix2 q k)) = h2R x ei W1 b1 W2 i q := by
    unfold h2R
    exact Finset.sum_congr rfl fun k _ => by rw [n_eq x ei W1 b1 hx hW1 hb1]
  unfold outK outR leaving
  rw [hh, scale_apply, coef_apply, zw_eq, Ideal.ofBits_zero_f32]
  exact (conv_law _ (fun e => h2R x ei W1 b1 W2 (srcRow ei e) q) (fun e => wgt ei (ix1 e)) (h2R x ei W1 b1 W2 i q)
    (invdeg ei (ix1 i)) (b2 (ix1 q)) (fun e he => by
      show h2R x ei W1 b1 W2 (srcRow ei e) q = h2R x ei W1 b1 W2 i q
      rw [srcRow, clamp_src ei i e (Finset.mem_filter.1 he).2])
    (h2R_real x ei W1 b1 W2 hx hW1 hb1 hW2 i q) (fun e => wgt_real ei _) (invdeg_real ei _)).symm

end

end Cert.Bridge

end
-- ==== Proof.Finite.lean ====
/-
  Under the precondition every float input is a real number.

  The precondition is the conjunction, over the five float inputs, of "every entry's absolute value is below
  plus infinity". On the extended reals the absolute value of an entry is below plus infinity exactly when the
  entry is neither infinity, that is, when it is a real number.
-/
import proofs.«162744_j44349832298684_2_alg».proof.Pre_finite_inputs
import proofs.«162744_j44349832298684_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Cert.Pre_finite_inputs Cert.Pre_finite_inputs.Facts

instance : Subsingleton S_.Idx := ⟨fun a b => funext fun d => d.elim0⟩

/-- The word of plus infinity denotes the top of the extended reals. -/
theorem top_word : Ideal.ofBits .f32 0x7F800000#32 = ⊤ := by simp [Ideal.ofBits, Ideal.ieee]

/-- An extended real whose absolute value is below the top is a real number. -/
theorem real_of_abs_lt_top (x : EReal) (h : Ideal.cmp .olt (max x (-x)) (Ideal.ofBits .f32 0x7F800000#32) = 1#1) :
    ∃ r : ℝ, x = r := by
  rw [top_word] at h
  induction x using EReal.rec with
  | bot => simp [Ideal.cmp] at h
  | coe r => exact ⟨r, rfl⟩
  | top => simp [Ideal.cmp] at h

/-- One input: if the test "absolute value below infinity" holds at every entry, every entry is real. -/
theorem real_of_test {s : Shape} (x : FVec Ideal s .f32) (hb : S_.BroadcastsInDim s (![] : Fin 0 → Fin s.rank)) (i : s.Idx)
    (h : cmpf (F := Ideal) .olt (Host.absf x) (broadcastInDim s ![] hb (constant (F := Ideal) S_ .f32 0x7F800000#32)) i = 1#1) :
    ∃ r : ℝ, x i = r :=
  real_of_abs_lt_top (x i) h

theorem of_pre (x : FVec Ideal S100000x128 .f32) (ei : IVec S2x1600000 32) (w1 : FVec Ideal S128x128 .f32)
    (b1 : FVec Ideal S128 .f32) (w2 : FVec Ideal S64x128 .f32) (b2 : FVec Ideal S64 .f32)
    (h : fn (F := Ideal) x ei w1 b1 w2 b2 = fun _ => 1#1) :
    (∀ i, ∃ r : ℝ, x i = r) ∧ (∀ i, ∃ r : ℝ, w1 i = r) ∧ (∀ i, ∃ r : ℝ, b1 i = r) ∧ (∀ i, ∃ r : ℝ, w2 i = r)
      ∧ (∀ i, ∃ r : ℝ, b2 i = r) := by
  have h0 := congrFun h ValueIdx.ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun i => ?_⟩
  · exact real_of_test x bcast_S_S100000x128 i (Host.reduce_andi_all _ _ _ _ _ h1 i)
  · exact real_of_test w1 bcast_S_S128x128 i (Host.reduce_andi_all _ _ _ _ _ h2 i)
  · exact real_of_test b1 bcast_S_S128 i (Host.reduce_andi_all _ _ _ _ _ h3 i)
  · exact real_of_test w2 bcast_S_S64x128 i (Host.reduce_andi_all _ _ _ _ _ h4 i)
  · exact real_of_test b2 bcast_S_S64 i (Host.reduce_andi_all _ _ _ _ _ h5 i)

end Cert.Finite

end
-- ==== Proof.lean ====
/-
  The proof of the certificate's claim: a two-layer graph convolution network with a column normalisation between the
  layers, computed by two tiled kernels and a per-node factor, against its plain reference.

  The three frames: the two kernel programs' are the generated frame certificates; the reference is a straight line
  of host operations whose run leaves the arguments as launched. The idealisation rewrote nothing, so it is
  preserved trivially. The value claim: the kernel program's result array is read off its frame run block by block
  (each block of the second call is a function of the first call's output array, of the column sums it
  accumulated over its twenty grid points, and of the per-node factor); the reference's result is read off its run
  stage by stage; and the two formulas agree entry by entry on real inputs, by the distributive law (a node's row
  factors out of the sum over the edges leaving it, because every row gathered at such an edge's source is the
  node's own row) and by the identity between the mean squared deviation and the mean of squares less the squared
  mean.
-/
import proofs.«162744_j44349832298684_2_alg».proof.Defs
import proofs.«162744_j44349832298684_2_alg».proof.Proof.Gen.Kernel
import proofs.«162744_j44349832298684_2_alg».proof.Proof.Gen.Kernel.Skeleton
import proofs.«162744_j44349832298684_2_alg».proof.Proof.Gen.Kernel.Launch
import proofs.«162744_j44349832298684_2_alg».proof.Proof.Gen.Kernel.Points
import proofs.«162744_j44349832298684_2_alg».proof.Proof.Gen.Kernel.Frame
import proofs.«162744_j44349832298684_2_alg».proof.Proof.Gen.KernelIdeal
import proofs.«162744_j44349832298684_2_alg».proof.Proof.Gen.KernelIdeal.Skeleton
import proofs.«162744_j44349832298684_2_alg».proof.Proof.Gen.KernelIdeal.Launch
import proofs.«162744_j44349832298684_2_alg».proof.Proof.Gen.KernelIdeal.Points
import proofs.«162744_j44349832298684_2_alg».proof.Proof.Gen.KernelIdeal.Frame
import proofs.«162744_j44349832298684_2_alg».proof.Proof.Gen.ReferenceIdeal
import proofs.«162744_j44349832298684_2_alg».proof.Proof.Gen.Pre_finite_inputs
import proofs.«162744_j44349832298684_2_alg».proof.Proof.KerRun
import proofs.«162744_j44349832298684_2_alg».proof.Proof.KerVal
import proofs.«162744_j44349832298684_2_alg».proof.Proof.RefRun
import proofs.«162744_j44349832298684_2_alg».proof.Proof.RefOut
import proofs.«162744_j44349832298684_2_alg».proof.Proof.RefReadOut
import proofs.«162744_j44349832298684_2_alg».proof.Proof.Bridge
import proofs.«162744_j44349832298684_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments as launched. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _)⟩)
    (Cert.ReferenceIdeal.RefRun.run_main (F := Ideal) m ρ)

/-- The idealisation rewrote no operation. -/
theorem preserves : Cert.preserves_Kernel_KernelIdeal := trivial

/-- The two results are equal arrays: entry by entry the kernel's formula is the reference's. -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD)
    (x : FVec Ideal Cert.ReferenceIdeal.S100000x128 .f32) (ei : IVec Cert.ReferenceIdeal.S2x1600000 32)
    (W1 : FVec Ideal Cert.ReferenceIdeal.S128x128 .f32) (b1 : FVec Ideal Cert.ReferenceIdeal.S128 .f32)
    (W2 : FVec Ideal Cert.ReferenceIdeal.S64x128 .f32) (b2 : FVec Ideal Cert.ReferenceIdeal.S64 .f32)
    (h0 : x = m ((c.tc : Thread Cert.KernelIdeal.nD Cert.KernelIdeal.τ).loc Cert.KernelIdeal.main_arg0))
    (h1 : ei = m ((c.tc : Thread Cert.KernelIdeal.nD Cert.KernelIdeal.τ).loc Cert.KernelIdeal.main_arg1))
    (h2 : W1 = m ((c.tc : Thread Cert.KernelIdeal.nD Cert.KernelIdeal.τ).loc Cert.KernelIdeal.main_arg2))
    (h3 : b1 = m ((c.tc : Thread Cert.KernelIdeal.nD Cert.KernelIdeal.τ).loc Cert.KernelIdeal.main_arg3))
    (h4 : W2 = m ((c.tc : Thread Cert.KernelIdeal.nD Cert.KernelIdeal.τ).loc Cert.KernelIdeal.main_arg4))
    (h5 : b2 = m ((c.tc : Thread Cert.KernelIdeal.nD Cert.KernelIdeal.τ).loc Cert.KernelIdeal.main_arg5)) :
    Cert.ReferenceIdeal.RefRun.out x ei W1 b1 W2 b2
      = Cert.KernelIdeal.Gen.W4 (F := Ideal) m ρ c (Proc.devRef .tc Cert.KernelIdeal.main_v46) := by
  subst h0 h1 h2 h3 h4 h5
  obtain ⟨hx, hW1, hb1, hW2, hb2⟩ := Cert.Finite.of_pre _ _ _ _ _ _ (hpre c)
  funext j
  obtain ⟨i, q, rfl⟩ : ∃ (i : Fin 100000) (q : Fin 64), j = ix2 i q := ⟨j 0, j 1, eq_ix2 j⟩
  rw [Cert.ReferenceIdeal.RefRun.out_apply]
  refine Eq.trans ?_ (Cert.KernelIdeal.KerVal.W4_apply m ρ c i q).symm
  exact (Cert.Bridge.out_eq _ _ _ _ _ _ hx hW1 hb1 hW2 i q).symm

/-- From memories that agree on the arguments both idealised programs run to the end with equal results. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v46),
    Cert.KernelIdeal.KerRun.run m ρ, ?_⟩
  refine (θ_run Cert.ReferenceIdeal.defs _ _).mono (fun _ h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _)⟩)
    (Cert.ReferenceIdeal.RefRun.run_main (F := Ideal) m' ρ')
  refine ((h c Cert.ReferenceIdeal.main_v113).trans (Cert.ReferenceIdeal.RefRun.out_eq _)).trans ?_
  exact result_eq m ρ hpre c _ _ _ _ _ _ (hagree c).1 (hagree c).2.1 (hagree c).2.2.1 (hagree c).2.2.2.1
    (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
